-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x2048x2048 : Shape := ⟨3, ![16, 2048, 2048]⟩
abbrev S256x256 : Shape := ⟨2, ![256, 256]⟩
abbrev S256 : Shape := ⟨1, ![256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part2 {F : FTy → Type} [FloatOps F] (main_arg1 : FVec F S16x2048x2048 .f32) (main_v32 : IVec S_ 1) (main_cst_12 : FVec F S_ .f32) : IVec S_ 1 :=
  let main_v33 : FVec F S16x2048x2048 .f32 := broadcastInDim S16x2048x2048 ![] bcast_S_S16x2048x2048 main_cst_12
  let main_v34 : IVec S16x2048x2048 1 := cmpf .oge main_arg1 main_v33
  let main_c_13 : IVec S_ 1 := constantI S_ 1 1#1
  let main_v35 : IVec S_ 1 := (fun x v => Host.reduce IntOp.andi x v reducesTo_S16x2048x2048_S_d0_1_2 h_S_) main_v34 main_c_13
  let main_v36 : IVec S_ 1 := andi main_v32 main_v35
  main_v36

def fn_part1 {F : FTy → Type} [FloatOps F] (main_arg1 : FVec F S16x2048x2048 .f32) (main_arg4 : FVec F S256 .f32) (main_arg5 : FVec F S256 .f32) (main_arg6 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_cst_12 : FVec F S_ .f32 := constant S_ .f32 0x00000000#32
  fn_part2 (F := F) main_arg1 main_v32 main_cst_12

def fn {F : FTy → Type} [FloatOps F] (main_arg0 : FVec F S16x2048x256 .f32) (main_arg1 : FVec F S16x2048x2048 .f32) (main_arg2 : FVec F S256x256 .f32) (main_arg3 : FVec F S256 .f32) (main_arg4 : FVec F S256 .f32) (main_arg5 : FVec F S256 .f32) (main_arg6 : FVec F S_ .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg4 main_arg5 main_arg6 main_v13 main_v16
-- ==== Kernel.lean ====
abbrev S16x2048x256 : Shape := ⟨3, ![16, 2048, 256]⟩
abbrev S16x2048x2048 : Shape := ⟨3, ![16, 2048, 2048]⟩
abbrev S256x256 : Shape := ⟨2, ![256, 256]⟩
abbrev S256 : Shape := ⟨1, ![256]⟩
abbrev S_ : Shape := ⟨0, ![]⟩
abbrev S16x2048x1 : Shape := ⟨3, ![16, 2048, 1]⟩
abbrev S1x256x2048 : Shape := ⟨3, ![1, 256, 2048]⟩
abbrev S1x256x1 : Shape := ⟨3, ![1, 256, 1]⟩
abbrev S256x2048 : Shape := ⟨2, ![256, 2048]⟩
abbrev S256x1 : Shape := ⟨2, ![256, 1]⟩
abbrev S16x1x2048 : Shape := ⟨3, ![16, 1, 2048]⟩
abbrev S1x256x256 : Shape := ⟨3, ![1, 256, 256]⟩
abbrev S1x256 : Shape := ⟨2, ![1, 256]⟩
abbrev S1x512x512 : Shape := ⟨3, ![1, 512, 512]⟩
abbrev S1x512x1 : Shape := ⟨3, ![1, 512, 1]⟩
abbrev S1x1x512 : Shape := ⟨3, ![1, 1, 512]⟩
abbrev S1x2048x256 : Shape := ⟨3, ![1, 2048, 256]⟩
abbrev S1x512x256 : Shape := ⟨3, ![1, 512, 256]⟩
abbrev S512x256 : Shape := ⟨2, ![512, 256]⟩
abbrev S512x512 : Shape := ⟨2, ![512, 512]⟩
abbrev S512x1 : Shape := ⟨2, ![512, 1]⟩
abbrev S1x512 : Shape := ⟨2, ![1, 512]⟩
abbrev S32768x256 : Shape := ⟨2, ![32768, 256]⟩
abbrev S1x1 : Shape := ⟨2, ![1, 1]⟩

abbrev nBuf : Space → Nat
  | .hbm => 42
  | .vmem => 32
  | .smem => 0
  | _ => 0

abbrev bufTy : (tb : Table) → Fin (tcTables nBuf tb) → BufTy
  | .hbm, ⟨0, _⟩ => ⟨S16x2048x256, .f32⟩
  | .hbm, ⟨1, _⟩ => ⟨S16x2048x2048, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S16x2048x1, .f32⟩
  | .hbm, ⟨8, _⟩ => ⟨S16x1x2048, .f32⟩
  | .hbm, ⟨9, _⟩ => ⟨S16x2048x256, .bf16⟩
  | .hbm, ⟨10, _⟩ => ⟨S16x2048x256, .f32⟩
  | .hbm, ⟨11, _⟩ => ⟨S32768x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S_, .i32⟩
  | .hbm, ⟨18, _⟩ => ⟨S_, .f32⟩
  | .hbm, ⟨19, _⟩ => ⟨S256, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S1x1, .f32⟩
  | .hbm, ⟨41, _⟩ => ⟨S16x2048x256, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1, .f32⟩
  | .local _ .vmem, ⟨3, _⟩ => ⟨S1x256x1, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256, .f32⟩
  | .local _ .vmem, ⟨8, _⟩ => ⟨S1x256x256, .bf16⟩
  | .local _ .vmem, ⟨9, _⟩ => ⟨S1x256x256, .bf16⟩
  | .local _ .vmem, ⟨10, _⟩ => ⟨S1x512x512, .f32⟩
  | .local _ .vmem, ⟨11, _⟩ => ⟨S1x512x512, .f32⟩
  | .local _ .vmem, ⟨12, _⟩ => ⟨S1x512x1, .f32⟩
  | .local _ .vmem, ⟨13, _⟩ => ⟨S1x512x1, .f32⟩
  | .local _ .vmem, ⟨14, _⟩ => ⟨S1x1x512, .f32⟩
  | .local _ .vmem, ⟨15, _⟩ => ⟨S1x1x512, .f32⟩
  | .local _ .vmem, ⟨16, _⟩ => ⟨S1x2048x256, .bf16⟩
  | .local _ .vmem, ⟨17, _⟩ => ⟨S1x2048x256, .bf16⟩
  | .local _ .vmem, ⟨18, _⟩ => ⟨S1x512x256, .f32⟩
  | .local _ .vmem, ⟨19, _⟩ => ⟨S1x512x256, .f32⟩
  | .local _ .vmem, ⟨20, _⟩ => ⟨S512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S256, .f32⟩
  | .local _ .vmem, ⟨26, _⟩ => ⟨S256, .f32⟩
  | .local _ .vmem, ⟨27, _⟩ => ⟨S256, .f32⟩
  | .local _ .vmem, ⟨28, _⟩ => ⟨S256, .f32⟩
  | .local _ .vmem, ⟨29, _⟩ => ⟨S1x1, .f32⟩
  | .local _ .vmem, ⟨30, _⟩ => ⟨S1x512x256, .f32⟩
  | .local _ .vmem, ⟨31, _⟩ => ⟨S1x512x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem7_1 : DmaSem sig := 30

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![16, 4, 4], ![false, false, false]⟩

def k2_mult1 (i : grid2.Coords) : BitVec 32 :=
  let arg2 : BitVec 32 := BitVec.ofNat 32 (i 2).val
  let c512_i32 : BitVec 32 := 512#32
  let v22 : BitVec 32 := Scalar.muli arg2 c512_i32
  v22
def k2_off1 (i : grid2.Coords) : Fin 3 → Nat :=
  let c0_9 : Index := 0#32
  let arg2 : BitVec 32 := BitVec.ofNat 32 (i 2).val
  let c512_i32 : BitVec 32 := 512#32
  let v22 : BitVec 32 := Scalar.muli arg2 c512_i32
  let v23 : BitVec 32 := v22
  let v24 : Index := Scalar.indexCast v23
  let c0_10 : Index := 0#32
  ![0, v24.toNat, 0]
def k2_cond2 (i : grid2.Coords) : BitVec 1 :=
  let arg2 : BitVec 32 := BitVec.ofNat 32 (i 2).val
  let c3_i32 : BitVec 32 := 3#32
  let v34 : BitVec 1 := Scalar.cmpi .eq arg2 c3_i32
  let v35 : BitVec 32 := Scalar.extui v34
  let c0_i32_16 : BitVec 32 := 0#32
  let v36 : BitVec 1 := Scalar.cmpi .ne v35 c0_i32_16
  v36

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1x512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨2, ![16, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x512x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  transposes_S16x2048x1_S16x1x2048_0_2_1 : S16x2048x1.Transposes [0, 2, 1] S16x1x2048
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  transposes_S256x256_p1_0_S256x256 : S256x256.Transposes [1, 0] S256x256
  shapeCasts_S256_S1x256 : S256.ShapeCasts S1x256
  broadcasts_S1x256_S256x256 : S1x256.Broadcasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S512x512_d0_w32 : S512x512.Iotas .tc 32 [0]
  iota_S512x512_d1_w32 : S512x512.Iotas .tc 32 [1]
  natLt_1_32 : 1 < 32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S512x1_S512x512 : S512x1.Broadcasts S512x512
  broadcasts_S1x512_S512x512 : S1x512.Broadcasts S512x512
  h_S1x512x256 : 0 < S1x512x256.numel
  shapeCasts_S1x512x256_S512x256 : S1x512x256.ShapeCasts S512x256
  inb_S1x512x256_S1x512x256_0_0_0 : ∀ a, (![0, 0, 0] : Fin 3 → Nat) a + S1x512x256.size a ≤ S1x512x256.size a
  shapeCasts_S512x256_S1x512x256 : S512x256.ShapeCasts S1x512x256
  shapeCasts_S16x2048x256_S32768x256 : S16x2048x256.ShapeCasts S32768x256
  reducesTo_S32768x256_S256_d0 : S32768x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S32768x256_0_1 : S1x256.BroadcastsInDim S32768x256 (![0, 1] : Fin 2 → Fin S32768x256.rank)
  shapeCasts_S_S1x1 : S_.ShapeCasts S1x1
  shapeCasts_S256_S256 : S256.ShapeCasts S256
  broadcasts_S1x256_S512x256 : S1x256.Broadcasts S512x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S256x256_S256x256_S256x256_1_0_0_1_n_n_wf : DotDims.WF S256x256 S256x256 S256x256 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x2048x2048.size a
  hwx0_0 : ∀ i : grid0.Coords, EltTy.bits .f32 = 32 ∨ (Rect.block (s := S16x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S16x2048x1.size a
  hwx0_1 : ∀ i : grid0.Coords, EltTy.bits .f32 = 32 ∨ (Rect.block (s := S16x2048x1) S1x256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S16x2048x256.size a
  hwx1_0 : ∀ i : grid1.Coords, EltTy.bits .f32 = 32 ∨ (Rect.block (s := S16x2048x256) S1x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S16x2048x256.size a
  hwx1_3 : ∀ i : grid1.Coords, EltTy.bits .bf16 = 32 ∨ (Rect.block (s := S16x2048x256) S1x256x256.size (cc1_transform_3 i) (hinb1_3 i)).WholeWords (EltTy.packing .bf16)
  hrank2 : 0 < grid2.rank
  k2_mult1_dvd : ∀ i : grid2.Coords, 512 ∣ (k2_mult1 i).toNat
  k2_off1_inb : ∀ i : grid2.Coords, ∀ a, (k2_off1 i) a + S1x512x256.size a ≤ S1x2048x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S16x2048x2048.size a
  hwx2_0 : ∀ i : grid2.Coords, EltTy.bits .f32 = 32 ∨ (Rect.block (s := S16x2048x2048) S1x512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1.size a ≤ S16x2048x1.size a
  hwx2_1 : ∀ i : grid2.Coords, EltTy.bits .f32 = 32 ∨ (Rect.block (s := S16x2048x1) S1x512x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S16x1x2048.size a
  hwx2_2 : ∀ i : grid2.Coords, EltTy.bits .f32 = 32 ∨ (Rect.block (s := S16x1x2048) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x256.size a ≤ S16x2048x256.size a
  hwx2_3 : ∀ i : grid2.Coords, EltTy.bits .bf16 = 32 ∨ (Rect.block (s := S16x2048x256) S1x2048x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x256.size a ≤ S16x2048x256.size a
  hwx2_4 : ∀ i : grid2.Coords, EltTy.bits .f32 = 32 ∨ (Rect.block (s := S16x2048x256) S1x512x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x256.size a ≤ S16x2048x256.size a
  hwx3_0 : ∀ i : grid3.Coords, EltTy.bits .f32 = 32 ∨ (Rect.block (s := S16x2048x256) S1x512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x256.size a ≤ S16x2048x256.size a
  hwx3_1 : ∀ i : grid3.Coords, EltTy.bits .f32 = 32 ∨ (Rect.block (s := S16x2048x256) S1x512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x512x256.size a ≤ S16x2048x256.size a
  hwx3_7 : ∀ i : grid3.Coords, EltTy.bits .f32 = 32 ∨ (Rect.block (s := S16x2048x256) S1x512x256.size (cc3_transform_7 i) (hinb3_7 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x2048x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x512x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v3) S1x512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S1x512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg4) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg5) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v9) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v10) S1x512x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S16x2048x256 : Shape := ⟨3, ![16, 2048, 256]⟩
abbrev S16x2048x2048 : Shape := ⟨3, ![16, 2048, 2048]⟩
abbrev S256x256 : Shape := ⟨2, ![256, 256]⟩
abbrev S256 : Shape := ⟨1, ![256]⟩
abbrev S_ : Shape := ⟨0, ![]⟩
abbrev S2048x2048 : Shape := ⟨2, ![2048, 2048]⟩
abbrev S1x2048x2048 : Shape := ⟨3, ![1, 2048, 2048]⟩
abbrev S16x2048 : Shape := ⟨2, ![16, 2048]⟩
abbrev S16x2048x1 : Shape := ⟨3, ![16, 2048, 1]⟩
abbrev S16x1x2048 : Shape := ⟨3, ![16, 1, 2048]⟩
abbrev S1x1x256 : Shape := ⟨3, ![1, 1, 256]⟩
abbrev S32768x256 : Shape := ⟨2, ![32768, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x2048, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S2048x2048, .f32⟩
  | .hbm, ⟨14, _⟩ => ⟨S1x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .i1⟩
  | .hbm, ⟨26, _⟩ => ⟨S_, .f32⟩
  | .hbm, ⟨27, _⟩ => ⟨S_, .f32⟩
  | .hbm, ⟨28, _⟩ => ⟨S16x2048, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x1x2048, .f32⟩
  | .hbm, ⟨34, _⟩ => ⟨S16x2048x2048, .f32⟩
  | .hbm, ⟨35, _⟩ => ⟨S16x2048x2048, .f32⟩
  | .hbm, ⟨36, _⟩ => ⟨S16x2048x256, .f32⟩
  | .hbm, ⟨37, _⟩ => ⟨S1x1x256, .f32⟩
  | .hbm, ⟨38, _⟩ => ⟨S16x2048x256, .f32⟩
  | .hbm, ⟨39, _⟩ => ⟨S16x2048x256, .f32⟩
  | .hbm, ⟨40, _⟩ => ⟨S16x2048x256, .f32⟩
  | .hbm, ⟨41, _⟩ => ⟨S32768x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S_, .i32⟩
  | .hbm, ⟨48, _⟩ => ⟨S_, .f32⟩
  | .hbm, ⟨49, _⟩ => ⟨S256, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S32768x256, .f32⟩
  | .hbm, ⟨72, _⟩ => ⟨S32768x256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S32768x256, .f32⟩
  | .hbm, ⟨79, _⟩ => ⟨S32768x256, .f32⟩
  | .hbm, ⟨80, _⟩ => ⟨S1x256, .f32⟩
  | .hbm, ⟨81, _⟩ => ⟨S32768x256, .f32⟩
  | .hbm, ⟨82, _⟩ => ⟨S32768x256, .f32⟩
  | .hbm, ⟨83, _⟩ => ⟨S1x256, .f32⟩
  | .hbm, ⟨84, _⟩ => ⟨S32768x256, .f32⟩
  | .hbm, ⟨85, _⟩ => ⟨S32768x256, .f32⟩
  | .hbm, ⟨86, _⟩ => ⟨S16x2048x256, .f32⟩
  | .hbm, ⟨87, _⟩ => ⟨S_, .f32⟩
  | .hbm, ⟨88, _⟩ => ⟨S16x2048x256, .f32⟩
  | .hbm, ⟨89, _⟩ => ⟨S16x2048x256, .f32⟩
  | .hbm, ⟨90, _⟩ => ⟨S16x2048x256, .f32⟩
  | .hbm, ⟨91, _⟩ => ⟨S16x2048x256, .f32⟩
  | .hbm, ⟨92, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v12 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_cst_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_cst_1 : Ref sig .tc := ⟨.hbm, 58, rfl⟩
abbrev main_call2_v8 : Ref sig .tc := ⟨.hbm, 59, rfl⟩
abbrev main_call2_cst_2 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_cst_3 : Ref sig .tc := ⟨.hbm, 64, rfl⟩
abbrev main_call2_v12 : Ref sig .tc := ⟨.hbm, 65, rfl⟩
abbrev main_call2_cst_4 : Ref sig .tc := ⟨.hbm, 66, rfl⟩
abbrev main_call2_call0_v0 : Ref sig .tc := ⟨.hbm, 67, rfl⟩
abbrev main_call2_call0_v1 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call3_cst : Ref sig .tc := ⟨.hbm, 87, rfl⟩
abbrev main_call3_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S256_S1x1x256_2 : S256.BroadcastsInDim S1x1x256 (![2] : Fin 1 → Fin S1x1x256.rank)
  bcast_S1x1x256_S16x2048x256_0_1_2 : S1x1x256.BroadcastsInDim S16x2048x256 (![0, 1, 2] : Fin 3 → Fin S16x2048x256.rank)
  shapeCasts_S16x2048x256_S32768x256 : S16x2048x256.ShapeCasts S32768x256
  reducesTo_S32768x256_S256_d0 : S32768x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S32768x256_0_1 : S1x256.BroadcastsInDim S32768x256 (![0, 1] : Fin 2 → Fin S32768x256.rank)
  shapeCasts_S32768x256_S16x2048x256 : S32768x256.ShapeCasts S16x2048x256
  bcast_S_S16x2048x256 : S_.BroadcastsInDim S16x2048x256 (![] : Fin 0 → Fin S16x2048x256.rank)
  dot_S16x2048x256_S256x256_S16x2048x256_2_1_01_0_n_n_wf : DotDims.WF S16x2048x256 S256x256 S16x2048x256 [2] [1] [0, 1] [0] [] []
  dot_S16x2048x2048_S16x2048x256_S16x2048x256_2_1_1_2_0_0_wf : DotDims.WF S16x2048x2048 S16x2048x256 S16x2048x256 [2] [1] [1] [2] [0] [0]

variable [Facts₀]

def dot_S16x2048x256_S256x256_S16x2048x256_2_1_01_0_n_n : DotDims S16x2048x256 S256x256 S16x2048x256 where
  lhsContracting := [2]
  rhsContracting := [1]
  lhsNonContracting := [0, 1]
  rhsNonContracting := [0]
  lhsBatch := []
  rhsBatch := []
  wf := dot_S16x2048x256_S256x256_S16x2048x256_2_1_01_0_n_n_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.RefOps.lean ====
/-
  The reference program's @main as ONE list of host operations, in program order: each outlined function (the test for an
  infinite scale, the two selections, the variance, the clamp at zero) has its operations listed where it is called, over
  the buffers of that call.  Below it, for each operation in the same order, the fact that it only touches TensorCore buffers.
  Tables only: that @main IS this list, and what the list computes, are proved in RefRun.lean.
-/
import proofs.«110154_j39565238731446_1_alg».proof.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal

variable {F : FTy → Type} [FloatOps F] [Cert.ReferenceIdeal.Facts]
open Cert.ReferenceIdeal.Facts₀ Cert.ReferenceIdeal.Facts

/-- @main's 86 host operations, the outlined functions' among them at their calls. -/
abbrev ops : List (HloOp τ sig (Elt F)) :=
  [ nullary main_v0 (iotaInDim S2048x2048 32 0),
    nullary main_v1 (iotaInDim S2048x2048 32 1),
    nullary main_c (constantI S_ 32 0#32),
    unary main_c main_v2 (broadcastInDim S2048x2048 ![] bcast_S_S2048x2048 : (⟨S_, .i32⟩ : BufTy).Contents (Elt F) → (⟨S2048x2048, .i32⟩ : BufTy).Contents (Elt F)),
    binary main_v0 main_v2 main_v3 (addi : (⟨S2048x2048, .i32⟩ : BufTy).Contents (Elt F) → (⟨S2048x2048, .i32⟩ : BufTy).Contents (Elt F) → (⟨S2048x2048, .i32⟩ : BufTy).Contents (Elt F)),
    binary main_v3 main_v1 main_v4 (cmpi .eq : (⟨S2048x2048, .i32⟩ : BufTy).Contents (Elt F) → (⟨S2048x2048, .i32⟩ : BufTy).Contents (Elt F) → (⟨S2048x2048, .i1⟩ : BufTy).Contents (Elt F)),
    unary main_v4 main_v5 (uitofp .f32 : (⟨S2048x2048, .i1⟩ : BufTy).Contents (Elt F) → (⟨S2048x2048, .f32⟩ : BufTy).Contents (Elt F)),
    unary main_v5 main_v6 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v6 main_v7 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    binary main_arg1 main_v7 main_v8 (addf : (⟨S16x2048x2048, .f32⟩ : BufTy).Contents (Elt F) → (⟨S16x2048x2048, .f32⟩ : BufTy).Contents (Elt F) → (⟨S16x2048x2048, .f32⟩ : BufTy).Contents (Elt F)),
    nullary main_cst (constant S_ .f32 0x00000000#32),
    binary main_v8 main_cst main_v9 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_0 (constant S_ .f32 0xBF000000#32),
    unary main_cst_0 main_v10 (broadcastInDim S16x2048 ![] bcast_S_S16x2048 : (⟨S_, .f32⟩ : BufTy).Contents (Elt F) → (⟨S16x2048, .f32⟩ : BufTy).Contents (Elt F)),
    binary main_v9 main_v10 main_v11 (Host.powf : (⟨S16x2048, .f32⟩ : BufTy).Contents (Elt F) → (⟨S16x2048, .f32⟩ : BufTy).Contents (Elt F) → (⟨S16x2048, .f32⟩ : BufTy).Contents (Elt F)),
    TRef.unary (.of main_v11) main_call0.v0 Host.absf,
    TRef.nullary main_call0.cst (constant S_ .f32 0x7F800000#32),
    TRef.unary main_call0.cst main_call0.v1 (broadcastInDim S16x2048 ![] bcast_S_S16x2048),
    TRef.binary main_call0.v0 main_call0.v1 main_call0.v2 (cmpf .oeq),
    nullary main_cst_1 (constant S_ .f32 0x00000000#32),
    TRef.unary (.of main_cst_1) main_call1.v0 id,
    TRef.unary main_call1.v0 main_call1.v1 (broadcastInDim S16x2048 ![] bcast_S_S16x2048),
    TRef.ternary (.of main_v12) main_call1.v1 (.of main_v11) main_call1.v2 select,
    unary main_v13 main_v14 (broadcastInDim S16x2048x1 ![0, 1] bcast_S16x2048_S16x2048x1_0_1 : (⟨S16x2048, .f32⟩ : BufTy).Contents (Elt F) → (⟨S16x2048x1, .f32⟩ : BufTy).Contents (Elt F)),
    unary main_v14 main_v15 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v15 main_v8 main_v16 (mulf : (⟨S16x2048x2048, .f32⟩ : BufTy).Contents (Elt F) → (⟨S16x2048x2048, .f32⟩ : BufTy).Contents (Elt F) → (⟨S16x2048x2048, .f32⟩ : BufTy).Contents (Elt F)),
    unary main_v13 main_v17 (broadcastInDim S16x1x2048 ![0, 2] bcast_S16x2048_S16x1x2048_0_2 : (⟨S16x2048, .f32⟩ : BufTy).Contents (Elt F) → (⟨S16x1x2048, .f32⟩ : BufTy).Contents (Elt F)),
    unary main_v17 main_v18 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v16 main_v18 main_v19 (mulf : (⟨S16x2048x2048, .f32⟩ : BufTy).Contents (Elt F) → (⟨S16x2048x2048, .f32⟩ : BufTy).Contents (Elt F) → (⟨S16x2048x2048, .f32⟩ : BufTy).Contents (Elt F)),
    binary main_arg0 main_arg2 main_v20 ((fun l r => Host.dotGeneral dot_S16x2048x256_S256x256_S16x2048x256_2_1_01_0_n_n none l r) : (⟨S16x2048x256, .f32⟩ : BufTy).Contents (Elt F) → (⟨S256x256, .f32⟩ : BufTy).Contents (Elt F) → (⟨S16x2048x256, .f32⟩ : BufTy).Contents (Elt F)),
    unary main_arg3 main_v21 (broadcastInDim S1x1x256 ![2] bcast_S256_S1x1x256_2 : (⟨S256, .f32⟩ : BufTy).Contents (Elt F) → (⟨S1x1x256, .f32⟩ : BufTy).Contents (Elt F)),
    unary main_v21 main_v22 (broadcastInDim S16x2048x256 ![0, 1, 2] bcast_S1x1x256_S16x2048x256_0_1_2 : (⟨S1x1x256, .f32⟩ : BufTy).Contents (Elt F) → (⟨S16x2048x256, .f32⟩ : BufTy).Contents (Elt F)),
    binary main_v20 main_v22 main_v23 (addf : (⟨S16x2048x256, .f32⟩ : BufTy).Contents (Elt F) → (⟨S16x2048x256, .f32⟩ : BufTy).Contents (Elt F) → (⟨S16x2048x256, .f32⟩ : BufTy).Contents (Elt F)),
    binary main_v19 main_v23 main_v24 ((fun l r => Host.dotGeneral dot_S16x2048x2048_S16x2048x256_S16x2048x256_2_1_1_2_0_0 none l r) : (⟨S16x2048x2048, .f32⟩ : BufTy).Contents (Elt F) → (⟨S16x2048x256, .f32⟩ : BufTy).Contents (Elt F) → (⟨S16x2048x256, .f32⟩ : BufTy).Contents (Elt F)),
    reshape main_v24 main_v25 rfl shapeCasts_S16x2048x256_S32768x256,
    nullary main_cst_2 (constant S_ .f32 0x00000000#32),
    binary main_v25 main_cst_2 main_v26 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    nullary main_cst_3 (constant S_ .f32 0x47000000#32),
    unary main_cst_3 main_v27 (broadcastInDim S256 ![] bcast_S_S256 : (⟨S_, .f32⟩ : BufTy).Contents (Elt F) → (⟨S256, .f32⟩ : BufTy).Contents (Elt F)),
    binary main_v26 main_v27 main_v28 (Host.divf : (⟨S256, .f32⟩ : BufTy).Contents (Elt F) → (⟨S256, .f32⟩ : BufTy).Contents (Elt F) → (⟨S256, .f32⟩ : BufTy).Contents (Elt F)),
    nullary main_c_4 (constantI S_ 32 0#32),
    TRef.nullary main_call2.cst (constant S_ .f32 0x00000000#32),
    TRef.binary (.of main_v25) main_call2.cst main_call2.v0 (fun x v => Host.reduceAdd x v reducesTo_S32768x256_S256_d0 h_S_),
    TRef.unary main_call2.v0 main_call2.v1 (broadcastInDim S1x256 ![1] bcast_S256_S1x256_1),
    TRef.nullary main_call2.cst_0 (constant S_ .f32 0x47000000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S32768x256 ![0, 1] bcast_S1x256_S32768x256_0_1),
    TRef.binary (.of main_v25) main_call2.v4 main_call2.v5 subf,
    TRef.binary main_call2.v5 main_call2.v5 main_call2.v6 mulf,
    TRef.unary (.of main_c_4) main_call2.v7 (sitofp .f32),
    TRef.nullary main_call2.cst_1 (constant S_ .f32 0x47000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S32768x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b),
    unary main_v28 main_v30 (broadcastInDim S1x256 ![1] bcast_S256_S1x256_1 : (⟨S256, .f32⟩ : BufTy).Contents (Elt F) → (⟨S1x256, .f32⟩ : BufTy).Contents (Elt F)),
    unary main_v30 main_v31 (broadcastInDim S32768x256 ![0, 1] bcast_S1x256_S32768x256_0_1 : (⟨S1x256, .f32⟩ : BufTy).Contents (Elt F) → (⟨S32768x256, .f32⟩ : BufTy).Contents (Elt F)),
    binary main_v25 main_v31 main_v32 (subf : (⟨S32768x256, .f32⟩ : BufTy).Contents (Elt F) → (⟨S32768x256, .f32⟩ : BufTy).Contents (Elt F) → (⟨S32768x256, .f32⟩ : BufTy).Contents (Elt F)),
    nullary main_cst_5 (constant S_ .f32 0x3727C5AC#32),
    unary main_cst_5 main_v33 (broadcastInDim S256 ![] bcast_S_S256 : (⟨S_, .f32⟩ : BufTy).Contents (Elt F) → (⟨S256, .f32⟩ : BufTy).Contents (Elt F)),
    binary main_v29 main_v33 main_v34 (addf : (⟨S256, .f32⟩ : BufTy).Contents (Elt F) → (⟨S256, .f32⟩ : BufTy).Contents (Elt F) → (⟨S256, .f32⟩ : BufTy).Contents (Elt F)),
    unary main_v34 main_v35 (Host.rsqrt : (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S32768x256 ![0, 1] bcast_S1x256_S32768x256_0_1 : (⟨S1x256, .f32⟩ : BufTy).Contents (Elt F) → (⟨S32768x256, .f32⟩ : BufTy).Contents (Elt F)),
    binary main_v32 main_v37 main_v38 (mulf : (⟨S32768x256, .f32⟩ : BufTy).Contents (Elt F) → (⟨S32768x256, .f32⟩ : BufTy).Contents (Elt F) → (⟨S32768x256, .f32⟩ : BufTy).Contents (Elt F)),
    unary main_arg4 main_v39 (broadcastInDim S1x256 ![1] bcast_S256_S1x256_1 : (⟨S256, .f32⟩ : BufTy).Contents (Elt F) → (⟨S1x256, .f32⟩ : BufTy).Contents (Elt F)),
    unary main_v39 main_v40 (broadcastInDim S32768x256 ![0, 1] bcast_S1x256_S32768x256_0_1 : (⟨S1x256, .f32⟩ : BufTy).Contents (Elt F) → (⟨S32768x256, .f32⟩ : BufTy).Contents (Elt F)),
    binary main_v38 main_v40 main_v41 (mulf : (⟨S32768x256, .f32⟩ : BufTy).Contents (Elt F) → (⟨S32768x256, .f32⟩ : BufTy).Contents (Elt F) → (⟨S32768x256, .f32⟩ : BufTy).Contents (Elt F)),
    unary main_arg5 main_v42 (broadcastInDim S1x256 ![1] bcast_S256_S1x256_1 : (⟨S256, .f32⟩ : BufTy).Contents (Elt F) → (⟨S1x256, .f32⟩ : BufTy).Contents (Elt F)),
    unary main_v42 main_v43 (broadcastInDim S32768x256 ![0, 1] bcast_S1x256_S32768x256_0_1 : (⟨S1x256, .f32⟩ : BufTy).Contents (Elt F) → (⟨S32768x256, .f32⟩ : BufTy).Contents (Elt F)),
    binary main_v41 main_v43 main_v44 (addf : (⟨S32768x256, .f32⟩ : BufTy).Contents (Elt F) → (⟨S32768x256, .f32⟩ : BufTy).Contents (Elt F) → (⟨S32768x256, .f32⟩ : BufTy).Contents (Elt F)),
    reshape main_v44 main_v45 rfl shapeCasts_S32768x256_S16x2048x256,
    TRef.nullary main_call3.cst (constant S_ .f32 0x00000000#32),
    TRef.unary main_call3.cst main_call3.v0 (broadcastInDim S16x2048x256 ![] bcast_S_S16x2048x256),
    TRef.binary (.of main_v45) main_call3.v0 main_call3.v1 maximumf,
    unary main_arg6 main_v47 (broadcastInDim S16x2048x256 ![] bcast_S_S16x2048x256 : (⟨S_, .f32⟩ : BufTy).Contents (Elt F) → (⟨S16x2048x256, .f32⟩ : BufTy).Contents (Elt F)),
    binary main_v47 main_arg0 main_v48 (mulf : (⟨S16x2048x256, .f32⟩ : BufTy).Contents (Elt F) → (⟨S16x2048x256, .f32⟩ : BufTy).Contents (Elt F) → (⟨S16x2048x256, .f32⟩ : BufTy).Contents (Elt F)),
    binary main_v46 main_v48 main_v49 (addf : (⟨S16x2048x256, .f32⟩ : BufTy).Contents (Elt F) → (⟨S16x2048x256, .f32⟩ : BufTy).Contents (Elt F) → (⟨S16x2048x256, .f32⟩ : BufTy).Contents (Elt F)) ]

/-- Every operation of the list reads and writes TensorCore buffers only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., unary_bufs_sub .., unary_bufs_sub .., binary_bufs_sub .., nullary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., reshape_bufs_sub .., nullary_bufs_sub .., unary_bufs_sub .., binary_bufs_sub .., unary_bufs_sub ..,
    binary_bufs_sub .., binary_bufs_sub ..⟩

/-- The reference each operation writes, in the same order. -/
abbrev opsW : List (Ref sig .tc) :=
  [main_v0, main_v1, main_c, main_v2, main_v3, main_v4, main_v5, main_v6, main_v7, main_v8,
    main_cst, main_v9, main_cst_0, main_v10, main_v11, main_call0_v0, main_call0_cst, main_call0_v1, main_v12, main_cst_1,
    main_call1_v0, main_call1_v1, main_v13, main_v14, main_v15, main_v16, main_v17, main_v18, main_v19, main_v20,
    main_v21, main_v22, main_v23, main_v24, main_v25, main_cst_2, main_v26, main_cst_3, main_v27, main_v28,
    main_c_4, main_call2_cst, main_call2_v0, main_call2_v1, main_call2_cst_0, main_call2_v2, main_call2_v3, main_call2_v4, main_call2_v5, main_call2_v6,
    main_call2_v7, main_call2_cst_1, main_call2_v8, main_call2_cst_2, main_call2_v9, main_call2_v10, main_call2_v11, main_call2_cst_3, main_call2_v12, main_call2_cst_4,
    main_call2_call0_v0, main_call2_call0_v1, main_v29, main_v30, main_v31, main_v32, main_cst_5, main_v33, main_v34, main_v35,
    main_v36, main_v37, main_v38, main_v39, main_v40, main_v41, main_v42, main_v43, main_v44, main_v45,
    main_call3_cst, main_call3_v0, main_v46, main_v47, main_v48, main_v49]

end Cert.ReferenceIdeal.RefRun

end
-- ==== Proof.RefRun.lean ====
/-
  The reference program runs to its end and leaves its seven argument arrays as they were.

  The reference is a straight line of host operations (no kernel is launched): the identity matrix built from two iotas,
  A = adj + I, the row sums deg, the scale deg^(-1/2) with an infinite value replaced by zero, the scaled matrix, the
  linear layer h W^T + b, the product, the batch statistics (a mean and a variance over all 32768 rows), the
  normalisation, the clamp at zero and the residual.  Written as one list of operations (RefOps.lean), every weakly fair
  execution of it terminates with each buffer at the fold of the list over the launch contents.  Each operation writes one
  buffer, a value of the program; none of the 86 is an argument array, so a fold that never writes an argument leaves it
  as it started.
-/
import proofs.«110154_j39565238731446_1_alg».proof.Proof.RefOps
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal

variable {F : FTy → Type} [FloatOps F] [Cert.ReferenceIdeal.Facts]

-- eighty-six steps and five function bodies opened at their calls: the unfolding is deep, not wide
set_option maxRecDepth 16384 in
set_option maxHeartbeats 1000000 in
/-- @main is the list: the outlined functions opened at their calls, one step after the other. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Each operation writes exactly the buffer listed for it in `opsW`. -/
theorem ops_writes : (ops : List (HloOp τ sig (Elt F))).Forall fun op => op.writes ⊆ (opsW.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

/-- A buffer that is not among the 86 written ones holds after the line what it held before. -/
theorem kept {r : Ref sig .tc} (hr : r ∉ opsW) (V : Valuation τ sig (Elt F)) :
    after ops V (r : DevRef τ sig) = V (r : DevRef τ sig) :=
  after_of_writes_sub ops V ops_writes hr

/-- From any memory with zero counters every weakly fair execution of @main terminates, and every TensorCore buffer ends
    at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run with the result left at the fold and the seven arguments read back: no operation writes an argument. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = after ops (launchContents m c) (main_v49 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨h c main_v49,
        (h c main_arg0).trans (kept (by decide) _), (h c main_arg1).trans (kept (by decide) _),
        (h c main_arg2).trans (kept (by decide) _), (h c main_arg3).trans (kept (by decide) _),
        (h c main_arg4).trans (kept (by decide) _), (h c main_arg5).trans (kept (by decide) _),
        (h c main_arg6).trans (kept (by decide) _)⟩)
    (run_main m ρ)

/-- The frame: the run with the result dropped. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2) (run m ρ)

end Cert.ReferenceIdeal.RefRun

end
-- ==== Proof.KiDeg.lean ====
import proofs.«110154_j39565238731446_1_alg».proof.Proof.Gen.KernelIdeal.Launch
import proofs.«110154_j39565238731446_1_alg».proof.Proof.Gen.KernelIdeal.Skeleton
import proofs.«110154_j39565238731446_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The degree region: inverse square roots of the self-looped row sums

Region 0 of the layer runs the degree kernel on a 16 x 8 grid: at each point it reads one block of 256 rows of the
adjacency matrix (all 2048 columns) and writes, for those rows, `rsqrt (rowsum + 1)`. Stated at the buffer
contents `V` the region is entered with: the blocks the windows hold, what the body leaves in the output window's
buffer, the body's triple, and the proof data and body obligation of the pipeline. -/

-- membership in a rectangle of these extents is decided by structural recursion, once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current buffer holds its block at every point, for any proof data whose array is `V`'s
    and whose body leaves the block in place: the window is an input, uncut and never idle, so an unfetched point
    has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole 1 x 256 x 1 output block: the rectangle the body's store writes. -/
abbrev disBlockRect : Rect S1x256x1 := Rect.unit (s := S1x256x1) ![0, 0, 0] S1x256x1.size inb_S1x256x1_S1x256x1_0_0_0

/-- The output window's buffer after the body, from the adjacency block `x0`: the one store, of
    `rsqrt (rowsum x0 + 1)` reshaped to the block, over the whole buffer. -/
def out0_1 (x0 : Vec F S1x256x2048 .f32) : Vec F S1x256x1 .f32 :=
  View.canon [⟨disBlockRect, k0_pay1 (View.ld x0 (Rect.unit (s := S1x256x2048) ![0, 0, 0] S1x256x2048.size inb_S1x256x2048_S1x256x2048_0_0_0))⟩]

/-- The store's rectangle is the whole buffer, so it covers it. -/
theorem cover0_1 (p0 : Vec F S1x256x1 .f32) (y : S1x256x1.Idx) :
    ∃ pc ∈ ([⟨disBlockRect, p0⟩] : List (View.Piece (Elt F) S1x256x1 .f32)), y ∈ pc.1.set :=
  View.cover_of_tiled [⟨disBlockRect, p0⟩] S1x256x1.size (by rfl) y

/-! ## The body's triple -/

set_option maxHeartbeats 1000000 in
/-- The degree kernel on whole staging memrefs, the adjacency block's at read contents `x0` and the output's at
    anything, runs to the continuation holding the input as it was and the output at `out0_1 x0`. The body loads
    the output buffer before it stores it; the loaded value is never used, so whatever the buffer held is forgotten. -/
theorem sound_kernel0 (c : Dev nD) (E : Set ℕ) (i : grid0.Coords) (arg2 : Memref sig .tc .vmem S1x256x2048 .f32) (harg2 : arg2.IsWhole)
    (arg3 : Memref sig .tc .vmem S1x256x1 .f32) (harg3 : arg3.IsWhole)
    (x0 : Vec F S1x256x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__deg_kernel i arg2 harg2 arg3 harg3) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the degree pipeline on core `c`: the arrays as the region finds them; after the body at point
    `t` the adjacency buffer at its block and the output buffer at `out0_1` of that block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The adjacency buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the adjacency memref holds its block, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KiLinear.lean ====
import proofs.«110154_j39565238731446_1_alg».proof.Proof.Gen.KernelIdeal.Launch
import proofs.«110154_j39565238731446_1_alg».proof.Proof.Gen.KernelIdeal.Skeleton
import proofs.«110154_j39565238731446_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear region: the node features through the shared linear map, rounded to bf16

Region 1 of the layer runs the linear kernel on a 16 x 8 grid: at each point it reads one block of 256 rows of the
node features (256 columns), the whole 256 x 256 weight matrix and the 256 biases, and writes, for those rows,
`bf16 (bf16 h · (bf16 W)ᵀ + b)`. The weight and the bias have one block for the whole grid, so the pipeline fetches
them at the first point only and the body finds them where they were left. Stated at the buffer contents `V` the
region is entered with: the blocks the windows hold, what the body leaves in the output window's buffer, the body's
triple, and the proof data and body obligation of the pipeline. -/

-- membership in a rectangle of these extents is decided by structural recursion, once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current buffer holds its block at every point, for any proof data whose array is `V`'s
    and whose body leaves the block in place: the window is an input, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the weight matrix at every point, fetched there or not: at a point where it is
    not fetched its block index is that of the point before, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the biases at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's loads and its one store -/

/-- The whole 1 x 256 x 256 block: what the body loads of the features and the rectangle its store writes. -/
abbrev rowBlockRect : Rect S1x256x256 := Rect.unit (s := S1x256x256) ![0, 0, 0] S1x256x256.size inb_S1x256x256_S1x256x256_0_0_0
/-- The whole weight matrix. -/
abbrev weightRect : Rect S256x256 := Rect.unit (s := S256x256) ![0, 0] S256x256.size inb_S256x256_S256x256_0_0
/-- All the biases. -/
abbrev biasRect : Rect S256 := Rect.unit (s := S256) ![0] S256.size inb_S256_S256_0

/-- The output window's buffer after the body, from the feature block `x0`, the weight `x1` and the bias `x2`: the
    one store, of the rounded product plus bias reshaped to the block, over the whole buffer. -/
def out1_3 (x0 : Vec F S1x256x256 .f32) (x1 : Vec F S256x256 .f32) (x2 : Vec F S256 .f32) : Vec F S1x256x256 .bf16 :=
  View.canon [⟨rowBlockRect, k1_pay1 (View.ld x0 rowBlockRect) (View.ld x1 weightRect) (View.ld x2 biasRect)⟩]

/-- The store's rectangle is the whole buffer, so it covers it. -/
theorem cover1_3 (p0 : Vec F S1x256x256 .bf16) (y : S1x256x256.Idx) :
    ∃ pc ∈ ([⟨rowBlockRect, p0⟩] : List (View.Piece (Elt F) S1x256x256 .bf16)), y ∈ pc.1.set :=
  View.cover_of_tiled [⟨rowBlockRect, p0⟩] S1x256x256.size (by rfl) y

/-! ## The body's triple -/

set_option maxHeartbeats 1000000 in
/-- The linear kernel on whole staging memrefs, the three inputs' at read contents and the output's at anything,
    runs to the continuation holding the inputs as they were and the output at `out1_3` of them. The body loads the
    output buffer before it stores it; the loaded value is never used. -/
theorem sound_kernel1 (c : Dev nD) (E : Set ℕ) (i : grid1.Coords)
    (arg2 : Memref sig .tc .vmem S1x256x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S1x256x256 .bf16) (harg5 : arg5.IsWhole)
    (x0 : Vec F S1x256x256 .f32) (x1 : Vec F S256x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__hlin_kernel i arg2 harg2 arg3 harg3 arg4 harg4 arg5 harg5) K := by
  simp only [cc1__hlin_kernel_eq_skeleton]; unfold cc1__hlin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the linear pipeline on core `c`: the arrays as the region finds them; after the body at point
    `t` each input's buffer at its block and the output buffer at `out1_3` of the three blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KiProductBase.lean ====
/-
  The third launch: out_raw[b] = A_hat[b] h_lin[b], one 512 x 256 block of rows at a time, the 2048 contracted columns in
  four tiles of 512.  Point (b, mi, ni) of the 16 x 4 x 4 grid adds tile ni's product into an accumulator that is cleared
  when ni = 0 and copied to the output block when ni = 3; the output block is untouched at the other three points.
  Here: the blocks each window holds at a point, the two conditions (ni = 0, ni = 3) decided over the 256 points, where the
  output window is idle, and the region's invariant with the accumulator singled out among the scoped buffers.
-/
import proofs.«110154_j39565238731446_1_alg».proof.Proof.Gen.KernelIdeal.Launch
import proofs.«110154_j39565238731446_1_alg».proof.Proof.Gen.KernelIdeal.Skeleton
import proofs.«110154_j39565238731446_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- The accumulator is cleared: the last grid coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The accumulator is copied out: the last grid coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the accumulator is not copied out the output window is idle and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S1x512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512x256 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S512x256 .f32 := Memref.whole cc2_scratch0
/-- The accumulator and the output block as views: what they hold is stated through them. -/
abbrev VS2_0 : View sig .tc .vmem S512x256 .f32 := scM2_0.view
abbrev VO2_4 : View sig .tc .vmem S1x512x256 .f32 := (Memref.whole cc2_stg4_0 : Memref sig .tc .vmem S1x512x256 .f32).view

/-- The scoped buffers that are neither a staging buffer of this launch nor its accumulator (the other launches' staging
    buffers): carried along unopened. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator singled out: the accumulator at some contents, the other scoped buffers
    unopened, the generator register at some state. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA
  rw [Pipeline.scopedRest_split_of_list spec2 c [cc2_scratch0] (by decide) (by decide)]
  simp only [scM2_0, owns_whole, BI.bigSepL_singleton]
  rfl

end Cert.KernelIdeal.Run

end
-- ==== Proof.KiProductRunA.lean ====
/-
  The third launch's body in case A: the last grid coordinate is 0. The accumulator is cleared, then the tile's product is added to it; the output block is not touched.
-/
import proofs.«110154_j39565238731446_1_alg».proof.Proof.KiProductBase

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave, as pieces (last first), with the proof that on whole memrefs the body runs to the
    continuation holding them: each conditional decided by the case's hypotheses; the pieces are what the run finds. -/
noncomputable def kernelRun2_A (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : cond2_0 i) (hc1 : ¬cond2_1 i)
    (x0 : Vec F S1x512x512 .f32) (x1 : Vec F S1x512x1 .f32) (x2 : Vec F S1x1x512 .f32) (x3 : Vec F S1x2048x256 .bf16) :
    Σ' (L4 : List (View.Piece (Elt F) S1x512x256 .f32)), { LS0 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__bmm_kernel i arg3 harg3 arg4 harg4 arg5 harg5 arg6 harg6 arg7 harg7 arg8 harg8) K } := by
  refine ⟨[], ?_, fun xi4 E K => ?run⟩
  case run =>
    simp only [cc2__bmm_kernel_eq_skeleton]; unfold cc2__bmm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Run

end
-- ==== Proof.KiProductRunB.lean ====
/-
  The third launch's body in case B: the last grid coordinate is 1 or 2. The tile's product is added to the accumulator the point before left; the output block is not touched.
-/
import proofs.«110154_j39565238731446_1_alg».proof.Proof.KiProductRunA

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave, as pieces (last first), with the proof that on whole memrefs the body runs to the
    continuation holding them: each conditional decided by the case's hypotheses; the pieces are what the run finds. -/
noncomputable def kernelRun2_B (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : ¬cond2_1 i)
    (x0 : Vec F S1x512x512 .f32) (x1 : Vec F S1x512x1 .f32) (x2 : Vec F S1x1x512 .f32) (x3 : Vec F S1x2048x256 .bf16) (xs0 : Vec F S512x256 .f32) :
    Σ' (L4 : List (View.Piece (Elt F) S1x512x256 .f32)), { LS0 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__bmm_kernel i arg3 harg3 arg4 harg4 arg5 harg5 arg6 harg6 arg7 harg7 arg8 harg8) K } := by
  refine ⟨[], ?_, fun xi4 E K => ?run⟩
  case run =>
    simp only [cc2__bmm_kernel_eq_skeleton]; unfold cc2__bmm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Run

end
-- ==== Proof.KiProductRunC.lean ====
/-
  The third launch's body in case C: the last grid coordinate is 3. The tile's product is added to the accumulator the point before left, and the accumulator is copied to the output block.
-/
import proofs.«110154_j39565238731446_1_alg».proof.Proof.KiProductRunB

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave, as pieces (last first), with the proof that on whole memrefs the body runs to the
    continuation holding them: each conditional decided by the case's hypotheses; the pieces are what the run finds. -/
noncomputable def kernelRun2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i)
    (x0 : Vec F S1x512x512 .f32) (x1 : Vec F S1x512x1 .f32) (x2 : Vec F S1x1x512 .f32) (x3 : Vec F S1x2048x256 .bf16) (xs0 : Vec F S512x256 .f32) :
    Σ' (L4 : List (View.Piece (Elt F) S1x512x256 .f32)), { LS0 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__bmm_kernel i arg3 harg3 arg4 harg4 arg5 harg5 arg6 harg6 arg7 harg7 arg8 harg8) K } := by
  refine ⟨?_, ?_, fun E K => ?run⟩
  case run =>
    simp only [cc2__bmm_kernel_eq_skeleton]; unfold cc2__bmm_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Run

end
-- ==== Proof.KiProduct.lean ====
/-
  The third launch, point by point.  Write s(t) for what the accumulator holds after point t = (b, mi, ni) and o(t) for the
  output block's buffer.  In case A (ni = 0) s(t) is the tile's product added to a cleared accumulator; in cases B (ni = 1, 2)
  and C (ni = 3) it is the tile's product added to s(t - 1); only in case C is the output block written, with s(t).  The
  region's invariant before point t + 1 holds the accumulator at s(t) — before the first point at anything —, the other
  scoped buffers unopened and the generator register; so the body at every point is one of the three runs, and the
  invariant entered from and returned to is the class's.
-/
import proofs.«110154_j39565238731446_1_alg».proof.Proof.KiProductRunC

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the accumulator cover it. -/
theorem scover2_A (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : cond2_0 i) (hc1 : ¬cond2_1 i) (x0 : Vec F S1x512x512 .f32) (x1 : Vec F S1x512x1 .f32) (x2 : Vec F S1x1x512 .f32) (x3 : Vec F S1x2048x256 .bf16) (y : S512x256.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S512x256.size (by sl_kernel_rfl) y
/-- What case A leaves in the accumulator: its pieces read back. -/
def sout2_A (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : cond2_0 i) (hc1 : ¬cond2_1 i) (x0 : Vec F S1x512x512 .f32) (x1 : Vec F S1x512x1 .f32) (x2 : Vec F S1x1x512 .f32) (x3 : Vec F S1x2048x256 .bf16) : Vec F S512x256 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

theorem scover2_B (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : ¬cond2_1 i) (x0 : Vec F S1x512x512 .f32) (x1 : Vec F S1x512x1 .f32) (x2 : Vec F S1x1x512 .f32) (x3 : Vec F S1x2048x256 .bf16) (xs0 : Vec F S512x256 .f32) (y : S512x256.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S512x256.size (by sl_kernel_rfl) y
def sout2_B (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : ¬cond2_1 i) (x0 : Vec F S1x512x512 .f32) (x1 : Vec F S1x512x1 .f32) (x2 : Vec F S1x1x512 .f32) (x3 : Vec F S1x2048x256 .bf16) (xs0 : Vec F S512x256 .f32) : Vec F S512x256 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

theorem scover2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) (y : S512x256.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S512x256.size (by sl_kernel_rfl) y
def sout2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) : Vec F S512x256 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)
/-- Case C's pieces for the output block cover it. -/
theorem cover2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) (y : S1x512x256.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1x512x256.size (by sl_kernel_rfl) y
def out2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) : Vec F S1x512x256 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)
/-- At the points where the output block is not written it is neither written back nor read at the next point: a
    placeholder nothing consults. -/
def idle2 : Vec F S1x512x256 .f32 := VO2_4.read (Elt F) VO2_4.junk

/-! ## The accumulation -/

/-- The case's contents at a point, over what the point before left in the accumulator. -/
def atA (c : Dev nD) (t : Fin cfg2.N) (h0 : t.val % 4 = 0) (h1 : ¬t.val % 4 = 3) : Vec F S1x512x256 .f32 × Vec F S512x256 .f32 :=
  (idle2, sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t))
def atB (c : Dev nD) (t : Fin cfg2.N) (h0 : ¬t.val % 4 = 0) (h1 : ¬t.val % 4 = 3) (s : Vec F S512x256 .f32) : Vec F S1x512x256 .f32 × Vec F S512x256 .f32 :=
  (idle2, sout2_B c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) s)
def atC (c : Dev nD) (t : Fin cfg2.N) (h0 : ¬t.val % 4 = 0) (h1 : t.val % 4 = 3) (s : Vec F S512x256 .f32) : Vec F S1x512x256 .f32 × Vec F S512x256 .f32 :=
  (out2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) s, sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) s)

/-- What the output block's buffer and the accumulator hold after the body at position n. -/
def outsAt2 (c : Dev nD) : (n : ℕ) → n < cfg2.N → Vec F S1x512x256 .f32 × Vec F S512x256 .f32
  | 0, hn => atA V c ⟨0, hn⟩ (Nat.zero_mod _) (by show ¬ 0 % 4 = 3; decide)
  | n + 1, hn =>
    if h0 : (n + 1) % 4 = 0 then
      if h1 : (n + 1) % 4 = 3 then False.elim (by omega)
      else atA V c ⟨n + 1, hn⟩ h0 h1
    else
      if h1 : (n + 1) % 4 = 3 then atC V c ⟨n + 1, hn⟩ h0 h1 (outsAt2 c n (Nat.lt_of_succ_lt hn)).2
      else atB V c ⟨n + 1, hn⟩ h0 h1 (outsAt2 c n (Nat.lt_of_succ_lt hn)).2

theorem outsAt2_A (c : Dev nD) (t : Fin cfg2.N) (h0 : t.val % 4 = 0) (h1 : ¬t.val % 4 = 3) :
    outsAt2 V c t.val t.isLt = atA V c t h0 h1 := by
  obtain ⟨n, hn⟩ := t
  cases n with
  | zero => rfl
  | succ n => exact (dif_pos h0).trans (dif_neg h1)
theorem outsAt2_B (c : Dev nD) (t : Fin cfg2.N) (h0 : ¬t.val % 4 = 0) (h1 : ¬t.val % 4 = 3) :
    outsAt2 V c t.val t.isLt = atB V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt2_C (c : Dev nD) (t : Fin cfg2.N) (h0 : ¬t.val % 4 = 0) (h1 : t.val % 4 = 3) :
    outsAt2 V c t.val t.isLt = atC V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant -/

/-- Before position n: before the first point the class's invariant (the accumulator at anything); afterwards the
    accumulator at what the point before left, the other scoped buffers unopened, the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  by_cases h0 : t.val % 4 = 0
  · have h1 : ¬t.val % 4 = 3 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold atA sout2_A; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold atC out2_C sout2_C; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold atB sout2_B; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

theorem hout2 (c : Dev nD) : (dat2 V c).Φ (Fin.last cfg2.N) ⊢ Pipeline.ΦA spec2 c :=
  Phi_out2 V c _ (by rw [Fin.val_last]; have : cfg2.N = 256 := N_2; omega)

end Cert.KernelIdeal.Run

end
-- ==== Proof.KiNormalize.lean ====
import proofs.«110154_j39565238731446_1_alg».proof.Proof.Gen.KernelIdeal.Launch
import proofs.«110154_j39565238731446_1_alg».proof.Proof.Gen.KernelIdeal.Skeleton
import proofs.«110154_j39565238731446_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation layer (the fourth pallas_call) on one core

Per grid point the body reads a 512x256 block of the aggregated features, the matching block of the layer's
input, the per-channel mean, variance, scale and shift, and the residual weight held as a 1x1 array; it stores
`max((x - mean) * rsqrt(var + eps) * scale + shift, 0) + resw * h` over the whole output block. Every input
block is left in place, and the output block, whatever it held, ends at that value. -/

-- membership of an index in a rectangle of these extents recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated-feature block: the staging buffer holds the window's block at every point, whether the block was fetched there or
    carried over from the point before (its block index then has not moved), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The layer-input block: the staging buffer holds the window's block at every point, whether the block was fetched there or
    carried over from the point before (its block index then has not moved), for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The channel means: the staging buffer holds the window's block at every point, whether the block was fetched there or
    carried over from the point before (its block index then has not moved), for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The channel variances: the staging buffer holds the window's block at every point, whether the block was fetched there or
    carried over from the point before (its block index then has not moved), for any proof data whose array is the
    entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The channel scales: the staging buffer holds the window's block at every point, whether the block was fetched there or
    carried over from the point before (its block index then has not moved), for any proof data whose array is the
    entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The channel shifts: the staging buffer holds the window's block at every point, whether the block was fetched there or
    carried over from the point before (its block index then has not moved), for any proof data whose array is the
    entry contents and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The residual weight: the staging buffer holds the window's block at every point, whether the block was fetched there or
    carried over from the point before (its block index then has not moved), for any proof data whose array is the
    entry contents and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A whole 1x512x256 block: what the loads of the two feature blocks and the one store address. -/
abbrev blockRect : Rect S1x512x256 := Rect.unit (s := S1x512x256) ![0, 0, 0] S1x512x256.size inb_S1x512x256_S1x512x256_0_0_0
/-- A whole per-channel vector of 256 entries. -/
abbrev channelRect : Rect S256 := Rect.unit (s := S256) ![0] S256.size inb_S256_S256_0
/-- The single entry of the 1x1 array holding the residual weight. -/
abbrev unitRect : Rect S1x1 := Rect.unit (s := S1x1) ![0, 0] S1x1.size inb_S1x1_S1x1_0_0

/-! ## What the body leaves in the output block -/

/-- The output block after the body, from the seven input blocks: one store over the whole block of the normalised,
    rectified features plus the weighted residual (`x0` the aggregated features, `x1` the layer input, `x2 … x5` mean,
    variance, scale, shift, `x6` the residual weight). -/
def out3_7 (x0 : Vec F S1x512x256 .f32) (x1 : Vec F S1x512x256 .f32) (x2 x3 x4 x5 : Vec F S256 .f32) (x6 : Vec F S1x1 .f32) : Vec F S1x512x256 .f32 :=
  View.canon [⟨blockRect, k3_pay1 (View.ld x0 blockRect) (View.ld x2 channelRect) (View.ld x3 channelRect) (View.ld x4 channelRect) (View.ld x5 channelRect) (View.ld x6 unitRect) (View.ld x1 blockRect)⟩]

/-- The one store covers the block. -/
theorem cover3_7 (p0 : Vec F S1x512x256 .f32) (y : S1x512x256.Idx) :
    ∃ pc ∈ ([⟨blockRect, p0⟩] : List (View.Piece (Elt F) S1x512x256 .f32)), y ∈ pc.1.set :=
  View.cover_of_tiled [⟨blockRect, p0⟩] S1x512x256.size (by rfl) y

/-! ## The body's triple -/

set_option maxHeartbeats 1000000 in
/-- The body on whole staging memrefs, the seven inputs' at contents `x0 … x6` and the output's at anything (it is
    read before it is stored, and what is read is not used), runs to the continuation holding the inputs' as they were
    and the output's at `out3_7` of the inputs. -/
theorem sound_kernel3 (c : Dev nD) (E : Set ℕ) (i : grid3.Coords)
    (arg0 : Memref sig .tc .vmem S1x512x256 .f32) (harg0 : arg0.IsWhole) (arg1 : Memref sig .tc .vmem S1x512x256 .f32) (harg1 : arg1.IsWhole)
    (arg2 : Memref sig .tc .vmem S256 .f32) (harg2 : arg2.IsWhole) (arg3 : Memref sig .tc .vmem S256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S1x1 .f32) (harg6 : arg6.IsWhole) (arg7 : Memref sig .tc .vmem S1x512x256 .f32) (harg7 : arg7.IsWhole)
    (x0 : Vec F S1x512x256 .f32) (x1 : Vec F S1x512x256 .f32) (x2 x3 x4 x5 : Vec F S256 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__finalize_kernel i arg0 harg0 arg1 harg1 arg2 harg2 arg3 harg3 arg4 harg4 arg5 harg5 arg6 harg6 arg7 harg7) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The layer's proof data -/

/-- The proof data of the layer on core `c`: the arrays at the entry contents; after the body at point `t` each
    input's buffer at its block and the output's at `out3_7` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.KiRun.lean ====
import proofs.«110154_j39565238731446_1_alg».proof.Proof.Gen.KernelIdeal.Launch
import proofs.«110154_j39565238731446_1_alg».proof.Proof.Gen.KernelIdeal.Skeleton
import proofs.«110154_j39565238731446_1_alg».proof.Proof.Gen.KernelIdeal.Points
import proofs.«110154_j39565238731446_1_alg».proof.Proof.Gen.KernelIdeal.Regions
import proofs.«110154_j39565238731446_1_alg».proof.Proof.KiDeg
import proofs.«110154_j39565238731446_1_alg».proof.Proof.KiLinear
import proofs.«110154_j39565238731446_1_alg».proof.Proof.KiProduct
import proofs.«110154_j39565238731446_1_alg».proof.Proof.KiNormalize
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole layer as a run of segments

The program is four kernel regions among stretches of host operations: the degrees; a transpose; the linear layer; the
normalised-adjacency product; the batch mean; the batch variance; a reshape of the residual weight; the normalisation
layer. The buffer contents at every boundary are a fold from the launch memory: a host stretch applies its operations,
a region leaves its input arrays as entered and its output array at what its write-backs leave. Every weakly fair
execution terminates with every unscoped buffer at the last contents of the fold, and the seven argument arrays, which
nothing writes, read back through the fold to their launch contents. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the degrees' entry). -/
abbrev W0 : Dev nD → Valuation τ sig (Elt F) := fun c b => (s₀ m ρ).mem ((c : Dev nD), b)
/-- The same read at the core's references. -/
abbrev En0 : (c : Dev nD) → (b : Ref sig .tc) → Buf (Elt F) ((c : Thread nD τ).loc b) := fun c b => W0 m ρ c b

/-- After the inverse-square-root degrees: its arrays at what the pipeline leaves (the inputs as entered, the output's write-backs folded), every
    other buffer as entered. -/
def W1 (c : Dev nD) : Valuation τ sig (Elt F) :=
  Pipeline.withArrays spec0 c (W0 m ρ c) fun w => (dat0 (En0 m ρ) c).arrAt w cfg0.N
theorem W1_arr (c : Dev nD) (w : Fin cfg0.W) :
    W1 m ρ c (Proc.devRef .tc (Pipeline.arrRef spec0 w)) = (dat0 (En0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev Ex0 : (c : Dev nD) → (b : Ref sig .tc) → Buf (Elt F) ((c : Thread nD τ).loc b) := fun c b => W1 m ρ c b
/-- At the exit each array holds what the pipeline leaves, and every other buffer what it held at entry. -/
theorem hF0 (c : Dev nD) (w : Fin cfg0.W) : (dat0 (En0 m ρ) c).arrAt w cfg0.N = Ex0 m ρ c (Pipeline.arrRef spec0 w) :=
  (W1_arr m ρ c w).symm
theorem hrest0 (c : Dev nD) : ∀ b, b ∉ Finset.univ.image (Pipeline.arrRef spec0) → Ex0 m ρ c b = En0 m ρ c b :=
  fun b hb => W1_of_ne m ρ c b fun w e => hb (Finset.mem_image.mpr ⟨w, Finset.mem_univ _, e⟩)

/-- After the transpose of the degrees (the linear layer's entry). -/
abbrev W2 : Dev nD → Valuation τ sig (Elt F) := fun c => StableHlo.after hostOps1 (W1 m ρ c)
/-- The same read at the core's references. -/
abbrev En1 : (c : Dev nD) → (b : Ref sig .tc) → Buf (Elt F) ((c : Thread nD τ).loc b) := fun c b => W2 m ρ c b

/-- After the linear layer: its arrays at what the pipeline leaves (the inputs as entered, the output's write-backs folded), every
    other buffer as entered. -/
def W3 (c : Dev nD) : Valuation τ sig (Elt F) :=
  Pipeline.withArrays spec1 c (W2 m ρ c) fun w => (dat1 (En1 m ρ) c).arrAt w cfg1.N
theorem W3_arr (c : Dev nD) (w : Fin cfg1.W) :
    W3 m ρ c (Proc.devRef .tc (Pipeline.arrRef spec1 w)) = (dat1 (En1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev Ex1 : (c : Dev nD) → (b : Ref sig .tc) → Buf (Elt F) ((c : Thread nD τ).loc b) := fun c b => W3 m ρ c b
/-- At the exit each array holds what the pipeline leaves, and every other buffer what it held at entry. -/
theorem hF1 (c : Dev nD) (w : Fin cfg1.W) : (dat1 (En1 m ρ) c).arrAt w cfg1.N = Ex1 m ρ c (Pipeline.arrRef spec1 w) :=
  (W3_arr m ρ c w).symm
theorem hrest1 (c : Dev nD) : ∀ b, b ∉ Finset.univ.image (Pipeline.arrRef spec1) → Ex1 m ρ c b = En1 m ρ c b :=
  fun b hb => W3_of_ne m ρ c b fun w e => hb (Finset.mem_image.mpr ⟨w, Finset.mem_univ _, e⟩)
/-- The product is entered from the linear layer's exit. -/
abbrev En2 : (c : Dev nD) → (b : Ref sig .tc) → Buf (Elt F) ((c : Thread nD τ).loc b) := fun c b => W3 m ρ c b

/-- After the normalised-adjacency product: its arrays at what the pipeline leaves (the inputs as entered, the output's write-backs folded), every
    other buffer as entered. -/
def W4 (c : Dev nD) : Valuation τ sig (Elt F) :=
  Pipeline.withArrays spec2 c (W3 m ρ c) fun w => (dat2 (En2 m ρ) c).arrAt w cfg2.N
theorem W4_arr (c : Dev nD) (w : Fin cfg2.W) :
    W4 m ρ c (Proc.devRef .tc (Pipeline.arrRef spec2 w)) = (dat2 (En2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev Ex2 : (c : Dev nD) → (b : Ref sig .tc) → Buf (Elt F) ((c : Thread nD τ).loc b) := fun c b => W4 m ρ c b
/-- At the exit each array holds what the pipeline leaves, and every other buffer what it held at entry. -/
theorem hF2 (c : Dev nD) (w : Fin cfg2.W) : (dat2 (En2 m ρ) c).arrAt w cfg2.N = Ex2 m ρ c (Pipeline.arrRef spec2 w) :=
  (W4_arr m ρ c w).symm
theorem hrest2 (c : Dev nD) : ∀ b, b ∉ Finset.univ.image (Pipeline.arrRef spec2) → Ex2 m ρ c b = En2 m ρ c b :=
  fun b hb => W4_of_ne m ρ c b fun w e => hb (Finset.mem_image.mpr ⟨w, Finset.mem_univ _, e⟩)

/-- After the batch mean. -/
abbrev W5 : Dev nD → Valuation τ sig (Elt F) := fun c => StableHlo.after hostOps3 (W4 m ρ c)

/-- After the batch variance. -/
abbrev W6 : Dev nD → Valuation τ sig (Elt F) := fun c => StableHlo.after hostOps3_1 (W5 m ρ c)

/-- After the reshape of the residual weight (the normalisation layer's entry). -/
abbrev W7 : Dev nD → Valuation τ sig (Elt F) := fun c => StableHlo.after hostOps3_2 (W6 m ρ c)
/-- The same read at the core's references. -/
abbrev En3 : (c : Dev nD) → (b : Ref sig .tc) → Buf (Elt F) ((c : Thread nD τ).loc b) := fun c b => W7 m ρ c b

/-- After the normalisation layer: its arrays at what the pipeline leaves (the inputs as entered, the output's write-backs folded), every
    other buffer as entered. -/
def W8 (c : Dev nD) : Valuation τ sig (Elt F) :=
  Pipeline.withArrays spec3 c (W7 m ρ c) fun w => (dat3 (En3 m ρ) c).arrAt w cfg3.N
theorem W8_arr (c : Dev nD) (w : Fin cfg3.W) :
    W8 m ρ c (Proc.devRef .tc (Pipeline.arrRef spec3 w)) = (dat3 (En3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's references. -/
abbrev Ex3 : (c : Dev nD) → (b : Ref sig .tc) → Buf (Elt F) ((c : Thread nD τ).loc b) := fun c b => W8 m ρ c b
/-- At the exit each array holds what the pipeline leaves, and every other buffer what it held at entry. -/
theorem hF3 (c : Dev nD) (w : Fin cfg3.W) : (dat3 (En3 m ρ) c).arrAt w cfg3.N = Ex3 m ρ c (Pipeline.arrRef spec3 w) :=
  (W8_arr m ρ c w).symm
theorem hrest3 (c : Dev nD) : ∀ b, b ∉ Finset.univ.image (Pipeline.arrRef spec3) → Ex3 m ρ c b = En3 m ρ c b :=
  fun b hb => W8_of_ne m ρ c b fun w e => hb (Finset.mem_image.mpr ⟨w, Finset.mem_univ _, e⟩)

/-! ## The arguments end as launched

No host operation writes an argument array and no region's output is one (a region reads an argument through an input
window, which it leaves as entered, or does not touch it), so the fold read at an argument's buffer walks back to the
launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := (W8_arr m ρ c 1).trans (((dat3 (En3 m ρ) c).arrAt_in 1 rfl _).trans (A_eq3 (En3 m ρ) c 1))
    _ = W6 m ρ c (Proc.devRef .tc main_arg0) := StableHlo.after_of_writes_sub hostOps3_2 _ hostOps3_2_writes (r := main_arg0) (by decide)
    _ = W5 m ρ c (Proc.devRef .tc main_arg0) := StableHlo.after_of_writes_sub hostOps3_1 _ hostOps3_1_writes (r := main_arg0) (by decide)
    _ = W4 m ρ c (Proc.devRef .tc main_arg0) := StableHlo.after_of_writes_sub hostOps3 _ hostOps3_writes (r := main_arg0) (by decide)
    _ = W3 m ρ c (Proc.devRef .tc main_arg0) := W4_of_ne m ρ c main_arg0 (by decide)
    _ = W2 m ρ c (Proc.devRef .tc main_arg0) := (W3_arr m ρ c 0).trans (((dat1 (En1 m ρ) c).arrAt_in 0 rfl _).trans (A_eq1 (En1 m ρ) c 0))
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3_2 _ hostOps3_2_writes (r := main_arg1) (by decide)
    _ = W5 m ρ c (Proc.devRef .tc main_arg1) := StableHlo.after_of_writes_sub hostOps3_1 _ hostOps3_1_writes (r := main_arg1) (by decide)
    _ = W4 m ρ c (Proc.devRef .tc main_arg1) := StableHlo.after_of_writes_sub hostOps3 _ hostOps3_writes (r := main_arg1) (by decide)
    _ = W3 m ρ c (Proc.devRef .tc main_arg1) := (W4_arr m ρ c 0).trans (((dat2 (En2 m ρ) c).arrAt_in 0 rfl _).trans (A_eq2 (En2 m ρ) c 0))
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (En0 m ρ) c).arrAt_in 0 rfl _).trans (A_eq0 (En0 m ρ) c 0))
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3_2 _ hostOps3_2_writes (r := main_arg2) (by decide)
    _ = W5 m ρ c (Proc.devRef .tc main_arg2) := StableHlo.after_of_writes_sub hostOps3_1 _ hostOps3_1_writes (r := main_arg2) (by decide)
    _ = W4 m ρ c (Proc.devRef .tc main_arg2) := StableHlo.after_of_writes_sub hostOps3 _ hostOps3_writes (r := main_arg2) (by decide)
    _ = W3 m ρ c (Proc.devRef .tc main_arg2) := W4_of_ne m ρ c main_arg2 (by decide)
    _ = W2 m ρ c (Proc.devRef .tc main_arg2) := (W3_arr m ρ c 1).trans (((dat1 (En1 m ρ) c).arrAt_in 1 rfl _).trans (A_eq1 (En1 m ρ) c 1))
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3_2 _ hostOps3_2_writes (r := main_arg3) (by decide)
    _ = W5 m ρ c (Proc.devRef .tc main_arg3) := StableHlo.after_of_writes_sub hostOps3_1 _ hostOps3_1_writes (r := main_arg3) (by decide)
    _ = W4 m ρ c (Proc.devRef .tc main_arg3) := StableHlo.after_of_writes_sub hostOps3 _ hostOps3_writes (r := main_arg3) (by decide)
    _ = W3 m ρ c (Proc.devRef .tc main_arg3) := W4_of_ne m ρ c main_arg3 (by decide)
    _ = W2 m ρ c (Proc.devRef .tc main_arg3) := (W3_arr m ρ c 2).trans (((dat1 (En1 m ρ) c).arrAt_in 2 rfl _).trans (A_eq1 (En1 m ρ) c 2))
    _ = W1 m ρ c (Proc.devRef .tc main_arg3) := StableHlo.after_of_writes_sub hostOps1 _ hostOps1_writes (r := main_arg3) (by decide)
    _ = W0 m ρ c (Proc.devRef .tc main_arg3) := W1_of_ne m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := (W8_arr m ρ c 4).trans (((dat3 (En3 m ρ) c).arrAt_in 4 rfl _).trans (A_eq3 (En3 m ρ) c 4))
    _ = W6 m ρ c (Proc.devRef .tc main_arg4) := StableHlo.after_of_writes_sub hostOps3_2 _ hostOps3_2_writes (r := main_arg4) (by decide)
    _ = W5 m ρ c (Proc.devRef .tc main_arg4) := StableHlo.after_of_writes_sub hostOps3_1 _ hostOps3_1_writes (r := main_arg4) (by decide)
    _ = W4 m ρ c (Proc.devRef .tc main_arg4) := StableHlo.after_of_writes_sub hostOps3 _ hostOps3_writes (r := main_arg4) (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := StableHlo.after_of_writes_sub hostOps1 _ hostOps1_writes (r := main_arg4) (by decide)
    _ = W0 m ρ c (Proc.devRef .tc main_arg4) := W1_of_ne m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := (W8_arr m ρ c 5).trans (((dat3 (En3 m ρ) c).arrAt_in 5 rfl _).trans (A_eq3 (En3 m ρ) c 5))
    _ = W6 m ρ c (Proc.devRef .tc main_arg5) := StableHlo.after_of_writes_sub hostOps3_2 _ hostOps3_2_writes (r := main_arg5) (by decide)
    _ = W5 m ρ c (Proc.devRef .tc main_arg5) := StableHlo.after_of_writes_sub hostOps3_1 _ hostOps3_1_writes (r := main_arg5) (by decide)
    _ = W4 m ρ c (Proc.devRef .tc main_arg5) := StableHlo.after_of_writes_sub hostOps3 _ hostOps3_writes (r := main_arg5) (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_writes_sub hostOps1 _ hostOps1_writes (r := main_arg5) (by decide)
    _ = W0 m ρ c (Proc.devRef .tc main_arg5) := W1_of_ne m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3_2 _ hostOps3_2_writes (r := main_arg6) (by decide)
    _ = W5 m ρ c (Proc.devRef .tc main_arg6) := StableHlo.after_of_writes_sub hostOps3_1 _ hostOps3_1_writes (r := main_arg6) (by decide)
    _ = W4 m ρ c (Proc.devRef .tc main_arg6) := StableHlo.after_of_writes_sub hostOps3 _ hostOps3_writes (r := main_arg6) (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := StableHlo.after_of_writes_sub hostOps1 _ hostOps1_writes (r := main_arg6) (by decide)
    _ = W0 m ρ c (Proc.devRef .tc main_arg6) := W1_of_ne m ρ c main_arg6 (by decide)
    _ = m ((c : Thread nD τ).loc main_arg6) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
  | ⟨3, _⟩ => fun c => dat3 (En3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along;
    it ends with those references at the operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents of the fold, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- The region of the inverse-square-root degrees over the thread state: entered from every unscoped buffer at `W0`, left at `W1`. Its arrays
    are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The region of the linear layer over the thread state: entered from every unscoped buffer at `W2`, left at `W3`. Its arrays
    are split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The region of the normalised-adjacency product over the thread state: entered from every unscoped buffer at `W3`, left at `W4`. Its arrays
    are split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (En2 m ρ) c).Φ 0 from rfl]
    refine BIBase.Entails.trans ?_ (hin2 (En2 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (En2 m ρ) c).Φ (Fin.last cfg2.N) from rfl]
    refine BIBase.Entails.trans (hout2 (En2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En2 m ρ c) (Ex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The region of the normalisation layer over the thread state: entered from every unscoped buffer at `W7`, left at `W8`. Its arrays
    are split out of the unscoped buffers and put back at the exit contents; the generator register goes into the
    region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En3 m ρ c) (Ex3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eight segments in order: a region per kernel, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)),
    .host (hseg hostOps3_1 hostOps3_1_sub hostOps3_1_fresh (W5 m ρ)),
    .host (hseg hostOps3_2 hostOps3_2_sub hostOps3_2_fresh (W6 m ρ)),
    .region (reg3 m ρ) ]
/-- The program is the run of the segments: it is the chain of their fragments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the cores terminates, nothing
    faulting, and in every final state each core's every unscoped buffer holds the last contents of the fold. -/
theorem run : θ_run defs (onTc (τ := τ) (main (F := F))) ⟨m, fun _ => 0, ρ⟩ (fun r => ∀ (c : Dev nD), ∀ b ∈ Pipeline.ucRefs τ sig,
      r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: in every final state each of the seven argument arrays holds its launch contents — read off the last
    contents of the fold, each argument walked back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩) (run m ρ)

end Cert.KernelIdeal.Run

end
-- ==== Proof.KwDeg.lean ====
import proofs.«110154_j39565238731446_1_alg».proof.Proof.Gen.Kernel.Launch
import proofs.«110154_j39565238731446_1_alg».proof.Proof.Gen.Kernel.Skeleton
import proofs.«110154_j39565238731446_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The degree region: inverse square roots of the self-looped row sums

Region 0 of the layer runs the degree kernel on a 16 x 8 grid: at each point it reads one block of 256 rows of the
adjacency matrix (all 2048 columns) and writes, for those rows, `rsqrt (rowsum + 1)`. Stated at the buffer
contents `V` the region is entered with: the blocks the windows hold, what the body leaves in the output window's
buffer, the body's triple, and the proof data and body obligation of the pipeline. -/

-- membership in a rectangle of these extents is decided by structural recursion, once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current buffer holds its block at every point, for any proof data whose array is `V`'s
    and whose body leaves the block in place: the window is an input, uncut and never idle, so an unfetched point
    has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole 1 x 256 x 1 output block: the rectangle the body's store writes. -/
abbrev disBlockRect : Rect S1x256x1 := Rect.unit (s := S1x256x1) ![0, 0, 0] S1x256x1.size inb_S1x256x1_S1x256x1_0_0_0

/-- The output window's buffer after the body, from the adjacency block `x0`: the one store, of
    `rsqrt (rowsum x0 + 1)` reshaped to the block, over the whole buffer. -/
def out0_1 (x0 : Vec F S1x256x2048 .f32) : Vec F S1x256x1 .f32 :=
  View.canon [⟨disBlockRect, k0_pay1 (View.ld x0 (Rect.unit (s := S1x256x2048) ![0, 0, 0] S1x256x2048.size inb_S1x256x2048_S1x256x2048_0_0_0))⟩]

/-- The store's rectangle is the whole buffer, so it covers it. -/
theorem cover0_1 (p0 : Vec F S1x256x1 .f32) (y : S1x256x1.Idx) :
    ∃ pc ∈ ([⟨disBlockRect, p0⟩] : List (View.Piece (Elt F) S1x256x1 .f32)), y ∈ pc.1.set :=
  View.cover_of_tiled [⟨disBlockRect, p0⟩] S1x256x1.size (by rfl) y

/-! ## The body's triple -/

set_option maxHeartbeats 1000000 in
/-- The degree kernel on whole staging memrefs, the adjacency block's at read contents `x0` and the output's at
    anything, runs to the continuation holding the input as it was and the output at `out0_1 x0`. The body loads
    the output buffer before it stores it; the loaded value is never used, so whatever the buffer held is forgotten. -/
theorem sound_kernel0 (c : Dev nD) (E : Set ℕ) (i : grid0.Coords) (arg2 : Memref sig .tc .vmem S1x256x2048 .f32) (harg2 : arg2.IsWhole)
    (arg3 : Memref sig .tc .vmem S1x256x1 .f32) (harg3 : arg3.IsWhole)
    (x0 : Vec F S1x256x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__deg_kernel i arg2 harg2 arg3 harg3) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the degree pipeline on core `c`: the arrays as the region finds them; after the body at point
    `t` the adjacency buffer at its block and the output buffer at `out0_1` of that block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The adjacency buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the adjacency memref holds its block, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.KwLinear.lean ====
import proofs.«110154_j39565238731446_1_alg».proof.Proof.Gen.Kernel.Launch
import proofs.«110154_j39565238731446_1_alg».proof.Proof.Gen.Kernel.Skeleton
import proofs.«110154_j39565238731446_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear region: the node features through the shared linear map, rounded to bf16

Region 1 of the layer runs the linear kernel on a 16 x 8 grid: at each point it reads one block of 256 rows of the
node features (256 columns), the whole 256 x 256 weight matrix and the 256 biases, and writes, for those rows,
`bf16 (bf16 h · (bf16 W)ᵀ + b)`. The weight and the bias have one block for the whole grid, so the pipeline fetches
them at the first point only and the body finds them where they were left. Stated at the buffer contents `V` the
region is entered with: the blocks the windows hold, what the body leaves in the output window's buffer, the body's
triple, and the proof data and body obligation of the pipeline. -/

-- membership in a rectangle of these extents is decided by structural recursion, once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current buffer holds its block at every point, for any proof data whose array is `V`'s
    and whose body leaves the block in place: the window is an input, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the weight matrix at every point, fetched there or not: at a point where it is
    not fetched its block index is that of the point before, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the biases at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's loads and its one store -/

/-- The whole 1 x 256 x 256 block: what the body loads of the features and the rectangle its store writes. -/
abbrev rowBlockRect : Rect S1x256x256 := Rect.unit (s := S1x256x256) ![0, 0, 0] S1x256x256.size inb_S1x256x256_S1x256x256_0_0_0
/-- The whole weight matrix. -/
abbrev weightRect : Rect S256x256 := Rect.unit (s := S256x256) ![0, 0] S256x256.size inb_S256x256_S256x256_0_0
/-- All the biases. -/
abbrev biasRect : Rect S256 := Rect.unit (s := S256) ![0] S256.size inb_S256_S256_0

/-- The output window's buffer after the body, from the feature block `x0`, the weight `x1` and the bias `x2`: the
    one store, of the rounded product plus bias reshaped to the block, over the whole buffer. -/
def out1_3 (x0 : Vec F S1x256x256 .f32) (x1 : Vec F S256x256 .f32) (x2 : Vec F S256 .f32) : Vec F S1x256x256 .bf16 :=
  View.canon [⟨rowBlockRect, k1_pay1 (View.ld x0 rowBlockRect) (View.ld x1 weightRect) (View.ld x2 biasRect)⟩]

/-- The store's rectangle is the whole buffer, so it covers it. -/
theorem cover1_3 (p0 : Vec F S1x256x256 .bf16) (y : S1x256x256.Idx) :
    ∃ pc ∈ ([⟨rowBlockRect, p0⟩] : List (View.Piece (Elt F) S1x256x256 .bf16)), y ∈ pc.1.set :=
  View.cover_of_tiled [⟨rowBlockRect, p0⟩] S1x256x256.size (by rfl) y

/-! ## The body's triple -/

set_option maxHeartbeats 1000000 in
/-- The linear kernel on whole staging memrefs, the three inputs' at read contents and the output's at anything,
    runs to the continuation holding the inputs as they were and the output at `out1_3` of them. The body loads the
    output buffer before it stores it; the loaded value is never used. -/
theorem sound_kernel1 (c : Dev nD) (E : Set ℕ) (i : grid1.Coords)
    (arg2 : Memref sig .tc .vmem S1x256x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S1x256x256 .bf16) (harg5 : arg5.IsWhole)
    (x0 : Vec F S1x256x256 .f32) (x1 : Vec F S256x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__hlin_kernel i arg2 harg2 arg3 harg3 arg4 harg4 arg5 harg5) K := by
  simp only [cc1__hlin_kernel_eq_skeleton]; unfold cc1__hlin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the linear pipeline on core `c`: the arrays as the region finds them; after the body at point
    `t` each input's buffer at its block and the output buffer at `out1_3` of the three blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.KwProductBase.lean ====
/-
  The third launch: out_raw[b] = A_hat[b] h_lin[b], one 512 x 256 block of rows at a time, the 2048 contracted columns in
  four tiles of 512.  Point (b, mi, ni) of the 16 x 4 x 4 grid adds tile ni's product into an accumulator that is cleared
  when ni = 0 and copied to the output block when ni = 3; the output block is untouched at the other three points.
  Here: the blocks each window holds at a point, the two conditions (ni = 0, ni = 3) decided over the 256 points, where the
  output window is idle, and the region's invariant with the accumulator singled out among the scoped buffers.
-/
import proofs.«110154_j39565238731446_1_alg».proof.Proof.Gen.Kernel.Launch
import proofs.«110154_j39565238731446_1_alg».proof.Proof.Gen.Kernel.Skeleton
import proofs.«110154_j39565238731446_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- The accumulator is cleared: the last grid coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The accumulator is copied out: the last grid coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the accumulator is not copied out the output window is idle and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S1x512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512x256 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2_0 : Memref sig .tc .vmem S512x256 .f32 := Memref.whole cc2_scratch0
/-- The accumulator and the output block as views: what they hold is stated through them. -/
abbrev VS2_0 : View sig .tc .vmem S512x256 .f32 := scM2_0.view
abbrev VO2_4 : View sig .tc .vmem S1x512x256 .f32 := (Memref.whole cc2_stg4_0 : Memref sig .tc .vmem S1x512x256 .f32).view

/-- The scoped buffers that are neither a staging buffer of this launch nor its accumulator (the other launches' staging
    buffers): carried along unopened. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator singled out: the accumulator at some contents, the other scoped buffers
    unopened, the generator register at some state. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA
  rw [Pipeline.scopedRest_split_of_list spec2 c [cc2_scratch0] (by decide) (by decide)]
  simp only [scM2_0, owns_whole, BI.bigSepL_singleton]
  rfl

end Cert.Kernel.Run

end
-- ==== Proof.KwProductRunA.lean ====
/-
  The third launch's body in case A: the last grid coordinate is 0. The accumulator is cleared, then the tile's product is added to it; the output block is not touched.
-/
import proofs.«110154_j39565238731446_1_alg».proof.Proof.KwProductBase

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave, as pieces (last first), with the proof that on whole memrefs the body runs to the
    continuation holding them: each conditional decided by the case's hypotheses; the pieces are what the run finds. -/
noncomputable def kernelRun2_A (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : cond2_0 i) (hc1 : ¬cond2_1 i)
    (x0 : Vec F S1x512x512 .f32) (x1 : Vec F S1x512x1 .f32) (x2 : Vec F S1x1x512 .f32) (x3 : Vec F S1x2048x256 .bf16) :
    Σ' (L4 : List (View.Piece (Elt F) S1x512x256 .f32)), { LS0 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__bmm_kernel i arg3 harg3 arg4 harg4 arg5 harg5 arg6 harg6 arg7 harg7 arg8 harg8) K } := by
  refine ⟨[], ?_, fun xi4 E K => ?run⟩
  case run =>
    simp only [cc2__bmm_kernel_eq_skeleton]; unfold cc2__bmm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Run

end
-- ==== Proof.KwProductRunB.lean ====
/-
  The third launch's body in case B: the last grid coordinate is 1 or 2. The tile's product is added to the accumulator the point before left; the output block is not touched.
-/
import proofs.«110154_j39565238731446_1_alg».proof.Proof.KwProductRunA

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave, as pieces (last first), with the proof that on whole memrefs the body runs to the
    continuation holding them: each conditional decided by the case's hypotheses; the pieces are what the run finds. -/
noncomputable def kernelRun2_B (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : ¬cond2_1 i)
    (x0 : Vec F S1x512x512 .f32) (x1 : Vec F S1x512x1 .f32) (x2 : Vec F S1x1x512 .f32) (x3 : Vec F S1x2048x256 .bf16) (xs0 : Vec F S512x256 .f32) :
    Σ' (L4 : List (View.Piece (Elt F) S1x512x256 .f32)), { LS0 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__bmm_kernel i arg3 harg3 arg4 harg4 arg5 harg5 arg6 harg6 arg7 harg7 arg8 harg8) K } := by
  refine ⟨[], ?_, fun xi4 E K => ?run⟩
  case run =>
    simp only [cc2__bmm_kernel_eq_skeleton]; unfold cc2__bmm_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Run

end
-- ==== Proof.KwProductRunC.lean ====
/-
  The third launch's body in case C: the last grid coordinate is 3. The tile's product is added to the accumulator the point before left, and the accumulator is copied to the output block.
-/
import proofs.«110154_j39565238731446_1_alg».proof.Proof.KwProductRunB

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave, as pieces (last first), with the proof that on whole memrefs the body runs to the
    continuation holding them: each conditional decided by the case's hypotheses; the pieces are what the run finds. -/
noncomputable def kernelRun2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i)
    (x0 : Vec F S1x512x512 .f32) (x1 : Vec F S1x512x1 .f32) (x2 : Vec F S1x1x512 .f32) (x3 : Vec F S1x2048x256 .bf16) (xs0 : Vec F S512x256 .f32) :
    Σ' (L4 : List (View.Piece (Elt F) S1x512x256 .f32)), { LS0 : List (View.Piece (Elt F) S512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__bmm_kernel i arg3 harg3 arg4 harg4 arg5 harg5 arg6 harg6 arg7 harg7 arg8 harg8) K } := by
  refine ⟨?_, ?_, fun E K => ?run⟩
  case run =>
    simp only [cc2__bmm_kernel_eq_skeleton]; unfold cc2__bmm_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Run

end
-- ==== Proof.KwProduct.lean ====
/-
  The third launch, point by point.  Write s(t) for what the accumulator holds after point t = (b, mi, ni) and o(t) for the
  output block's buffer.  In case A (ni = 0) s(t) is the tile's product added to a cleared accumulator; in cases B (ni = 1, 2)
  and C (ni = 3) it is the tile's product added to s(t - 1); only in case C is the output block written, with s(t).  The
  region's invariant before point t + 1 holds the accumulator at s(t) — before the first point at anything —, the other
  scoped buffers unopened and the generator register; so the body at every point is one of the three runs, and the
  invariant entered from and returned to is the class's.
-/
import proofs.«110154_j39565238731446_1_alg».proof.Proof.KwProductRunC

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the accumulator cover it. -/
theorem scover2_A (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : cond2_0 i) (hc1 : ¬cond2_1 i) (x0 : Vec F S1x512x512 .f32) (x1 : Vec F S1x512x1 .f32) (x2 : Vec F S1x1x512 .f32) (x3 : Vec F S1x2048x256 .bf16) (y : S512x256.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S512x256.size (by sl_kernel_rfl) y
/-- What case A leaves in the accumulator: its pieces read back. -/
def sout2_A (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : cond2_0 i) (hc1 : ¬cond2_1 i) (x0 : Vec F S1x512x512 .f32) (x1 : Vec F S1x512x1 .f32) (x2 : Vec F S1x1x512 .f32) (x3 : Vec F S1x2048x256 .bf16) : Vec F S512x256 .f32 :=
  VS2_0.read (Elt F) (VS2_0.writes (Elt F) VS2_0.junk (kernelRun2_A c i arg3 harg3 arg4 harg4 arg5 harg5 arg6 harg6 arg7 harg7 arg8 harg8 hc0 hc1 x0 x1 x2 x3).2.1)

theorem scover2_B (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : ¬cond2_1 i) (x0 : Vec F S1x512x512 .f32) (x1 : Vec F S1x512x1 .f32) (x2 : Vec F S1x1x512 .f32) (x3 : Vec F S1x2048x256 .bf16) (xs0 : Vec F S512x256 .f32) (y : S512x256.Idx) :
    ∃ pc ∈ (kernelRun2_B c i arg3 harg3 arg4 harg4 arg5 harg5 arg6 harg6 arg7 harg7 arg8 harg8 hc0 hc1 x0 x1 x2 x3 xs0).2.1, y ∈ pc.1.set :=
  View.cover_of_tiledL (kernelRun2_B c i arg3 harg3 arg4 harg4 arg5 harg5 arg6 harg6 arg7 harg7 arg8 harg8 hc0 hc1 x0 x1 x2 x3 xs0).2.1 S512x256.size (by sl_kernel_rfl) y
def sout2_B (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : ¬cond2_1 i) (x0 : Vec F S1x512x512 .f32) (x1 : Vec F S1x512x1 .f32) (x2 : Vec F S1x1x512 .f32) (x3 : Vec F S1x2048x256 .bf16) (xs0 : Vec F S512x256 .f32) : Vec F S512x256 .f32 :=
  VS2_0.read (Elt F) (VS2_0.writes (Elt F) VS2_0.junk (kernelRun2_B c i arg3 harg3 arg4 harg4 arg5 harg5 arg6 harg6 arg7 harg7 arg8 harg8 hc0 hc1 x0 x1 x2 x3 xs0).2.1)

theorem scover2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) (y : S512x256.Idx) :
    ∃ pc ∈ (kernelRun2_C c i arg3 harg3 arg4 harg4 arg5 harg5 arg6 harg6 arg7 harg7 arg8 harg8 hc0 hc1 x0 x1 x2 x3 xs0).2.1, y ∈ pc.1.set :=
  View.cover_of_tiledL (kernelRun2_C c i arg3 harg3 arg4 harg4 arg5 harg5 arg6 harg6 arg7 harg7 arg8 harg8 hc0 hc1 x0 x1 x2 x3 xs0).2.1 S512x256.size (by sl_kernel_rfl) y
def sout2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) : Vec F S512x256 .f32 :=
  VS2_0.read (Elt F) (VS2_0.writes (Elt F) VS2_0.junk (kernelRun2_C c i arg3 harg3 arg4 harg4 arg5 harg5 arg6 harg6 arg7 harg7 arg8 harg8 hc0 hc1 x0 x1 x2 x3 xs0).2.1)
/-- Case C's pieces for the output block cover it. -/
theorem cover2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) (y : S1x512x256.Idx) :
    ∃ pc ∈ (kernelRun2_C c i arg3 harg3 arg4 harg4 arg5 harg5 arg6 harg6 arg7 harg7 arg8 harg8 hc0 hc1 x0 x1 x2 x3 xs0).1, y ∈ pc.1.set :=
  View.cover_of_tiledL (kernelRun2_C c i arg3 harg3 arg4 harg4 arg5 harg5 arg6 harg6 arg7 harg7 arg8 harg8 hc0 hc1 x0 x1 x2 x3 xs0).1 S1x512x256.size (by sl_kernel_rfl) y
def out2_C (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) : Vec F S1x512x256 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs0).1)
/-- At the points where the output block is not written it is neither written back nor read at the next point: a
    placeholder nothing consults. -/
def idle2 : Vec F S1x512x256 .f32 := VO2_4.read (Elt F) VO2_4.junk

/-! ## The accumulation -/

/-- The case's contents at a point, over what the point before left in the accumulator. -/
def atA (c : Dev nD) (t : Fin cfg2.N) (h0 : t.val % 4 = 0) (h1 : ¬t.val % 4 = 3) : Vec F S1x512x256 .f32 × Vec F S512x256 .f32 :=
  (idle2, sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t))
def atB (c : Dev nD) (t : Fin cfg2.N) (h0 : ¬t.val % 4 = 0) (h1 : ¬t.val % 4 = 3) (s : Vec F S512x256 .f32) : Vec F S1x512x256 .f32 × Vec F S512x256 .f32 :=
  (idle2, sout2_B c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) s)
def atC (c : Dev nD) (t : Fin cfg2.N) (h0 : ¬t.val % 4 = 0) (h1 : t.val % 4 = 3) (s : Vec F S512x256 .f32) : Vec F S1x512x256 .f32 × Vec F S512x256 .f32 :=
  (out2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) s, sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) s)

/-- What the output block's buffer and the accumulator hold after the body at position n. -/
def outsAt2 (c : Dev nD) : (n : ℕ) → n < cfg2.N → Vec F S1x512x256 .f32 × Vec F S512x256 .f32
  | 0, hn => atA V c ⟨0, hn⟩ (Nat.zero_mod _) (by show ¬ 0 % 4 = 3; decide)
  | n + 1, hn =>
    if h0 : (n + 1) % 4 = 0 then
      if h1 : (n + 1) % 4 = 3 then False.elim (by omega)
      else atA V c ⟨n + 1, hn⟩ h0 h1
    else
      if h1 : (n + 1) % 4 = 3 then atC V c ⟨n + 1, hn⟩ h0 h1 (outsAt2 c n (Nat.lt_of_succ_lt hn)).2
      else atB V c ⟨n + 1, hn⟩ h0 h1 (outsAt2 c n (Nat.lt_of_succ_lt hn)).2

theorem outsAt2_A (c : Dev nD) (t : Fin cfg2.N) (h0 : t.val % 4 = 0) (h1 : ¬t.val % 4 = 3) :
    outsAt2 V c t.val t.isLt = atA V c t h0 h1 := by
  obtain ⟨n, hn⟩ := t
  cases n with
  | zero => rfl
  | succ n => exact (dif_pos h0).trans (dif_neg h1)
theorem outsAt2_B (c : Dev nD) (t : Fin cfg2.N) (h0 : ¬t.val % 4 = 0) (h1 : ¬t.val % 4 = 3) :
    outsAt2 V c t.val t.isLt = atB V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)
theorem outsAt2_C (c : Dev nD) (t : Fin cfg2.N) (h0 : ¬t.val % 4 = 0) (h1 : t.val % 4 = 3) :
    outsAt2 V c t.val t.isLt = atC V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant -/

/-- Before position n: before the first point the class's invariant (the accumulator at anything); afterwards the
    accumulator at what the point before left, the other scoped buffers unopened, the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 8000000 in
/-- The body at any point: the inputs' memrefs hold their blocks; the closed forms say which case the point is in; the
    invariant hands the body the accumulator at what the point before left (at anything at the first point) and takes it
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  by_cases h0 : t.val % 4 = 0
  · have h1 : ¬t.val % 4 = 3 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold atA sout2_A; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold atC out2_C sout2_C; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold atB sout2_B; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

theorem hout2 (c : Dev nD) : (dat2 V c).Φ (Fin.last cfg2.N) ⊢ Pipeline.ΦA spec2 c :=
  Phi_out2 V c _ (by rw [Fin.val_last]; have : cfg2.N = 256 := N_2; omega)

end Cert.Kernel.Run

end
-- ==== Proof.KwNormalize.lean ====
import proofs.«110154_j39565238731446_1_alg».proof.Proof.Gen.Kernel.Launch
import proofs.«110154_j39565238731446_1_alg».proof.Proof.Gen.Kernel.Skeleton
import proofs.«110154_j39565238731446_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation layer (the fourth pallas_call) on one core

Per grid point the body reads a 512x256 block of the aggregated features, the matching block of the layer's
input, the per-channel mean, variance, scale and shift, and the residual weight held as a 1x1 array; it stores
`max((x - mean) * rsqrt(var + eps) * scale + shift, 0) + resw * h` over the whole output block. Every input
block is left in place, and the output block, whatever it held, ends at that value. -/

-- membership of an index in a rectangle of these extents recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated-feature block: the staging buffer holds the window's block at every point, whether the block was fetched there or
    carried over from the point before (its block index then has not moved), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The layer-input block: the staging buffer holds the window's block at every point, whether the block was fetched there or
    carried over from the point before (its block index then has not moved), for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The channel means: the staging buffer holds the window's block at every point, whether the block was fetched there or
    carried over from the point before (its block index then has not moved), for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The channel variances: the staging buffer holds the window's block at every point, whether the block was fetched there or
    carried over from the point before (its block index then has not moved), for any proof data whose array is the
    entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The channel scales: the staging buffer holds the window's block at every point, whether the block was fetched there or
    carried over from the point before (its block index then has not moved), for any proof data whose array is the
    entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The channel shifts: the staging buffer holds the window's block at every point, whether the block was fetched there or
    carried over from the point before (its block index then has not moved), for any proof data whose array is the
    entry contents and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The residual weight: the staging buffer holds the window's block at every point, whether the block was fetched there or
    carried over from the point before (its block index then has not moved), for any proof data whose array is the
    entry contents and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A whole 1x512x256 block: what the loads of the two feature blocks and the one store address. -/
abbrev blockRect : Rect S1x512x256 := Rect.unit (s := S1x512x256) ![0, 0, 0] S1x512x256.size inb_S1x512x256_S1x512x256_0_0_0
/-- A whole per-channel vector of 256 entries. -/
abbrev channelRect : Rect S256 := Rect.unit (s := S256) ![0] S256.size inb_S256_S256_0
/-- The single entry of the 1x1 array holding the residual weight. -/
abbrev unitRect : Rect S1x1 := Rect.unit (s := S1x1) ![0, 0] S1x1.size inb_S1x1_S1x1_0_0

/-! ## What the body leaves in the output block -/

/-- The output block after the body, from the seven input blocks: one store over the whole block of the normalised,
    rectified features plus the weighted residual (`x0` the aggregated features, `x1` the layer input, `x2 … x5` mean,
    variance, scale, shift, `x6` the residual weight). -/
def out3_7 (x0 : Vec F S1x512x256 .f32) (x1 : Vec F S1x512x256 .f32) (x2 x3 x4 x5 : Vec F S256 .f32) (x6 : Vec F S1x1 .f32) : Vec F S1x512x256 .f32 :=
  View.canon [⟨blockRect, k3_pay1 (View.ld x0 blockRect) (View.ld x2 channelRect) (View.ld x3 channelRect) (View.ld x4 channelRect) (View.ld x5 channelRect) (View.ld x6 unitRect) (View.ld x1 blockRect)⟩]

/-- The one store covers the block. -/
theorem cover3_7 (p0 : Vec F S1x512x256 .f32) (y : S1x512x256.Idx) :
    ∃ pc ∈ ([⟨blockRect, p0⟩] : List (View.Piece (Elt F) S1x512x256 .f32)), y ∈ pc.1.set :=
  View.cover_of_tiled [⟨blockRect, p0⟩] S1x512x256.size (by rfl) y

/-! ## The body's triple -/

set_option maxHeartbeats 1000000 in
/-- The body on whole staging memrefs, the seven inputs' at contents `x0 … x6` and the output's at anything (it is
    read before it is stored, and what is read is not used), runs to the continuation holding the inputs' as they were
    and the output's at `out3_7` of the inputs. -/
theorem sound_kernel3 (c : Dev nD) (E : Set ℕ) (i : grid3.Coords)
    (arg0 : Memref sig .tc .vmem S1x512x256 .f32) (harg0 : arg0.IsWhole) (arg1 : Memref sig .tc .vmem S1x512x256 .f32) (harg1 : arg1.IsWhole)
    (arg2 : Memref sig .tc .vmem S256 .f32) (harg2 : arg2.IsWhole) (arg3 : Memref sig .tc .vmem S256 .f32) (harg3 : arg3.IsWhole)
    (arg4 : Memref sig .tc .vmem S256 .f32) (harg4 : arg4.IsWhole) (arg5 : Memref sig .tc .vmem S256 .f32) (harg5 : arg5.IsWhole)
    (arg6 : Memref sig .tc .vmem S1x1 .f32) (harg6 : arg6.IsWhole) (arg7 : Memref sig .tc .vmem S1x512x256 .f32) (harg7 : arg7.IsWhole)
    (x0 : Vec F S1x512x256 .f32) (x1 : Vec F S1x512x256 .f32) (x2 x3 x4 x5 : Vec F S256 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__finalize_kernel i arg0 harg0 arg1 harg1 arg2 harg2 arg3 harg3 arg4 harg4 arg5 harg5 arg6 harg6 arg7 harg7) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The layer's proof data -/

/-- The proof data of the layer on core `c`: the arrays at the entry contents; after the body at point `t` each
    input's buffer at its block and the output's at `out3_7` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Run

end
-- ==== Proof.KwRun.lean ====
import proofs.«110154_j39565238731446_1_alg».proof.Proof.Gen.Kernel.Launch
import proofs.«110154_j39565238731446_1_alg».proof.Proof.Gen.Kernel.Skeleton
import proofs.«110154_j39565238731446_1_alg».proof.Proof.Gen.Kernel.Points
import proofs.«110154_j39565238731446_1_alg».proof.Proof.Gen.Kernel.Regions
import proofs.«110154_j39565238731446_1_alg».proof.Proof.KwDeg
import proofs.«110154_j39565238731446_1_alg».proof.Proof.KwLinear
import proofs.«110154_j39565238731446_1_alg».proof.Proof.KwProduct
import proofs.«110154_j39565238731446_1_alg».proof.Proof.KwNormalize
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole layer as a run of segments

The program is four kernel regions among stretches of host operations: the degrees; a transpose; the linear layer; the
normalised-adjacency product; the batch mean; the batch variance; a reshape of the residual weight; the normalisation
layer. The buffer contents at every boundary are a fold from the launch memory: a host stretch applies its operations,
a region leaves its input arrays as entered and its output array at what its write-backs leave. Every weakly fair
execution terminates with every unscoped buffer at the last contents of the fold, and the seven argument arrays, which
nothing writes, read back through the fold to their launch contents. -/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the degrees' entry). -/
abbrev W0 : Dev nD → Valuation τ sig (Elt F) := fun c b => (s₀ m ρ).mem ((c : Dev nD), b)
/-- The same read at the core's references. -/
abbrev En0 : (c : Dev nD) → (b : Ref sig .tc) → Buf (Elt F) ((c : Thread nD τ).loc b) := fun c b => W0 m ρ c b

/-- After the inverse-square-root degrees: its arrays at what the pipeline leaves (the inputs as entered, the output's write-backs folded), every
    other buffer as entered. -/
def W1 (c : Dev nD) : Valuation τ sig (Elt F) :=
  Pipeline.withArrays spec0 c (W0 m ρ c) fun w => (dat0 (En0 m ρ) c).arrAt w cfg0.N
theorem W1_arr (c : Dev nD) (w : Fin cfg0.W) :
    W1 m ρ c (Proc.devRef .tc (Pipeline.arrRef spec0 w)) = (dat0 (En0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev Ex0 : (c : Dev nD) → (b : Ref sig .tc) → Buf (Elt F) ((c : Thread nD τ).loc b) := fun c b => W1 m ρ c b
/-- At the exit each array holds what the pipeline leaves, and every other buffer what it held at entry. -/
theorem hF0 (c : Dev nD) (w : Fin cfg0.W) : (dat0 (En0 m ρ) c).arrAt w cfg0.N = Ex0 m ρ c (Pipeline.arrRef spec0 w) :=
  (W1_arr m ρ c w).symm
theorem hrest0 (c : Dev nD) : ∀ b, b ∉ Finset.univ.image (Pipeline.arrRef spec0) → Ex0 m ρ c b = En0 m ρ c b :=
  fun b hb => W1_of_ne m ρ c b fun w e => hb (Finset.mem_image.mpr ⟨w, Finset.mem_univ _, e⟩)

/-- After the transpose of the degrees (the linear layer's entry). -/
abbrev W2 : Dev nD → Valuation τ sig (Elt F) := fun c => StableHlo.after hostOps1 (W1 m ρ c)
/-- The same read at the core's references. -/
abbrev En1 : (c : Dev nD) → (b : Ref sig .tc) → Buf (Elt F) ((c : Thread nD τ).loc b) := fun c b => W2 m ρ c b

/-- After the linear layer: its arrays at what the pipeline leaves (the inputs as entered, the output's write-backs folded), every
    other buffer as entered. -/
def W3 (c : Dev nD) : Valuation τ sig (Elt F) :=
  Pipeline.withArrays spec1 c (W2 m ρ c) fun w => (dat1 (En1 m ρ) c).arrAt w cfg1.N
theorem W3_arr (c : Dev nD) (w : Fin cfg1.W) :
    W3 m ρ c (Proc.devRef .tc (Pipeline.arrRef spec1 w)) = (dat1 (En1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev Ex1 : (c : Dev nD) → (b : Ref sig .tc) → Buf (Elt F) ((c : Thread nD τ).loc b) := fun c b => W3 m ρ c b
/-- At the exit each array holds what the pipeline leaves, and every other buffer what it held at entry. -/
theorem hF1 (c : Dev nD) (w : Fin cfg1.W) : (dat1 (En1 m ρ) c).arrAt w cfg1.N = Ex1 m ρ c (Pipeline.arrRef spec1 w) :=
  (W3_arr m ρ c w).symm
theorem hrest1 (c : Dev nD) : ∀ b, b ∉ Finset.univ.image (Pipeline.arrRef spec1) → Ex1 m ρ c b = En1 m ρ c b :=
  fun b hb => W3_of_ne m ρ c b fun w e => hb (Finset.mem_image.mpr ⟨w, Finset.mem_univ _, e⟩)
/-- The product is entered from the linear layer's exit. -/
abbrev En2 : (c : Dev nD) → (b : Ref sig .tc) → Buf (Elt F) ((c : Thread nD τ).loc b) := fun c b => W3 m ρ c b

/-- After the normalised-adjacency product: its arrays at what the pipeline leaves (the inputs as entered, the output's write-backs folded), every
    other buffer as entered. -/
def W4 (c : Dev nD) : Valuation τ sig (Elt F) :=
  Pipeline.withArrays spec2 c (W3 m ρ c) fun w => (dat2 (En2 m ρ) c).arrAt w cfg2.N
theorem W4_arr (c : Dev nD) (w : Fin cfg2.W) :
    W4 m ρ c (Proc.devRef .tc (Pipeline.arrRef spec2 w)) = (dat2 (En2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev Ex2 : (c : Dev nD) → (b : Ref sig .tc) → Buf (Elt F) ((c : Thread nD τ).loc b) := fun c b => W4 m ρ c b
/-- At the exit each array holds what the pipeline leaves, and every other buffer what it held at entry. -/
theorem hF2 (c : Dev nD) (w : Fin cfg2.W) : (dat2 (En2 m ρ) c).arrAt w cfg2.N = Ex2 m ρ c (Pipeline.arrRef spec2 w) :=
  (W4_arr m ρ c w).symm
theorem hrest2 (c : Dev nD) : ∀ b, b ∉ Finset.univ.image (Pipeline.arrRef spec2) → Ex2 m ρ c b = En2 m ρ c b :=
  fun b hb => W4_of_ne m ρ c b fun w e => hb (Finset.mem_image.mpr ⟨w, Finset.mem_univ _, e⟩)

/-- After the batch mean. -/
abbrev W5 : Dev nD → Valuation τ sig (Elt F) := fun c => StableHlo.after hostOps3 (W4 m ρ c)

/-- After the batch variance. -/
abbrev W6 : Dev nD → Valuation τ sig (Elt F) := fun c => StableHlo.after hostOps3_1 (W5 m ρ c)

/-- After the reshape of the residual weight (the normalisation layer's entry). -/
abbrev W7 : Dev nD → Valuation τ sig (Elt F) := fun c => StableHlo.after hostOps3_2 (W6 m ρ c)
/-- The same read at the core's references. -/
abbrev En3 : (c : Dev nD) → (b : Ref sig .tc) → Buf (Elt F) ((c : Thread nD τ).loc b) := fun c b => W7 m ρ c b

/-- After the normalisation layer: its arrays at what the pipeline leaves (the inputs as entered, the output's write-backs folded), every
    other buffer as entered. -/
def W8 (c : Dev nD) : Valuation τ sig (Elt F) :=
  Pipeline.withArrays spec3 c (W7 m ρ c) fun w => (dat3 (En3 m ρ) c).arrAt w cfg3.N
theorem W8_arr (c : Dev nD) (w : Fin cfg3.W) :
    W8 m ρ c (Proc.devRef .tc (Pipeline.arrRef spec3 w)) = (dat3 (En3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's references. -/
abbrev Ex3 : (c : Dev nD) → (b : Ref sig .tc) → Buf (Elt F) ((c : Thread nD τ).loc b) := fun c b => W8 m ρ c b
/-- At the exit each array holds what the pipeline leaves, and every other buffer what it held at entry. -/
theorem hF3 (c : Dev nD) (w : Fin cfg3.W) : (dat3 (En3 m ρ) c).arrAt w cfg3.N = Ex3 m ρ c (Pipeline.arrRef spec3 w) :=
  (W8_arr m ρ c w).symm
theorem hrest3 (c : Dev nD) : ∀ b, b ∉ Finset.univ.image (Pipeline.arrRef spec3) → Ex3 m ρ c b = En3 m ρ c b :=
  fun b hb => W8_of_ne m ρ c b fun w e => hb (Finset.mem_image.mpr ⟨w, Finset.mem_univ _, e⟩)

/-! ## The arguments end as launched

No host operation writes an argument array and no region's output is one (a region reads an argument through an input
window, which it leaves as entered, or does not touch it), so the fold read at an argument's buffer walks back to the
launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := (W8_arr m ρ c 1).trans (((dat3 (En3 m ρ) c).arrAt_in 1 rfl _).trans (A_eq3 (En3 m ρ) c 1))
    _ = W6 m ρ c (Proc.devRef .tc main_arg0) := StableHlo.after_of_writes_sub hostOps3_2 _ hostOps3_2_writes (r := main_arg0) (by decide)
    _ = W5 m ρ c (Proc.devRef .tc main_arg0) := StableHlo.after_of_writes_sub hostOps3_1 _ hostOps3_1_writes (r := main_arg0) (by decide)
    _ = W4 m ρ c (Proc.devRef .tc main_arg0) := StableHlo.after_of_writes_sub hostOps3 _ hostOps3_writes (r := main_arg0) (by decide)
    _ = W3 m ρ c (Proc.devRef .tc main_arg0) := W4_of_ne m ρ c main_arg0 (by decide)
    _ = W2 m ρ c (Proc.devRef .tc main_arg0) := (W3_arr m ρ c 0).trans (((dat1 (En1 m ρ) c).arrAt_in 0 rfl _).trans (A_eq1 (En1 m ρ) c 0))
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3_2 _ hostOps3_2_writes (r := main_arg1) (by decide)
    _ = W5 m ρ c (Proc.devRef .tc main_arg1) := StableHlo.after_of_writes_sub hostOps3_1 _ hostOps3_1_writes (r := main_arg1) (by decide)
    _ = W4 m ρ c (Proc.devRef .tc main_arg1) := StableHlo.after_of_writes_sub hostOps3 _ hostOps3_writes (r := main_arg1) (by decide)
    _ = W3 m ρ c (Proc.devRef .tc main_arg1) := (W4_arr m ρ c 0).trans (((dat2 (En2 m ρ) c).arrAt_in 0 rfl _).trans (A_eq2 (En2 m ρ) c 0))
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (En0 m ρ) c).arrAt_in 0 rfl _).trans (A_eq0 (En0 m ρ) c 0))
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3_2 _ hostOps3_2_writes (r := main_arg2) (by decide)
    _ = W5 m ρ c (Proc.devRef .tc main_arg2) := StableHlo.after_of_writes_sub hostOps3_1 _ hostOps3_1_writes (r := main_arg2) (by decide)
    _ = W4 m ρ c (Proc.devRef .tc main_arg2) := StableHlo.after_of_writes_sub hostOps3 _ hostOps3_writes (r := main_arg2) (by decide)
    _ = W3 m ρ c (Proc.devRef .tc main_arg2) := W4_of_ne m ρ c main_arg2 (by decide)
    _ = W2 m ρ c (Proc.devRef .tc main_arg2) := (W3_arr m ρ c 1).trans (((dat1 (En1 m ρ) c).arrAt_in 1 rfl _).trans (A_eq1 (En1 m ρ) c 1))
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3_2 _ hostOps3_2_writes (r := main_arg3) (by decide)
    _ = W5 m ρ c (Proc.devRef .tc main_arg3) := StableHlo.after_of_writes_sub hostOps3_1 _ hostOps3_1_writes (r := main_arg3) (by decide)
    _ = W4 m ρ c (Proc.devRef .tc main_arg3) := StableHlo.after_of_writes_sub hostOps3 _ hostOps3_writes (r := main_arg3) (by decide)
    _ = W3 m ρ c (Proc.devRef .tc main_arg3) := W4_of_ne m ρ c main_arg3 (by decide)
    _ = W2 m ρ c (Proc.devRef .tc main_arg3) := (W3_arr m ρ c 2).trans (((dat1 (En1 m ρ) c).arrAt_in 2 rfl _).trans (A_eq1 (En1 m ρ) c 2))
    _ = W1 m ρ c (Proc.devRef .tc main_arg3) := StableHlo.after_of_writes_sub hostOps1 _ hostOps1_writes (r := main_arg3) (by decide)
    _ = W0 m ρ c (Proc.devRef .tc main_arg3) := W1_of_ne m ρ c main_arg3 (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := (W8_arr m ρ c 4).trans (((dat3 (En3 m ρ) c).arrAt_in 4 rfl _).trans (A_eq3 (En3 m ρ) c 4))
    _ = W6 m ρ c (Proc.devRef .tc main_arg4) := StableHlo.after_of_writes_sub hostOps3_2 _ hostOps3_2_writes (r := main_arg4) (by decide)
    _ = W5 m ρ c (Proc.devRef .tc main_arg4) := StableHlo.after_of_writes_sub hostOps3_1 _ hostOps3_1_writes (r := main_arg4) (by decide)
    _ = W4 m ρ c (Proc.devRef .tc main_arg4) := StableHlo.after_of_writes_sub hostOps3 _ hostOps3_writes (r := main_arg4) (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := StableHlo.after_of_writes_sub hostOps1 _ hostOps1_writes (r := main_arg4) (by decide)
    _ = W0 m ρ c (Proc.devRef .tc main_arg4) := W1_of_ne m ρ c main_arg4 (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := (W8_arr m ρ c 5).trans (((dat3 (En3 m ρ) c).arrAt_in 5 rfl _).trans (A_eq3 (En3 m ρ) c 5))
    _ = W6 m ρ c (Proc.devRef .tc main_arg5) := StableHlo.after_of_writes_sub hostOps3_2 _ hostOps3_2_writes (r := main_arg5) (by decide)
    _ = W5 m ρ c (Proc.devRef .tc main_arg5) := StableHlo.after_of_writes_sub hostOps3_1 _ hostOps3_1_writes (r := main_arg5) (by decide)
    _ = W4 m ρ c (Proc.devRef .tc main_arg5) := StableHlo.after_of_writes_sub hostOps3 _ hostOps3_writes (r := main_arg5) (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_writes_sub hostOps1 _ hostOps1_writes (r := main_arg5) (by decide)
    _ = W0 m ρ c (Proc.devRef .tc main_arg5) := W1_of_ne m ρ c main_arg5 (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3_2 _ hostOps3_2_writes (r := main_arg6) (by decide)
    _ = W5 m ρ c (Proc.devRef .tc main_arg6) := StableHlo.after_of_writes_sub hostOps3_1 _ hostOps3_1_writes (r := main_arg6) (by decide)
    _ = W4 m ρ c (Proc.devRef .tc main_arg6) := StableHlo.after_of_writes_sub hostOps3 _ hostOps3_writes (r := main_arg6) (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := StableHlo.after_of_writes_sub hostOps1 _ hostOps1_writes (r := main_arg6) (by decide)
    _ = W0 m ρ c (Proc.devRef .tc main_arg6) := W1_of_ne m ρ c main_arg6 (by decide)
    _ = m ((c : Thread nD τ).loc main_arg6) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
  | ⟨3, _⟩ => fun c => dat3 (En3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along;
    it ends with those references at the operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents of the fold, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- The region of the inverse-square-root degrees over the thread state: entered from every unscoped buffer at `W0`, left at `W1`. Its arrays
    are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (En0 m ρ c) (Ex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The region of the linear layer over the thread state: entered from every unscoped buffer at `W2`, left at `W3`. Its arrays
    are split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (En1 m ρ c) (Ex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The region of the normalised-adjacency product over the thread state: entered from every unscoped buffer at `W3`, left at `W4`. Its arrays
    are split out of the unscoped buffers and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (En2 m ρ) c).Φ 0 from rfl]
    refine BIBase.Entails.trans ?_ (hin2 (En2 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (En2 m ρ) c).Φ (Fin.last cfg2.N) from rfl]
    refine BIBase.Entails.trans (hout2 (En2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (En2 m ρ c) (Ex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The region of the normalisation layer over the thread state: entered from every unscoped buffer at `W7`, left at `W8`. Its arrays
    are split out of the unscoped buffers and put back at the exit contents; the generator register goes into the
    region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (En3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (En3 m ρ c) (Ex3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eight segments in order: a region per kernel, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)),
    .host (hseg hostOps3_1 hostOps3_1_sub hostOps3_1_fresh (W5 m ρ)),
    .host (hseg hostOps3_2 hostOps3_2_sub hostOps3_2_fresh (W6 m ρ)),
    .region (reg3 m ρ) ]
/-- The program is the run of the segments: it is the chain of their fragments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the cores terminates, nothing
    faulting, and in every final state each core's every unscoped buffer holds the last contents of the fold. -/
theorem run : θ_run defs (onTc (τ := τ) (main (F := F))) ⟨m, fun _ => 0, ρ⟩ (fun r => ∀ (c : Dev nD), ∀ b ∈ Pipeline.ucRefs τ sig,
      r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The frame: in every final state each of the seven argument arrays holds its launch contents — read off the last
    contents of the fold, each argument walked back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩) (run m ρ)

end Cert.Kernel.Run

end
-- ==== Proof.InputFacts.lean ====
/-
  What the precondition says about the seven argument arrays, entry by entry.

  The precondition is one bit: the conjunction of eight tests, each a test of every entry of one array reduced by "and".
  Seven of them say |x| < +infinity of every entry of h, adj, W, b, bn_weight, bn_bias and res_weight; over the
  extended reals an entry with |x| < +infinity is a real number.  The eighth says adj >= 0 entrywise: the weights of a
  graph's adjacency matrix are non-negative, which is what makes every degree sum_m adj(n, m) + 1 at least 1.
-/
import proofs.«110154_j39565238731446_1_alg».proof.Pre_finite_inputs
import proofs.«110154_j39565238731446_1_alg».proof.Proof.Gen.Pre_finite_inputs
import Idealize.ShloMosaic.Lib.ReduceAll
import Idealize.ShloMosaic.Lib.ValueIdx
import Idealize.ShloMosaic.Lib.Affine
import Idealize.ShloMosaic.PureOps.Ideal
import Idealize.ShloMosaic.PureOps.Ideal.Laws

noncomputable section

namespace Cert.InputFacts

open Idealize.ShloMosaic Cert.Pre_finite_inputs

variable [Cert.Pre_finite_inputs.Facts]

/-- The rank-0 shape has one index. -/
instance : Subsingleton S_.Idx := ⟨fun a b => funext fun d => d.elim0⟩

/-- The word 0x7F800000 is +infinity. -/
theorem ofBits_inf : Ideal.ofBits .f32 0x7F800000#32 = ⊤ := by simp [Ideal.ofBits, Ideal.ieee]

/-- An extended real whose absolute value max x (-x) is below +infinity is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- The test x >= 0 against the zero word says 0 <= x. -/
theorem nonneg_of_ge (x : EReal) (h : Ideal.cmp .oge x (Ideal.ofBits .f32 0x00000000#32) = 1#1) : 0 ≤ x := by
  rw [Ideal.ofBits_zero_f32] at h
  by_contra hx
  have h0 : Ideal.cmp .oge x 0 = 0#1 := by simp [Ideal.cmp, hx]
  rw [h0] at h
  exact absurd h (by decide)

/-- The entrywise reading of the precondition. -/
structure Holds (h : FVec Ideal S16x2048x256 .f32) (adj : FVec Ideal S16x2048x2048 .f32) (W : FVec Ideal S256x256 .f32)
    (b bnw bnb : FVec Ideal S256 .f32) (resw : FVec Ideal S_ .f32) : Prop where
  h_real : ∀ i, ∃ r : ℝ, h i = (r : EReal)
  adj_real : ∀ i, ∃ r : ℝ, adj i = (r : EReal)
  adj_nonneg : ∀ i, 0 ≤ adj i
  W_real : ∀ i, ∃ r : ℝ, W i = (r : EReal)
  b_real : ∀ i, ∃ r : ℝ, b i = (r : EReal)
  bnw_real : ∀ i, ∃ r : ℝ, bnw i = (r : EReal)
  bnb_real : ∀ i, ∃ r : ℝ, bnb i = (r : EReal)
  resw_real : ∀ i, ∃ r : ℝ, resw i = (r : EReal)

/-- The precondition's bit being one gives every entrywise fact. -/
theorem of_pre (h : FVec Ideal S16x2048x256 .f32) (adj : FVec Ideal S16x2048x2048 .f32) (W : FVec Ideal S256x256 .f32)
    (b bnw bnb : FVec Ideal S256 .f32) (resw : FVec Ideal S_ .f32)
    (hp : Cert.Pre_finite_inputs.fn (F := Ideal) h adj W b bnw bnb resw = fun _ => 1#1) :
    Holds h adj W b bnw bnb resw := by
  have h0 := congrFun hp ValueIdx.ix0
  dsimp only [fn, fn_part1, fn_part2] at h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e1, e2⟩ := IntOp.andi_eq_one.mp h0
  exact
    { h_real := fun i => real_of_abs_lt _ (Host.reduce_andi_all _ _ _ _ _ e1 i)
      adj_real := fun i => real_of_abs_lt _ (Host.reduce_andi_all _ _ _ _ _ e2 i)
      adj_nonneg := fun i => nonneg_of_ge _ (Host.reduce_andi_all _ _ _ _ _ e8 i)
      W_real := fun i => real_of_abs_lt _ (Host.reduce_andi_all _ _ _ _ _ e3 i)
      b_real := fun i => real_of_abs_lt _ (Host.reduce_andi_all _ _ _ _ _ e4 i)
      bnw_real := fun i => real_of_abs_lt _ (Host.reduce_andi_all _ _ _ _ _ e5 i)
      bnb_real := fun i => real_of_abs_lt _ (Host.reduce_andi_all _ _ _ _ _ e6 i)
      resw_real := fun i => real_of_abs_lt _ (Host.reduce_andi_all _ _ _ _ _ e7 i) }

end Cert.InputFacts

end
-- ==== Proof.RefOpsPlain.lean ====
/-
  The reference's 86 host operations once more, each outlined function's operation written as the plain builder over the
  buffers it reads and writes (a buffer's type is its value's type, so nothing is moved between the two).  A table only:
  that this list is RefOps.lean's list is proved where it is used.
-/
import proofs.«110154_j39565238731446_1_alg».proof.Proof.RefOps

noncomputable section

namespace Cert.ReferenceIdeal.RefRun

open Idealize.ShloMosaic Idealize.ShloMosaic.TcCoe Idealize.ShloMosaic.StableHlo Idealize.SL.Sem Cert.ReferenceIdeal

variable {F : FTy → Type} [FloatOps F] [Cert.ReferenceIdeal.Facts]
open Cert.ReferenceIdeal.Facts₀ Cert.ReferenceIdeal.Facts

/-- @main's 86 host operations, every one a plain builder over literal buffers. -/
abbrev opsPlain : List (HloOp τ sig (Elt F)) :=
  [ nullary main_v0 (iotaInDim S2048x2048 32 0),
    nullary main_v1 (iotaInDim S2048x2048 32 1),
    nullary main_c (constantI S_ 32 0#32),
    unary main_c main_v2 (broadcastInDim S2048x2048 ![] bcast_S_S2048x2048 : (⟨S_, .i32⟩ : BufTy).Contents (Elt F) → (⟨S2048x2048, .i32⟩ : BufTy).Contents (Elt F)),
    binary main_v0 main_v2 main_v3 (addi : (⟨S2048x2048, .i32⟩ : BufTy).Contents (Elt F) → (⟨S2048x2048, .i32⟩ : BufTy).Contents (Elt F) → (⟨S2048x2048, .i32⟩ : BufTy).Contents (Elt F)),
    binary main_v3 main_v1 main_v4 (cmpi .eq : (⟨S2048x2048, .i32⟩ : BufTy).Contents (Elt F) → (⟨S2048x2048, .i32⟩ : BufTy).Contents (Elt F) → (⟨S2048x2048, .i1⟩ : BufTy).Contents (Elt F)),
    unary main_v4 main_v5 (uitofp .f32 : (⟨S2048x2048, .i1⟩ : BufTy).Contents (Elt F) → (⟨S2048x2048, .f32⟩ : BufTy).Contents (Elt F)),
    unary main_v5 main_v6 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v6 main_v7 (broadcastInDim S16x2048x2048 ![0, 1, 2] bcast_S1x2048x2048_S16x2048x2048_0_1_2 : (⟨S1x2048x2048, .f32⟩ : BufTy).Contents (Elt F) → (⟨S16x2048x2048, .f32⟩ : BufTy).Contents (Elt F)),
    binary main_arg1 main_v7 main_v8 (addf : (⟨S16x2048x2048, .f32⟩ : BufTy).Contents (Elt F) → (⟨S16x2048x2048, .f32⟩ : BufTy).Contents (Elt F) → (⟨S16x2048x2048, .f32⟩ : BufTy).Contents (Elt F)),
    nullary main_cst (constant S_ .f32 0x00000000#32),
    binary main_v8 main_cst main_v9 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_0 (constant S_ .f32 0xBF000000#32),
    unary main_cst_0 main_v10 (broadcastInDim S16x2048 ![] bcast_S_S16x2048 : (⟨S_, .f32⟩ : BufTy).Contents (Elt F) → (⟨S16x2048, .f32⟩ : BufTy).Contents (Elt F)),
    binary main_v9 main_v10 main_v11 (Host.powf : (⟨S16x2048, .f32⟩ : BufTy).Contents (Elt F) → (⟨S16x2048, .f32⟩ : BufTy).Contents (Elt F) → (⟨S16x2048, .f32⟩ : BufTy).Contents (Elt F)),
    unary main_v11 main_call0_v0 (Host.absf : (⟨S16x2048, .f32⟩ : BufTy).Contents (Elt F) → (⟨S16x2048, .f32⟩ : BufTy).Contents (Elt F)),
    nullary main_call0_cst (constant S_ .f32 0x7F800000#32),
    unary main_call0_cst main_call0_v1 (broadcastInDim S16x2048 ![] bcast_S_S16x2048 : (⟨S_, .f32⟩ : BufTy).Contents (Elt F) → (⟨S16x2048, .f32⟩ : BufTy).Contents (Elt F)),
    binary main_call0_v0 main_call0_v1 main_v12 (cmpf .oeq : (⟨S16x2048, .f32⟩ : BufTy).Contents (Elt F) → (⟨S16x2048, .f32⟩ : BufTy).Contents (Elt F) → (⟨S16x2048, .i1⟩ : BufTy).Contents (Elt F)),
    nullary main_cst_1 (constant S_ .f32 0x00000000#32),
    unary main_cst_1 main_call1_v0 (id : (⟨S_, .f32⟩ : BufTy).Contents (Elt F) → (⟨S_, .f32⟩ : BufTy).Contents (Elt F)),
    unary main_call1_v0 main_call1_v1 (broadcastInDim S16x2048 ![] bcast_S_S16x2048 : (⟨S_, .f32⟩ : BufTy).Contents (Elt F) → (⟨S16x2048, .f32⟩ : BufTy).Contents (Elt F)),
    ternary main_v12 main_call1_v1 main_v11 main_v13 (select : (⟨S16x2048, .i1⟩ : BufTy).Contents (Elt F) → (⟨S16x2048, .f32⟩ : BufTy).Contents (Elt F) → (⟨S16x2048, .f32⟩ : BufTy).Contents (Elt F) → (⟨S16x2048, .f32⟩ : BufTy).Contents (Elt F)),
    unary main_v13 main_v14 (broadcastInDim S16x2048x1 ![0, 1] bcast_S16x2048_S16x2048x1_0_1 : (⟨S16x2048, .f32⟩ : BufTy).Contents (Elt F) → (⟨S16x2048x1, .f32⟩ : BufTy).Contents (Elt F)),
    unary main_v14 main_v15 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v15 main_v8 main_v16 (mulf : (⟨S16x2048x2048, .f32⟩ : BufTy).Contents (Elt F) → (⟨S16x2048x2048, .f32⟩ : BufTy).Contents (Elt F) → (⟨S16x2048x2048, .f32⟩ : BufTy).Contents (Elt F)),
    unary main_v13 main_v17 (broadcastInDim S16x1x2048 ![0, 2] bcast_S16x2048_S16x1x2048_0_2 : (⟨S16x2048, .f32⟩ : BufTy).Contents (Elt F) → (⟨S16x1x2048, .f32⟩ : BufTy).Contents (Elt F)),
    unary main_v17 main_v18 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v16 main_v18 main_v19 (mulf : (⟨S16x2048x2048, .f32⟩ : BufTy).Contents (Elt F) → (⟨S16x2048x2048, .f32⟩ : BufTy).Contents (Elt F) → (⟨S16x2048x2048, .f32⟩ : BufTy).Contents (Elt F)),
    binary main_arg0 main_arg2 main_v20 ((fun l r => Host.dotGeneral dot_S16x2048x256_S256x256_S16x2048x256_2_1_01_0_n_n none l r) : (⟨S16x2048x256, .f32⟩ : BufTy).Contents (Elt F) → (⟨S256x256, .f32⟩ : BufTy).Contents (Elt F) → (⟨S16x2048x256, .f32⟩ : BufTy).Contents (Elt F)),
    unary main_arg3 main_v21 (broadcastInDim S1x1x256 ![2] bcast_S256_S1x1x256_2 : (⟨S256, .f32⟩ : BufTy).Contents (Elt F) → (⟨S1x1x256, .f32⟩ : BufTy).Contents (Elt F)),
    unary main_v21 main_v22 (broadcastInDim S16x2048x256 ![0, 1, 2] bcast_S1x1x256_S16x2048x256_0_1_2 : (⟨S1x1x256, .f32⟩ : BufTy).Contents (Elt F) → (⟨S16x2048x256, .f32⟩ : BufTy).Contents (Elt F)),
    binary main_v20 main_v22 main_v23 (addf : (⟨S16x2048x256, .f32⟩ : BufTy).Contents (Elt F) → (⟨S16x2048x256, .f32⟩ : BufTy).Contents (Elt F) → (⟨S16x2048x256, .f32⟩ : BufTy).Contents (Elt F)),
    binary main_v19 main_v23 main_v24 ((fun l r => Host.dotGeneral dot_S16x2048x2048_S16x2048x256_S16x2048x256_2_1_1_2_0_0 none l r) : (⟨S16x2048x2048, .f32⟩ : BufTy).Contents (Elt F) → (⟨S16x2048x256, .f32⟩ : BufTy).Contents (Elt F) → (⟨S16x2048x256, .f32⟩ : BufTy).Contents (Elt F)),
    reshape main_v24 main_v25 rfl shapeCasts_S16x2048x256_S32768x256,
    nullary main_cst_2 (constant S_ .f32 0x00000000#32),
    binary main_v25 main_cst_2 main_v26 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    nullary main_cst_3 (constant S_ .f32 0x47000000#32),
    unary main_cst_3 main_v27 (broadcastInDim S256 ![] bcast_S_S256 : (⟨S_, .f32⟩ : BufTy).Contents (Elt F) → (⟨S256, .f32⟩ : BufTy).Contents (Elt F)),
    binary main_v26 main_v27 main_v28 (Host.divf : (⟨S256, .f32⟩ : BufTy).Contents (Elt F) → (⟨S256, .f32⟩ : BufTy).Contents (Elt F) → (⟨S256, .f32⟩ : BufTy).Contents (Elt F)),
    nullary main_c_4 (constantI S_ 32 0#32),
    nullary main_call2_cst (constant S_ .f32 0x00000000#32),
    binary main_v25 main_call2_cst main_call2_v0 (fun x v => Host.reduceAdd x v reducesTo_S32768x256_S256_d0 h_S_ : (⟨S32768x256, .f32⟩ : BufTy).Contents (Elt F) → (⟨S_, .f32⟩ : BufTy).Contents (Elt F) → (⟨S256, .f32⟩ : BufTy).Contents (Elt F)),
    unary main_call2_v0 main_call2_v1 (broadcastInDim S1x256 ![1] bcast_S256_S1x256_1 : (⟨S256, .f32⟩ : BufTy).Contents (Elt F) → (⟨S1x256, .f32⟩ : BufTy).Contents (Elt F)),
    nullary main_call2_cst_0 (constant S_ .f32 0x47000000#32),
    unary main_call2_cst_0 main_call2_v2 (broadcastInDim S1x256 ![] bcast_S_S1x256 : (⟨S_, .f32⟩ : BufTy).Contents (Elt F) → (⟨S1x256, .f32⟩ : BufTy).Contents (Elt F)),
    binary main_call2_v1 main_call2_v2 main_call2_v3 (Host.divf : (⟨S1x256, .f32⟩ : BufTy).Contents (Elt F) → (⟨S1x256, .f32⟩ : BufTy).Contents (Elt F) → (⟨S1x256, .f32⟩ : BufTy).Contents (Elt F)),
    unary main_call2_v3 main_call2_v4 (broadcastInDim S32768x256 ![0, 1] bcast_S1x256_S32768x256_0_1 : (⟨S1x256, .f32⟩ : BufTy).Contents (Elt F) → (⟨S32768x256, .f32⟩ : BufTy).Contents (Elt F)),
    binary main_v25 main_call2_v4 main_call2_v5 (subf : (⟨S32768x256, .f32⟩ : BufTy).Contents (Elt F) → (⟨S32768x256, .f32⟩ : BufTy).Contents (Elt F) → (⟨S32768x256, .f32⟩ : BufTy).Contents (Elt F)),
    binary main_call2_v5 main_call2_v5 main_call2_v6 (mulf : (⟨S32768x256, .f32⟩ : BufTy).Contents (Elt F) → (⟨S32768x256, .f32⟩ : BufTy).Contents (Elt F) → (⟨S32768x256, .f32⟩ : BufTy).Contents (Elt F)),
    unary main_c_4 main_call2_v7 (sitofp .f32 : (⟨S_, .i32⟩ : BufTy).Contents (Elt F) → (⟨S_, .f32⟩ : BufTy).Contents (Elt F)),
    nullary main_call2_cst_1 (constant S_ .f32 0x47000000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 (fun x v => Host.reduceAdd x v reducesTo_S32768x256_S256_d0 h_S_ : (⟨S32768x256, .f32⟩ : BufTy).Contents (Elt F) → (⟨S_, .f32⟩ : BufTy).Contents (Elt F) → (⟨S256, .f32⟩ : BufTy).Contents (Elt F)),
    unary main_call2_v8 main_call2_v10 (broadcastInDim S256 ![] bcast_S_S256 : (⟨S_, .f32⟩ : BufTy).Contents (Elt F) → (⟨S256, .f32⟩ : BufTy).Contents (Elt F)),
    binary main_call2_v9 main_call2_v10 main_call2_v11 (Host.divf : (⟨S256, .f32⟩ : BufTy).Contents (Elt F) → (⟨S256, .f32⟩ : BufTy).Contents (Elt F) → (⟨S256, .f32⟩ : BufTy).Contents (Elt F)),
    nullary main_call2_cst_3 (constant S_ .f32 0x00000000#32),
    binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S256 ![] bcast_S_S256 : (⟨S_, .f32⟩ : BufTy).Contents (Elt F) → (⟨S256, .f32⟩ : BufTy).Contents (Elt F)),
    ternary main_call2_v12 main_call2_v11 main_call2_call0_v1 main_v29 (fun p a b => select (broadcastInDim S256 ![] bcast_S_S256 p) a b : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v28 main_v30 (broadcastInDim S1x256 ![1] bcast_S256_S1x256_1 : (⟨S256, .f32⟩ : BufTy).Contents (Elt F) → (⟨S1x256, .f32⟩ : BufTy).Contents (Elt F)),
    unary main_v30 main_v31 (broadcastInDim S32768x256 ![0, 1] bcast_S1x256_S32768x256_0_1 : (⟨S1x256, .f32⟩ : BufTy).Contents (Elt F) → (⟨S32768x256, .f32⟩ : BufTy).Contents (Elt F)),
    binary main_v25 main_v31 main_v32 (subf : (⟨S32768x256, .f32⟩ : BufTy).Contents (Elt F) → (⟨S32768x256, .f32⟩ : BufTy).Contents (Elt F) → (⟨S32768x256, .f32⟩ : BufTy).Contents (Elt F)),
    nullary main_cst_5 (constant S_ .f32 0x3727C5AC#32),
    unary main_cst_5 main_v33 (broadcastInDim S256 ![] bcast_S_S256 : (⟨S_, .f32⟩ : BufTy).Contents (Elt F) → (⟨S256, .f32⟩ : BufTy).Contents (Elt F)),
    binary main_v29 main_v33 main_v34 (addf : (⟨S256, .f32⟩ : BufTy).Contents (Elt F) → (⟨S256, .f32⟩ : BufTy).Contents (Elt F) → (⟨S256, .f32⟩ : BufTy).Contents (Elt F)),
    unary main_v34 main_v35 (Host.rsqrt : (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S32768x256 ![0, 1] bcast_S1x256_S32768x256_0_1 : (⟨S1x256, .f32⟩ : BufTy).Contents (Elt F) → (⟨S32768x256, .f32⟩ : BufTy).Contents (Elt F)),
    binary main_v32 main_v37 main_v38 (mulf : (⟨S32768x256, .f32⟩ : BufTy).Contents (Elt F) → (⟨S32768x256, .f32⟩ : BufTy).Contents (Elt F) → (⟨S32768x256, .f32⟩ : BufTy).Contents (Elt F)),
    unary main_arg4 main_v39 (broadcastInDim S1x256 ![1] bcast_S256_S1x256_1 : (⟨S256, .f32⟩ : BufTy).Contents (Elt F) → (⟨S1x256, .f32⟩ : BufTy).Contents (Elt F)),
    unary main_v39 main_v40 (broadcastInDim S32768x256 ![0, 1] bcast_S1x256_S32768x256_0_1 : (⟨S1x256, .f32⟩ : BufTy).Contents (Elt F) → (⟨S32768x256, .f32⟩ : BufTy).Contents (Elt F)),
    binary main_v38 main_v40 main_v41 (mulf : (⟨S32768x256, .f32⟩ : BufTy).Contents (Elt F) → (⟨S32768x256, .f32⟩ : BufTy).Contents (Elt F) → (⟨S32768x256, .f32⟩ : BufTy).Contents (Elt F)),
    unary main_arg5 main_v42 (broadcastInDim S1x256 ![1] bcast_S256_S1x256_1 : (⟨S256, .f32⟩ : BufTy).Contents (Elt F) → (⟨S1x256, .f32⟩ : BufTy).Contents (Elt F)),
    unary main_v42 main_v43 (broadcastInDim S32768x256 ![0, 1] bcast_S1x256_S32768x256_0_1 : (⟨S1x256, .f32⟩ : BufTy).Contents (Elt F) → (⟨S32768x256, .f32⟩ : BufTy).Contents (Elt F)),
    binary main_v41 main_v43 main_v44 (addf : (⟨S32768x256, .f32⟩ : BufTy).Contents (Elt F) → (⟨S32768x256, .f32⟩ : BufTy).Contents (Elt F) → (⟨S32768x256, .f32⟩ : BufTy).Contents (Elt F)),
    reshape main_v44 main_v45 rfl shapeCasts_S32768x256_S16x2048x256,
    nullary main_call3_cst (constant S_ .f32 0x00000000#32),
    unary main_call3_cst main_call3_v0 (broadcastInDim S16x2048x256 ![] bcast_S_S16x2048x256 : (⟨S_, .f32⟩ : BufTy).Contents (Elt F) → (⟨S16x2048x256, .f32⟩ : BufTy).Contents (Elt F)),
    binary main_v45 main_call3_v0 main_v46 (maximumf : (⟨S16x2048x256, .f32⟩ : BufTy).Contents (Elt F) → (⟨S16x2048x256, .f32⟩ : BufTy).Contents (Elt F) → (⟨S16x2048x256, .f32⟩ : BufTy).Contents (Elt F)),
    unary main_arg6 main_v47 (broadcastInDim S16x2048x256 ![] bcast_S_S16x2048x256 : (⟨S_, .f32⟩ : BufTy).Contents (Elt F) → (⟨S16x2048x256, .f32⟩ : BufTy).Contents (Elt F)),
    binary main_v47 main_arg0 main_v48 (mulf : (⟨S16x2048x256, .f32⟩ : BufTy).Contents (Elt F) → (⟨S16x2048x256, .f32⟩ : BufTy).Contents (Elt F) → (⟨S16x2048x256, .f32⟩ : BufTy).Contents (Elt F)),
    binary main_v46 main_v48 main_v49 (addf : (⟨S16x2048x256, .f32⟩ : BufTy).Contents (Elt F) → (⟨S16x2048x256, .f32⟩ : BufTy).Contents (Elt F) → (⟨S16x2048x256, .f32⟩ : BufTy).Contents (Elt F)) ]

end Cert.ReferenceIdeal.RefRun

end
-- ==== Proof.Spec.lean ====
/-
  The layer as a function of real arrays.

  A graph-convolution layer with symmetric normalisation, batch normalisation and a residual, over 16 graphs of 2048
  nodes with 256 features.  For a graph bi with non-negative edge weights adj:
    * deg(n) = sum_m adj(n, m) + 1 is the degree of node n in the graph with a self loop added;
    * dis(n) = deg(n)^(-1/2);
    * lin(n, k) = sum_d h(n, d) W(k, d) + b(k) is the linear layer;
    * raw(n, k) = sum_m dis(n) (adj(n, m) + [n = m]) dis(m) lin(m, k) is the propagation along the normalised edges;
    * mean(k), var(k) are the mean and the (biased) variance of a feature over all 16 * 2048 = 32768 nodes;
    * out = max((raw - mean) (var + eps)^(-1/2) bnw + bnb, 0) + resw h.
  With adj >= 0 every degree is at least 1, so dis is a positive real; a variance is non-negative, so with eps > 0 the
  normalising factor is a positive real too.
-/
import Mathlib

noncomputable section

namespace Cert.Spec

variable (h : Fin 16 → Fin 2048 → Fin 256 → ℝ) (adj : Fin 16 → Fin 2048 → Fin 2048 → ℝ) (W : Fin 256 → Fin 256 → ℝ)
  (b bnw bnb : Fin 256 → ℝ) (resw eps : ℝ)

/-- The degree of node n: its row of weights summed, plus the self loop. -/
def deg (bi : Fin 16) (n : Fin 2048) : ℝ := (∑ m, adj bi n m) + 1

/-- The scale of node n: the reciprocal square root of its degree. -/
def dis (bi : Fin 16) (n : Fin 2048) : ℝ := (Real.sqrt (deg adj bi n))⁻¹

/-- The linear layer. -/
def lin (bi : Fin 16) (n : Fin 2048) (k : Fin 256) : ℝ := (∑ d, h bi n d * W k d) + b k

/-- The propagation along the normalised edges. -/
def raw (bi : Fin 16) (n : Fin 2048) (k : Fin 256) : ℝ :=
  ∑ m, (dis adj bi n * (adj bi n m + if n = m then 1 else 0)) * dis adj bi m * lin h W b bi m k

/-- The mean of feature k over all 32768 nodes. -/
def mean (x : Fin 16 → Fin 2048 → Fin 256 → ℝ) (k : Fin 256) : ℝ := (∑ bi, ∑ n, x bi n k) / 32768

/-- The biased variance of feature k over all 32768 nodes. -/
def var (x : Fin 16 → Fin 2048 → Fin 256 → ℝ) (k : Fin 256) : ℝ :=
  (∑ bi, ∑ n, (x bi n k - mean x k) * (x bi n k - mean x k)) / 32768

/-- The layer's output. -/
def out (bi : Fin 16) (n : Fin 2048) (k : Fin 256) : ℝ :=
  max (((raw h adj W b bi n k - mean (raw h adj W b) k) * (Real.sqrt (var (raw h adj W b) k + eps))⁻¹) * bnw k + bnb k) 0
    + resw * h bi n k

variable {adj}

/-- With non-negative weights every degree is at least one. -/
theorem one_le_deg (hadj : ∀ bi n m, 0 ≤ adj bi n m) (bi : Fin 16) (n : Fin 2048) : 1 ≤ deg adj bi n :=
  le_add_of_nonneg_left (Finset.sum_nonneg fun m _ => hadj bi n m)

/-- With non-negative weights every degree is positive. -/
theorem deg_pos (hadj : ∀ bi n m, 0 ≤ adj bi n m) (bi : Fin 16) (n : Fin 2048) : 0 < deg adj bi n :=
  lt_of_lt_of_le one_pos (one_le_deg hadj bi n)

/-- With non-negative weights every scale is positive. -/
theorem dis_pos (hadj : ∀ bi n m, 0 ≤ adj bi n m) (bi : Fin 16) (n : Fin 2048) : 0 < dis adj bi n :=
  inv_pos.mpr (Real.sqrt_pos.mpr (deg_pos hadj bi n))

/-- With non-negative weights every scale is at most one. -/
theorem dis_le_one (hadj : ∀ bi n m, 0 ≤ adj bi n m) (bi : Fin 16) (n : Fin 2048) : dis adj bi n ≤ 1 :=
  inv_le_one_of_one_le₀ (Real.one_le_sqrt.mpr (one_le_deg hadj bi n))

/-- A variance is non-negative: it is a sum of squares over a positive count. -/
theorem var_nonneg (x : Fin 16 → Fin 2048 → Fin 256 → ℝ) (k : Fin 256) : 0 ≤ var x k :=
  div_nonneg (Finset.sum_nonneg fun _ _ => Finset.sum_nonneg fun _ _ => mul_self_nonneg _) (by norm_num)

/-- A variance plus a positive number is positive. -/
theorem var_add_pos (x : Fin 16 → Fin 2048 → Fin 256 → ℝ) (k : Fin 256) {eps : ℝ} (heps : 0 < eps) : 0 < var x k + eps :=
  add_pos_of_nonneg_of_pos (var_nonneg x k) heps

end Cert.Spec

end
-- ==== Proof.LibInvSqrtDegree.lean ====
/-
  The inverse square root of a degree, two spellings, on the extended reals.

  A symmetric normalisation of a weighted graph scales row n and column m of (A + I) by deg(n)^(-1/2) and deg(m)^(-1/2),
  where deg(n) = sum_m (A + I)(n, m).  One program spells the scale as the power deg ^ (-1/2) and replaces an infinite
  scale by zero; another takes the reciprocal square root and adds the diagonal's 1 after summing the row of A.  For
  non-negative real weights the degree is a real number >= 1, and there the two spellings are one number:
    * x ^ (-1/2) = (sqrt x)^(-1) for a positive real x  (pow_neg_half_eq_rsqrt);
    * a real number's absolute value is not +infinity, so the replacement never happens  (abs_coe_ne_top);
    * sum_m (a m + [n = m]) = (sum_m a m) + 1, over any additive commutative monoid with a one  (sum_add_diag);
    * a sum of non-negative reals plus one is at least one  (one_le_sum_add_one),
      and the coercion of such a sum to the extended reals is the sum of the coercions  (coe_sum).
  Nothing here mentions a program; the shapes and the index types are arbitrary.
-/
import Mathlib
import Idealize.ShloMosaic.PureOps.Ideal

namespace Cert.Lib.InvSqrtDegree

open Idealize.ShloMosaic

/-- On a positive real the power with exponent -1/2 is the reciprocal of the square root. -/
theorem rpow_neg_half {d : ℝ} (hd : 0 < d) : Real.rpow d (-(1 / 2)) = (Real.sqrt d)⁻¹ := by
  show d ^ (-(1 / 2 : ℝ)) = (Real.sqrt d)⁻¹
  rw [Real.sqrt_eq_rpow, Real.rpow_neg hd.le]

/-- The same on the extended reals, for the two interpreted operations: at a positive real base and the real exponent
    -1/2 the power is the reciprocal square root. -/
theorem pow_neg_half_eq_rsqrt {d : ℝ} (hd : 0 < d) :
    Ideal.pow (d : EReal) ((-(1 / 2) : ℝ) : EReal) = Ideal.rsqrt (d : EReal) := by
  have h1 : ¬ d < 0 := not_lt.mpr hd.le
  have h2 : ¬ d = 0 := hd.ne'
  show ((Real.rpow d (-(1 / 2)) : ℝ) : EReal) = (if d < 0 then ⊥ else if d = 0 then ⊤ else (((Real.sqrt d)⁻¹ : ℝ) : EReal))
  rw [if_neg h1, if_neg h2, rpow_neg_half hd]

/-- The reciprocal square root of a positive real is a positive real. -/
theorem rsqrt_pos {d : ℝ} (hd : 0 < d) : Ideal.rsqrt (d : EReal) = (((Real.sqrt d)⁻¹ : ℝ) : EReal) := by
  have h1 : ¬ d < 0 := not_lt.mpr hd.le
  have h2 : ¬ d = 0 := hd.ne'
  show (if d < 0 then ⊥ else if d = 0 then ⊤ else (((Real.sqrt d)⁻¹ : ℝ) : EReal)) = _
  rw [if_neg h1, if_neg h2]

/-- The absolute value max x (-x) of a real number is a real number: it is not +infinity. -/
theorem abs_coe_ne_top (r : ℝ) : max (r : EReal) (-(r : EReal)) ≠ ⊤ := by
  rw [← EReal.coe_neg]
  rcases max_choice (r : EReal) ((-r : ℝ) : EReal) with h | h <;> rw [h] <;> exact EReal.coe_ne_top _

/-- Adding the identity's row n to a row before summing it is adding one to the row's sum. -/
theorem sum_add_diag {M : Type*} [AddCommMonoid M] [One M] {ι : Type*} [Fintype ι] [DecidableEq ι]
    (a : ι → M) (n : ι) : (∑ m, (a m + if n = m then (1 : M) else 0)) = (∑ m, a m) + 1 := by
  rw [Finset.sum_add_distrib, Finset.sum_ite_eq Finset.univ n (fun _ => (1 : M)), if_pos (Finset.mem_univ n)]

/-- A sum of non-negative reals plus one is at least one, hence positive. -/
theorem one_le_sum_add_one {ι : Type*} [Fintype ι] (a : ι → ℝ) (ha : ∀ m, 0 ≤ a m) : 1 ≤ (∑ m, a m) + 1 :=
  le_add_of_nonneg_left (Finset.sum_nonneg fun m _ => ha m)

/-- The coercion of a finite sum of reals to the extended reals is the sum of the coercions. -/
theorem coe_sum {ι : Type*} (s : Finset ι) (a : ι → ℝ) : ((∑ m ∈ s, a m : ℝ) : EReal) = ∑ m ∈ s, (a m : EReal) := by
  classical
  induction s using Finset.induction_on with
  | empty => simp
  | insert x s hx ih => rw [Finset.sum_insert hx, Finset.sum_insert hx, EReal.coe_add, ih]

end Cert.Lib.InvSqrtDegree
-- ==== Proof.StatsValue.lean ====
/-
  The batch statistics of a 32768 x 256 array, as host operations compute them, read at a feature.

  The array is a stack of 16 x 2048 rows flattened: row r = bi * 2048 + n is node n of graph bi.  For an array whose
  entries are real numbers the column sum from a zero is the real sum; divided by the word 32768 it is the mean; the
  variance function computes the mean once more as a one-row matrix, subtracts it from every row, squares by a product
  of the difference with itself, sums, divides by the count 32768 - 0 (the zero an integer converted), and keeps the
  quotient when that count is positive, a NaN otherwise: the count is 32768, so the quotient is kept.  Every statement is
  about the composed operations over an arbitrary array, the shape relations they take as arguments; a last part turns
  the sums over the 32768 rows into the double sums over graphs and nodes.
-/
import Mathlib
import Idealize.ShloMosaic.PureOps.Ideal.Laws
import Idealize.ShloMosaic.Lib.ValueIdx
import Idealize.ShloMosaic.Lib.IdealHost
import Idealize.ShloMosaic.Lib.Pipeline.Value
import proofs.«110154_j39565238731446_1_alg».proof.Proof.Spec
import proofs.«110154_j39565238731446_1_alg».proof.Proof.LibInvSqrtDegree

noncomputable section

namespace Cert.StatsValue

open Idealize.ShloMosaic Idealize.ShloMosaic.ValueIdx

/-- The flattened array's shape, a feature vector's, a one-row matrix's, a scalar's. -/
abbrev SRows : Shape := ⟨2, ![32768, 256]⟩
abbrev SFeat : Shape := ⟨1, ![256]⟩
abbrev SRow1 : Shape := ⟨2, ![1, 256]⟩
abbrev S0 : Shape := ⟨0, ![]⟩

/-! ## The real side -/

/-- The mean of feature k over the 32768 rows. -/
def meanR (xr : Fin 32768 → Fin 256 → ℝ) (k : Fin 256) : ℝ := (∑ r, xr r k) / 32768

/-- The biased variance of feature k over the 32768 rows. -/
def varR (xr : Fin 32768 → Fin 256 → ℝ) (k : Fin 256) : ℝ :=
  (∑ r, (xr r k - meanR xr k) * (xr r k - meanR xr k)) / 32768

/-! ## Words and the division by the count -/

/-- The word 0x47000000 is 32768. -/
theorem ofBits_32768 : Ideal.ofBits .f32 0x47000000#32 = ((32768 : ℝ) : EReal) := by
  simp [Ideal.ofBits, Ideal.ieee, -EReal.coe_mul]; norm_num

/-- A real number divided by the real 32768, on the extended reals, is the real quotient. -/
theorem div_32768 (x : ℝ) : Ideal.div (x : EReal) ((32768 : ℝ) : EReal) = ((x / 32768 : ℝ) : EReal) := by
  rw [Ideal.div_coe (by norm_num : (32768 : ℝ) ≠ 0), ← EReal.coe_mul, mul_one_div]

/-! ## Broadcasts at an index -/

section Layout
variable {α : Type}

theorem bc_k_1k (hb1 : SFeat.BroadcastsInDim SRow1 (![1] : Fin SFeat.rank → Fin SRow1.rank)) (y : SFeat.Idx → α) (u : Fin 1) (k : Fin 256) :
    broadcastInDim SRow1 ![1] hb1 y (ix2 u k) = y (ix1 k) :=
  broadcastInDim_apply _ hb1 y _ _ fun a => match a with | ⟨0, _⟩ => rfl

theorem bc_1k_rk (hb3 : SRow1.BroadcastsInDim SRows (![0, 1] : Fin SRow1.rank → Fin SRows.rank)) (y : SRow1.Idx → α) (r : Fin 32768) (k : Fin 256) :
    broadcastInDim SRows ![0, 1] hb3 y (ix2 r k) = y (ix2 (0 : Fin 1) k) :=
  broadcastInDim_apply _ hb3 y _ _ fun a => match a with | ⟨0, _⟩ => rfl | ⟨1, _⟩ => rfl

end Layout

/-! ## The column sums and the mean -/

/-- Dropping the first of two axes: the index over k with row r inserted is (r, k). -/
theorem lift_cols (hr : SRows.Reduces [0] SFeat) (k : Fin 256) (r : Fin 32768) : hr.lift (ix1 k) r = ix2 r k :=
  funext fun c => Fin.ext (match c with | ⟨0, _⟩ => rfl | ⟨1, _⟩ => rfl)

/-- A column sum from a zero is the sum over the rows. -/
theorem colsum_apply (x : FVec Ideal SRows .f32) (hred : SRows.ReducesTo [0] SFeat) (hS : 0 < S0.numel) (k : Fin 256) :
    Host.reduceAdd x (constant S0 .f32 0x00000000#32) hred hS (ix1 k) = ∑ r : Fin 32768, x (ix2 r k) := by
  have hr : SRows.Reduces [0] SFeat := by decide
  rw [hostReduceAdd_apply, Ideal.hostReduceAdd_single _ hr]
  show Ideal.ofBits .f32 0x00000000#32 + ∑ r : Fin 32768, x (hr.lift (ix1 k) r) = _
  rw [Ideal.ofBits_zero_f32, zero_add]
  simp only [lift_cols hr]

section Real
variable (x : FVec Ideal SRows .f32) (xr : Fin 32768 → Fin 256 → ℝ) (hx : ∀ r k, x (ix2 r k) = ((xr r k : ℝ) : EReal))
include hx

/-- Of an array of real numbers the column sum is the real sum. -/
theorem colsum_coe (hred : SRows.ReducesTo [0] SFeat) (hS : 0 < S0.numel) (k : Fin 256) :
    Host.reduceAdd x (constant S0 .f32 0x00000000#32) hred hS (ix1 k) = ((∑ r, xr r k : ℝ) : EReal) := by
  rw [colsum_apply]
  simp only [hx]
  rw [← Cert.Lib.InvSqrtDegree.coe_sum]

/-- The mean: the column sum divided by the word 32768 spread over the features. -/
theorem mean_apply (hred : SRows.ReducesTo [0] SFeat) (hS : 0 < S0.numel)
    (hb : S0.BroadcastsInDim SFeat (![] : Fin S0.rank → Fin SFeat.rank)) (k : Fin 256) :
    Host.divf (Host.reduceAdd x (constant S0 .f32 0x00000000#32) hred hS)
        (broadcastInDim SFeat ![] hb (constant S0 .f32 0x47000000#32)) (ix1 k)
      = ((meanR xr k : ℝ) : EReal) := by
  rw [hostDivf_apply, colsum_coe x xr hx, broadcastInDim_scalar_apply, constant_apply, ofBits_32768]
  exact div_32768 _

/-- The mean as the variance function computes it: the column sums as a one-row matrix, divided by the word 32768 spread
    over that matrix. -/
theorem mean_row_apply (hred : SRows.ReducesTo [0] SFeat) (hS : 0 < S0.numel)
    (hb1 : SFeat.BroadcastsInDim SRow1 (![1] : Fin SFeat.rank → Fin SRow1.rank))
    (hb2 : S0.BroadcastsInDim SRow1 (![] : Fin S0.rank → Fin SRow1.rank)) (u : Fin 1) (k : Fin 256) :
    Host.divf (broadcastInDim SRow1 ![1] hb1 (Host.reduceAdd x (constant S0 .f32 0x00000000#32) hred hS))
        (broadcastInDim SRow1 ![] hb2 (constant S0 .f32 0x47000000#32)) (ix2 u k)
      = ((meanR xr k : ℝ) : EReal) := by
  rw [hostDivf_apply, bc_k_1k, colsum_coe x xr hx, broadcastInDim_scalar_apply, constant_apply, ofBits_32768]
  exact div_32768 _

/-- The squared deviation from a row of real numbers spread over the rows: the product of the difference with itself. -/
theorem sqdev_apply (m : FVec Ideal SRow1 .f32) (M : Fin 256 → ℝ) (hm : ∀ k, m (ix2 (0 : Fin 1) k) = ((M k : ℝ) : EReal))
    (hb3 : SRow1.BroadcastsInDim SRows (![0, 1] : Fin SRow1.rank → Fin SRows.rank)) (r : Fin 32768) (k : Fin 256) :
    mulf (subf x (broadcastInDim SRows ![0, 1] hb3 m)) (subf x (broadcastInDim SRows ![0, 1] hb3 m)) (ix2 r k)
      = (((xr r k - M k) * (xr r k - M k) : ℝ) : EReal) := by
  rw [mulf_apply, subf_apply, bc_1k_rk, hx, hm, EReal.coe_mul, EReal.coe_sub]

end Real

/-! ## The count and the guarded quotient -/

/-- The count 32768 - 0, the zero an integer word converted. -/
theorem count_apply (c : IVec S0 32) (hc : c ix0 = 0#32) :
    subf (constant (F := Ideal) S0 .f32 0x47000000#32) (sitofp (F := Ideal) .f32 c) ix0 = ((32768 : ℝ) : EReal) := by
  show Ideal.ofBits .f32 0x47000000#32 - ((((c ix0).toInt : ℤ) : ℝ) : EReal) = _
  rw [hc, ofBits_32768, BitVec.toInt_zero]
  simp

/-- The quotient by a count that is 32768, kept under the test "count > 0": the test holds, so the quotient is kept. -/
theorem guarded_div_apply (q : FVec Ideal SFeat .f32) (Q : Fin 256 → ℝ) (hq : ∀ k, q (ix1 k) = ((Q k : ℝ) : EReal))
    (cnt : FVec Ideal S0 .f32) (hcnt : cnt ix0 = ((32768 : ℝ) : EReal)) (z : FVec Ideal SFeat .f32)
    (hb : S0.BroadcastsInDim SFeat (![] : Fin S0.rank → Fin SFeat.rank)) (k : Fin 256) :
    select (broadcastInDim SFeat ![] hb (cmpf .ogt cnt (constant S0 .f32 0x00000000#32)))
        (Host.divf q (broadcastInDim SFeat ![] hb cnt)) z (ix1 k)
      = ((Q k / 32768 : ℝ) : EReal) := by
  have hc : FloatOps.cmpf (F := Ideal) (φ := .f32) .ogt ((32768 : ℝ) : EReal) 0 = 1#1 := by
    show Ideal.cmp .ogt ((32768 : ℝ) : EReal) 0 = 1#1
    have h0 : (0 : EReal) < ((32768 : ℝ) : EReal) := by exact_mod_cast (by norm_num : (0 : ℝ) < 32768)
    simp [Ideal.cmp, h0]
  rw [select_apply, broadcastInDim_scalar_apply, cmpf_apply, hcnt, constant_apply, Ideal.ofBits_zero_f32, hc, select_one,
    hostDivf_apply, hq, broadcastInDim_scalar_apply, hcnt]
  exact div_32768 _

/-- The variance as the variance function composes it, of an array of real numbers. -/
theorem var_apply (x : FVec Ideal SRows .f32) (xr : Fin 32768 → Fin 256 → ℝ) (hx : ∀ r k, x (ix2 r k) = ((xr r k : ℝ) : EReal))
    (hred : SRows.ReducesTo [0] SFeat) (hS : 0 < S0.numel)
    (hb : S0.BroadcastsInDim SFeat (![] : Fin S0.rank → Fin SFeat.rank))
    (hb1 : SFeat.BroadcastsInDim SRow1 (![1] : Fin SFeat.rank → Fin SRow1.rank))
    (hb2 : S0.BroadcastsInDim SRow1 (![] : Fin S0.rank → Fin SRow1.rank))
    (hb3 : SRow1.BroadcastsInDim SRows (![0, 1] : Fin SRow1.rank → Fin SRows.rank))
    (c : IVec S0 32) (hc : c ix0 = 0#32) (z : FVec Ideal SFeat .f32) (k : Fin 256) :
    select (broadcastInDim SFeat ![] hb
          (cmpf .ogt (subf (constant (F := Ideal) S0 .f32 0x47000000#32) (sitofp (F := Ideal) .f32 c)) (constant S0 .f32 0x00000000#32)))
        (Host.divf
          (Host.reduceAdd
            (mulf
              (subf x (broadcastInDim SRows ![0, 1] hb3
                (Host.divf (broadcastInDim SRow1 ![1] hb1 (Host.reduceAdd x (constant S0 .f32 0x00000000#32) hred hS))
                  (broadcastInDim SRow1 ![] hb2 (constant S0 .f32 0x47000000#32)))))
              (subf x (broadcastInDim SRows ![0, 1] hb3
                (Host.divf (broadcastInDim SRow1 ![1] hb1 (Host.reduceAdd x (constant S0 .f32 0x00000000#32) hred hS))
                  (broadcastInDim SRow1 ![] hb2 (constant S0 .f32 0x47000000#32))))))
            (constant S0 .f32 0x00000000#32) hred hS)
          (broadcastInDim SFeat ![] hb (subf (constant (F := Ideal) S0 .f32 0x47000000#32) (sitofp (F := Ideal) .f32 c))))
        z (ix1 k)
      = ((varR xr k : ℝ) : EReal) :=
  guarded_div_apply _ (fun k => ∑ r, (xr r k - meanR xr k) * (xr r k - meanR xr k))
    (fun k => colsum_coe _ (fun r k => (xr r k - meanR xr k) * (xr r k - meanR xr k))
      (fun r k => sqdev_apply x xr hx _ (meanR xr) (fun k => mean_row_apply x xr hx hred hS hb1 hb2 0 k) hb3 r k) hred hS k)
    _ (count_apply c hc) z hb k

/-! ## Rows as (graph, node) -/

/-- Row bi * 2048 + n is node n of graph bi. -/
def rowOf (bi : Fin 16) (n : Fin 2048) : Fin 32768 := ⟨bi.val * 2048 + n.val, by have := bi.isLt; have := n.isLt; omega⟩
/-- The graph of a row. -/
def graphOf (r : Fin 32768) : Fin 16 := ⟨r.val / 2048, by have := r.isLt; omega⟩
/-- The node of a row. -/
def nodeOf (r : Fin 32768) : Fin 2048 := ⟨r.val % 2048, Nat.mod_lt _ (by norm_num)⟩

theorem graphOf_rowOf (bi : Fin 16) (n : Fin 2048) : graphOf (rowOf bi n) = bi :=
  Fin.ext (by show (bi.val * 2048 + n.val) / 2048 = bi.val; have := n.isLt; omega)
theorem nodeOf_rowOf (bi : Fin 16) (n : Fin 2048) : nodeOf (rowOf bi n) = n :=
  Fin.ext (by show (bi.val * 2048 + n.val) % 2048 = n.val; have := n.isLt; omega)
theorem rowOf_graphOf_nodeOf (r : Fin 32768) : rowOf (graphOf r) (nodeOf r) = r :=
  Fin.ext (by show r.val / 2048 * 2048 + r.val % 2048 = r.val; omega)

/-- The rows are the pairs (graph, node). -/
def rowEquiv : Fin 16 × Fin 2048 ≃ Fin 32768 where
  toFun p := rowOf p.1 p.2
  invFun r := (graphOf r, nodeOf r)
  left_inv p := Prod.ext (graphOf_rowOf p.1 p.2) (nodeOf_rowOf p.1 p.2)
  right_inv r := rowOf_graphOf_nodeOf r

/-- A sum over the 32768 rows is the sum over the graphs of the sums over the nodes. -/
theorem sum_rows {M : Type*} [AddCommMonoid M] (f : Fin 32768 → M) :
    ∑ r, f r = ∑ bi : Fin 16, ∑ n : Fin 2048, f (rowOf bi n) := by
  rw [← Equiv.sum_comp rowEquiv f, Fintype.sum_prod_type]
  rfl

/-- The mean over the rows of a flattened stack is the mean over graphs and nodes. -/
theorem meanR_flat (X : Fin 16 → Fin 2048 → Fin 256 → ℝ) (k : Fin 256) :
    meanR (fun r k => X (graphOf r) (nodeOf r) k) k = Spec.mean X k := by
  unfold meanR Spec.mean
  rw [sum_rows]
  simp only [graphOf_rowOf, nodeOf_rowOf]

/-- The variance over the rows of a flattened stack is the variance over graphs and nodes. -/
theorem varR_flat (X : Fin 16 → Fin 2048 → Fin 256 → ℝ) (k : Fin 256) :
    varR (fun r k => X (graphOf r) (nodeOf r) k) k = Spec.var X k := by
  unfold varR Spec.var
  rw [sum_rows, meanR_flat]
  simp only [graphOf_rowOf, nodeOf_rowOf]

end Cert.StatsValue

end
-- ==== Proof.LibInfGuard.lean ====
/-
  "Replace an infinite entry by zero" leaves a real entry alone.

  jnp.where(jnp.isinf(x), 0.0, x) lowers to: |x| compared for equality with the +infinity word, a zero constant spread over
  the shape, and a select between the zero and x under that bit.  Over the extended reals |x| = max x (-x), and for a
  real number it is a real number, never +infinity: at such an entry the select takes x.  The shape is arbitrary; the
  bit array and the two branches are read at one entry.
-/
import Mathlib
import Idealize.ShloMosaic.PureOps.Ideal
import Idealize.ShloMosaic.PureOps.Vector

namespace Cert.Lib.InfGuard

open Idealize.ShloMosaic

/-- The equality test of |r| against +infinity answers 0 at a real number r. -/
theorem cmp_abs_top (r : ℝ) : Ideal.cmp .oeq (max (r : EReal) (-(r : EReal))) ⊤ = 0#1 := by
  have h : max (r : EReal) (-(r : EReal)) ≠ ⊤ := by
    rw [← EReal.coe_neg]
    rcases max_choice (r : EReal) ((-r : ℝ) : EReal) with h | h <;> rw [h] <;> exact EReal.coe_ne_top _
  simp [Ideal.cmp, h]

/-- At an entry where x is a real number, the select under the bit "|x| = +infinity" between any value z and x is x. -/
theorem select_abs_top {s : Shape} (x z : s.Idx → EReal) (top : s.Idx → EReal) (i : s.Idx) (r : ℝ)
    (hx : x i = (r : EReal)) (htop : top i = ⊤) :
    select (fun j => Ideal.cmp .oeq (max (x j) (-(x j))) (top j)) z x i = x i := by
  show Scalar.select (Ideal.cmp .oeq (max (x i) (-(x i))) (top i)) (z i) (x i) = x i
  rw [hx, htop, cmp_abs_top]
  rfl

end Cert.Lib.InfGuard
-- ==== Proof.RefValue.lean ====
/-
  What the reference computes, read entry by entry.

  The reference is a line of 86 host operations (RefOps.lean).  Each stage of it is read at an index, over the extended
  reals, as the coercion of the layer's real function (Spec.lean): A = adj + I from two iotas, the degrees as row sums,
  the scale deg^(-1/2) (with non-negative weights a positive real, so the guard against an infinite scale never fires),
  the normalised matrix, the linear layer, the propagation, the mean and the variance over all 32768 rows, the
  normalisation, the clamp at zero and the residual.  Each stage's buffer is first written as its operations applied to
  the buffers of the stage before (the equations main_vN_eq, by unfolding the list once on both sides), then read at an
  index with the library's lemmas for each operation.
-/
import proofs.«110154_j39565238731446_1_alg».proof.Proof.RefRun
import proofs.«110154_j39565238731446_1_alg».proof.Proof.RefOpsPlain
import proofs.«110154_j39565238731446_1_alg».proof.Proof.Spec
import proofs.«110154_j39565238731446_1_alg».proof.Proof.StatsValue
import proofs.«110154_j39565238731446_1_alg».proof.Proof.LibInvSqrtDegree
import proofs.«110154_j39565238731446_1_alg».proof.Proof.LibInfGuard
import Idealize.ShloMosaic.Lib.ValueIdx
import Idealize.ShloMosaic.Lib.IdealHost
import Idealize.ShloMosaic.Lib.Pipeline.Value
import Idealize.ShloMosaic.Lib.ValueLayout
import Idealize.ShloMosaic.Lib.StackMember
import Idealize.ShloMosaic.PureOps.Ideal.Laws
import Idealize.ShloMosaic.Lib.StableHlo.Run

noncomputable section

namespace Cert.ReferenceIdeal.RefValue

open Idealize.ShloMosaic Idealize.ShloMosaic.TcCoe Idealize.ShloMosaic.StableHlo Idealize.SL.Sem Cert.ReferenceIdeal
open Cert.ReferenceIdeal.RefRun Idealize.ShloMosaic.ValueIdx

variable [Cert.ReferenceIdeal.Facts]
open Cert.ReferenceIdeal.Facts₀ Cert.ReferenceIdeal.Facts

set_option maxRecDepth 16384 in
/-- The list with the outlined functions' operations written as plain builders is the list: a typed reference at a literal
    buffer moves nothing. -/
theorem ops_eq {F : FTy → Type} [FloatOps F] : (ops : List (HloOp τ sig (Elt F))) = opsPlain := rfl

/-! ## Host operations at an index, at the ideal values -/

section HostOps
variable {s : Shape} {φ : FTy}

theorem hostPowf_apply (a b : FVec Ideal s φ) (i : s.Idx) : Host.powf a b i = Ideal.pow (a i) (b i) := rfl
theorem hostRsqrt_apply (a : FVec Ideal s φ) (i : s.Idx) : Host.rsqrt a i = Ideal.rsqrt (a i) := rfl

end HostOps

/-! ## Broadcasts read at an index given by coordinates -/

section Layout
variable {α : Type}

/-- A matrix given a leading unit axis reads the matrix. -/
theorem bc_nm_1nm (x : S2048x2048.Idx → α) (u : Fin 1) (n m : Fin 2048) :
    broadcastInDim S1x2048x2048 ![1, 2] bcast_S2048x2048_S1x2048x2048_1_2 x (ix3 u n m) = x (ix2 n m) :=
  broadcastInDim_apply _ _ x _ _ fun a => match a with | ⟨0, _⟩ => rfl | ⟨1, _⟩ => rfl

/-- One matrix copied to each of the sixteen graphs. -/
theorem bc_1nm_bnm (x : S1x2048x2048.Idx → α) (bi : Fin 16) (n m : Fin 2048) :
    broadcastInDim S16x2048x2048 ![0, 1, 2] bcast_S1x2048x2048_S16x2048x2048_0_1_2 x (ix3 bi n m) = x (ix3 (0 : Fin 1) n m) :=
  broadcastInDim_apply _ _ x _ _ fun a => match a with | ⟨0, _⟩ => rfl | ⟨1, _⟩ => rfl | ⟨2, _⟩ => rfl

end Layout

/-! ## The identity matrix and A = adj + I -/

/-- Two numbers below 2^32 with the same 32-bit word are equal. -/
theorem eq_of_ofNat_eq {a b : Nat} (ha : a < 2 ^ 32) (hb : b < 2 ^ 32) (h : BitVec.ofNat 32 a = BitVec.ofNat 32 b) : a = b := by
  have e := congrArg BitVec.toNat h
  rwa [BitVec.toNat_ofNat, BitVec.toNat_ofNat, Nat.mod_eq_of_lt ha, Nat.mod_eq_of_lt hb] at e

/-- The bit "row + 0 = column" of two coordinates below 2048, as a real number, is the identity matrix's entry. -/
theorem eye_bit (n m : Fin 2048) :
    (((IntOp.cmpi .eq (IntOp.addi (BitVec.ofNat 32 n.val) 0#32) (BitVec.ofNat 32 m.val)).toNat : ℝ) : EReal)
      = (((if n = m then 1 else 0 : ℝ)) : EReal) := by
  have hn : n.val < 2 ^ 32 := lt_trans n.isLt (by norm_num)
  have hm : m.val < 2 ^ 32 := lt_trans m.isLt (by norm_num)
  unfold IntOp.cmpi IntOp.addi
  by_cases h : n = m
  · subst h; simp
  · have hne : ¬ (BitVec.ofNat 32 n.val = BitVec.ofNat 32 m.val) := fun e => h (Fin.ext (eq_of_ofNat_eq hn hm e))
    simp [h, hne]

/-- What @main computes for A = adj + I, as a function of the adjacency argument. -/
theorem main_v8_eq (V : Valuation τ sig (Elt Ideal)) :
    after (opsPlain (F := Ideal)) V (main_v8 : DevRef τ sig)
      = addf (F := Ideal) (s := S16x2048x2048) (φ := .f32) (V (main_arg1 : DevRef τ sig))
          (broadcastInDim S16x2048x2048 ![0, 1, 2] bcast_S1x2048x2048_S16x2048x2048_0_1_2
            (broadcastInDim S1x2048x2048 ![1, 2] bcast_S2048x2048_S1x2048x2048_1_2
              (uitofp .f32 (cmpi .eq (addi (iotaInDim S2048x2048 32 0) (broadcastInDim S2048x2048 ![] bcast_S_S2048x2048 (constantI S_ 32 0#32)))
                (iotaInDim S2048x2048 32 1))))) := by
  after_results_simp

variable (adj : Fin 16 → Fin 2048 → Fin 2048 → ℝ)

/-- A = adj + I at an entry. -/
theorem v8_at (V : Valuation τ sig (Elt Ideal))
    (h1 : ∀ bi n m, V (main_arg1 : DevRef τ sig) (ix3 bi n m) = (adj bi n m : EReal)) (bi : Fin 16) (n m : Fin 2048) :
    after (opsPlain (F := Ideal)) V (main_v8 : DevRef τ sig) (ix3 bi n m) = ((adj bi n m + if n = m then 1 else 0 : ℝ) : EReal) := by
  refine (congrFun (main_v8_eq V) (ix3 bi n m)).trans ?_
  rw [addf_apply, bc_1nm_bnm, bc_nm_1nm, h1, EReal.coe_add]
  refine congrArg (fun t => ((adj bi n m : ℝ) : EReal) + t) ?_
  show (((IntOp.cmpi .eq (IntOp.addi (BitVec.ofNat 32 n.val)
      (broadcastInDim S2048x2048 ![] bcast_S_S2048x2048 (constantI S_ 32 0#32) (ix2 n m))) (BitVec.ofNat 32 m.val)).toNat : ℝ) : EReal) = _
  rw [broadcastInDim_scalar_apply]
  exact eye_bit n m

/-! ## The degrees and the scale -/

/-- Dropping the last of three axes: the index over (bi, n) with coordinate k inserted is (bi, n, k). -/
theorem lift_rows (hr : S16x2048x2048.Reduces [2] S16x2048) (bi : Fin 16) (n : Fin 2048) (k : Fin 2048) :
    hr.lift (ix2 bi n) k = ix3 bi n k :=
  funext fun c => Fin.ext (match c with | ⟨0, _⟩ => rfl | ⟨1, _⟩ => rfl | ⟨2, _⟩ => rfl)

/-- A row sum from a zero, as the sum over the column coordinate. -/
theorem rowsum_at (X : FVec Ideal S16x2048x2048 .f32) (bi : Fin 16) (n : Fin 2048) :
    Host.reduceAdd X (constant S_ .f32 0x00000000#32) reducesTo_S16x2048x2048_S16x2048_d2 h_S_ (ix2 bi n)
      = ∑ m : Fin 2048, X (ix3 bi n m) := by
  have hr : S16x2048x2048.Reduces [2] S16x2048 := by decide
  rw [hostReduceAdd_apply, Ideal.hostReduceAdd_single _ hr]
  show Ideal.ofBits .f32 0x00000000#32 + ∑ k : Fin 2048, X (hr.lift (ix2 bi n) k) = _
  rw [Ideal.ofBits_zero_f32, zero_add]
  simp only [lift_rows hr]

/-- The row sums of A, as the host's sum over the last axis from a zero. -/
theorem main_v9_eq (V : Valuation τ sig (Elt Ideal)) :
    after (opsPlain (F := Ideal)) V (main_v9 : DevRef τ sig)
      = Host.reduceAdd (F := Ideal) (s := S16x2048x2048) (φ := .f32) (after (opsPlain (F := Ideal)) V (main_v8 : DevRef τ sig)) (constant S_ .f32 0x00000000#32)
          reducesTo_S16x2048x2048_S16x2048_d2 h_S_ := by
  after_results_simp

/-- The degree of a node: the row sum of A is the row sum of adj plus one. -/
theorem v9_at (V : Valuation τ sig (Elt Ideal))
    (h1 : ∀ bi n m, V (main_arg1 : DevRef τ sig) (ix3 bi n m) = (adj bi n m : EReal)) (bi : Fin 16) (n : Fin 2048) :
    after (opsPlain (F := Ideal)) V (main_v9 : DevRef τ sig) (ix2 bi n) = ((Spec.deg adj bi n : ℝ) : EReal) := by
  refine (congrFun (main_v9_eq V) (ix2 bi n)).trans ?_
  rw [rowsum_at]
  simp only [v8_at adj V h1]
  rw [← Cert.Lib.InvSqrtDegree.coe_sum, Cert.Lib.InvSqrtDegree.sum_add_diag]
  rfl

/-- The word 0xBF000000 is minus one half. -/
theorem ofBits_neg_half : Ideal.ofBits .f32 0xBF000000#32 = ((-(1 / 2) : ℝ) : EReal) := by
  simp [Ideal.ofBits, Ideal.ieee, -EReal.coe_mul, -EReal.coe_neg]; norm_num

/-- The power deg ^ (-1/2). -/
theorem main_v11_eq (V : Valuation τ sig (Elt Ideal)) :
    after (opsPlain (F := Ideal)) V (main_v11 : DevRef τ sig)
      = Host.powf (F := Ideal) (s := S16x2048) (φ := .f32) (after (opsPlain (F := Ideal)) V (main_v9 : DevRef τ sig))
          (broadcastInDim S16x2048 ![] bcast_S_S16x2048 (constant S_ .f32 0xBF000000#32)) := by
  after_results_simp

/-- With non-negative weights the power is the reciprocal square root of the degree, a real number. -/
theorem v11_at (V : Valuation τ sig (Elt Ideal))
    (h1 : ∀ bi n m, V (main_arg1 : DevRef τ sig) (ix3 bi n m) = (adj bi n m : EReal)) (hadj : ∀ bi n m, 0 ≤ adj bi n m)
    (bi : Fin 16) (n : Fin 2048) :
    after (opsPlain (F := Ideal)) V (main_v11 : DevRef τ sig) (ix2 bi n) = ((Spec.dis adj bi n : ℝ) : EReal) := by
  refine (congrFun (main_v11_eq V) (ix2 bi n)).trans ?_
  rw [hostPowf_apply, v9_at adj V h1, broadcastInDim_scalar_apply, constant_apply, ofBits_neg_half,
    Cert.Lib.InvSqrtDegree.pow_neg_half_eq_rsqrt (Spec.deg_pos hadj bi n), Cert.Lib.InvSqrtDegree.rsqrt_pos (Spec.deg_pos hadj bi n)]
  rfl

/-- The scale: the power with an infinite value replaced by zero. -/
theorem main_v13_eq (V : Valuation τ sig (Elt Ideal)) :
    after (opsPlain (F := Ideal)) V (main_v13 : DevRef τ sig)
      = select (s := S16x2048) (α := Ideal .f32)
          (cmpf (F := Ideal) (s := S16x2048) (φ := .f32) .oeq (Host.absf (F := Ideal) (s := S16x2048) (φ := .f32) (after (opsPlain (F := Ideal)) V (main_v11 : DevRef τ sig)))
            (broadcastInDim S16x2048 ![] bcast_S_S16x2048 (constant S_ .f32 0x7F800000#32)))
          (broadcastInDim S16x2048 ![] bcast_S_S16x2048 (id (constant (F := Ideal) S_ .f32 0x00000000#32)))
          (after (opsPlain (F := Ideal)) V (main_v11 : DevRef τ sig)) := by
  after_results_simp

/-- At an entry where the power is a real number the guard keeps it. -/
theorem guard_at (P : FVec Ideal S16x2048 .f32) (i : S16x2048.Idx) (r : ℝ) (hP : P i = (r : EReal)) :
    select (s := S16x2048) (α := Ideal .f32)
        (cmpf (F := Ideal) (s := S16x2048) (φ := .f32) .oeq (Host.absf (F := Ideal) (s := S16x2048) (φ := .f32) P)
          (broadcastInDim S16x2048 ![] bcast_S_S16x2048 (constant S_ .f32 0x7F800000#32)))
        (broadcastInDim S16x2048 ![] bcast_S_S16x2048 (id (constant (F := Ideal) S_ .f32 0x00000000#32))) P i = P i := by
  have htop : broadcastInDim S16x2048 ![] bcast_S_S16x2048 (constant (F := Ideal) S_ .f32 0x7F800000#32) i = ⊤ := by
    rw [broadcastInDim_scalar_apply, constant_apply]
    simp [Ideal.ofBits, Ideal.ieee]
  exact Cert.Lib.InfGuard.select_abs_top P _ _ i r hP htop

/-- With non-negative weights the scale of node n is dis(n): the power is a real number, so nothing is replaced. -/
theorem v13_at (V : Valuation τ sig (Elt Ideal))
    (h1 : ∀ bi n m, V (main_arg1 : DevRef τ sig) (ix3 bi n m) = (adj bi n m : EReal)) (hadj : ∀ bi n m, 0 ≤ adj bi n m)
    (bi : Fin 16) (n : Fin 2048) :
    after (opsPlain (F := Ideal)) V (main_v13 : DevRef τ sig) (ix2 bi n) = ((Spec.dis adj bi n : ℝ) : EReal) := by
  have hP := v11_at adj V h1 hadj bi n
  refine (congrFun (main_v13_eq V) (ix2 bi n)).trans ?_
  exact (guard_at _ (ix2 bi n) _ hP).trans hP

/-! ## The normalised matrix -/

section Layout2
variable {α : Type}

theorem bc_bn_bn1 (x : S16x2048.Idx → α) (bi : Fin 16) (n : Fin 2048) (u : Fin 1) :
    broadcastInDim S16x2048x1 ![0, 1] bcast_S16x2048_S16x2048x1_0_1 x (ix3 bi n u) = x (ix2 bi n) :=
  broadcastInDim_apply _ _ x _ _ fun a => match a with | ⟨0, _⟩ => rfl | ⟨1, _⟩ => rfl

theorem bc_bn1_bnm (x : S16x2048x1.Idx → α) (bi : Fin 16) (n m : Fin 2048) :
    broadcastInDim S16x2048x2048 ![0, 1, 2] bcast_S16x2048x1_S16x2048x2048_0_1_2 x (ix3 bi n m) = x (ix3 bi n (0 : Fin 1)) :=
  broadcastInDim_apply _ _ x _ _ fun a => match a with | ⟨0, _⟩ => rfl | ⟨1, _⟩ => rfl | ⟨2, _⟩ => rfl

theorem bc_bm_b1m (x : S16x2048.Idx → α) (bi : Fin 16) (u : Fin 1) (m : Fin 2048) :
    broadcastInDim S16x1x2048 ![0, 2] bcast_S16x2048_S16x1x2048_0_2 x (ix3 bi u m) = x (ix2 bi m) :=
  broadcastInDim_apply _ _ x _ _ fun a => match a with | ⟨0, _⟩ => rfl | ⟨1, _⟩ => rfl

theorem bc_b1m_bnm (x : S16x1x2048.Idx → α) (bi : Fin 16) (n m : Fin 2048) :
    broadcastInDim S16x2048x2048 ![0, 1, 2] bcast_S16x1x2048_S16x2048x2048_0_1_2 x (ix3 bi n m) = x (ix3 bi (0 : Fin 1) m) :=
  broadcastInDim_apply _ _ x _ _ fun a => match a with | ⟨0, _⟩ => rfl | ⟨1, _⟩ => rfl | ⟨2, _⟩ => rfl

theorem bc_k_11k (x : S256.Idx → α) (u v : Fin 1) (k : Fin 256) :
    broadcastInDim S1x1x256 ![2] bcast_S256_S1x1x256_2 x (ix3 u v k) = x (ix1 k) :=
  broadcastInDim_apply _ _ x _ _ fun a => match a with | ⟨0, _⟩ => rfl

theorem bc_11k_bnk (x : S1x1x256.Idx → α) (bi : Fin 16) (n : Fin 2048) (k : Fin 256) :
    broadcastInDim S16x2048x256 ![0, 1, 2] bcast_S1x1x256_S16x2048x256_0_1_2 x (ix3 bi n k) = x (ix3 (0 : Fin 1) (0 : Fin 1) k) :=
  broadcastInDim_apply _ _ x _ _ fun a => match a with | ⟨0, _⟩ => rfl | ⟨1, _⟩ => rfl | ⟨2, _⟩ => rfl

theorem bc_k_1k (x : S256.Idx → α) (u : Fin 1) (k : Fin 256) :
    broadcastInDim S1x256 ![1] bcast_S256_S1x256_1 x (ix2 u k) = x (ix1 k) :=
  broadcastInDim_apply _ _ x _ _ fun a => match a with | ⟨0, _⟩ => rfl

theorem bc_1k_rk (x : S1x256.Idx → α) (r : Fin 32768) (k : Fin 256) :
    broadcastInDim S32768x256 ![0, 1] bcast_S1x256_S32768x256_0_1 x (ix2 r k) = x (ix2 (0 : Fin 1) k) :=
  broadcastInDim_apply _ _ x _ _ fun a => match a with | ⟨0, _⟩ => rfl | ⟨1, _⟩ => rfl

end Layout2

/-- The matrix dis(n) A(n, m) dis(m): rows scaled, then columns. -/
theorem main_v19_eq (V : Valuation τ sig (Elt Ideal)) :
    after (opsPlain (F := Ideal)) V (main_v19 : DevRef τ sig)
      = mulf (F := Ideal) (s := S16x2048x2048) (φ := .f32)
          (mulf (F := Ideal) (s := S16x2048x2048) (φ := .f32)
            (broadcastInDim S16x2048x2048 ![0, 1, 2] bcast_S16x2048x1_S16x2048x2048_0_1_2
              (broadcastInDim S16x2048x1 ![0, 1] bcast_S16x2048_S16x2048x1_0_1 (after (opsPlain (F := Ideal)) V (main_v13 : DevRef τ sig))))
            (after (opsPlain (F := Ideal)) V (main_v8 : DevRef τ sig)))
          (broadcastInDim S16x2048x2048 ![0, 1, 2] bcast_S16x1x2048_S16x2048x2048_0_1_2
            (broadcastInDim S16x1x2048 ![0, 2] bcast_S16x2048_S16x1x2048_0_2 (after (opsPlain (F := Ideal)) V (main_v13 : DevRef τ sig)))) := by
  after_results_simp

theorem v19_at (V : Valuation τ sig (Elt Ideal))
    (h1 : ∀ bi n m, V (main_arg1 : DevRef τ sig) (ix3 bi n m) = (adj bi n m : EReal)) (hadj : ∀ bi n m, 0 ≤ adj bi n m)
    (bi : Fin 16) (n m : Fin 2048) :
    after (opsPlain (F := Ideal)) V (main_v19 : DevRef τ sig) (ix3 bi n m)
      = (((Spec.dis adj bi n * (adj bi n m + if n = m then 1 else 0)) * Spec.dis adj bi m : ℝ) : EReal) := by
  refine (congrFun (main_v19_eq V) (ix3 bi n m)).trans ?_
  rw [mulf_apply, mulf_apply, bc_bn1_bnm, bc_bn_bn1, bc_b1m_bnm, bc_bm_b1m, v13_at adj V h1 hadj bi n, v13_at adj V h1 hadj bi m,
    v8_at adj V h1, EReal.coe_mul, EReal.coe_mul]
  try rfl

/-! ## The linear layer -/

variable (h : Fin 16 → Fin 2048 → Fin 256 → ℝ) (W : Fin 256 → Fin 256 → ℝ) (b : Fin 256 → ℝ)

/-- The product h W^T at an entry: the sum over the feature of the products. -/
theorem lin_dot_apply (X : FVec Ideal S16x2048x256 .f32) (Y : FVec Ideal S256x256 .f32) (bi : Fin 16) (n : Fin 2048) (k : Fin 256) :
    Host.dotGeneral dot_S16x2048x256_S256x256_S16x2048x256_2_1_01_0_n_n none X Y (ix3 bi n k)
      = ∑ d : Fin 256, X (ix3 bi n d) * Y (ix2 k d) := by
  show FloatOps.dotGeneral _ none _ X Y (ix3 bi n k) = _
  rw [Ideal.dotGeneral_apply,
    ← Equiv.sum_comp (contrEquiv1 dot_S16x2048x256_S256x256_S16x2048x256_2_1_01_0_n_n 256 rfl rfl).symm]
  refine Finset.sum_congr rfl fun c _ => ?_
  have c3 := contrEquiv1_symm_val dot_S16x2048x256_S256x256_S16x2048x256_2_1_01_0_n_n 256 rfl rfl c
  have l3 : dot_S16x2048x256_S256x256_S16x2048x256_2_1_01_0_n_n.lhsIdx (ix3 bi n k)
      ((contrEquiv1 _ 256 rfl rfl).symm c) = ix3 bi n c := by
    funext ax; apply Fin.ext
    match ax with
    | ⟨0, _⟩ => simp [DotDims.lhsIdx, dot_S16x2048x256_S256x256_S16x2048x256_2_1_01_0_n_n]; rfl
    | ⟨1, _⟩ => simp [DotDims.lhsIdx, dot_S16x2048x256_S256x256_S16x2048x256_2_1_01_0_n_n]; rfl
    | ⟨2, _⟩ => simp [DotDims.lhsIdx, dot_S16x2048x256_S256x256_S16x2048x256_2_1_01_0_n_n]; exact c3
  have r3 : dot_S16x2048x256_S256x256_S16x2048x256_2_1_01_0_n_n.rhsIdx (ix3 bi n k)
      ((contrEquiv1 _ 256 rfl rfl).symm c) = ix2 k c := by
    funext ax; apply Fin.ext
    match ax with
    | ⟨0, _⟩ => simp [DotDims.rhsIdx, dot_S16x2048x256_S256x256_S16x2048x256_2_1_01_0_n_n]; rfl
    | ⟨1, _⟩ => simp [DotDims.rhsIdx, dot_S16x2048x256_S256x256_S16x2048x256_2_1_01_0_n_n]; exact c3
  rw [l3, r3]

theorem main_v23_eq (V : Valuation τ sig (Elt Ideal)) :
    after (opsPlain (F := Ideal)) V (main_v23 : DevRef τ sig)
      = addf (F := Ideal) (s := S16x2048x256) (φ := .f32)
          (Host.dotGeneral (F := Ideal) (φ₁ := .f32) (φ₂ := .f32) dot_S16x2048x256_S256x256_S16x2048x256_2_1_01_0_n_n none
            (V (main_arg0 : DevRef τ sig)) (V (main_arg2 : DevRef τ sig)))
          (broadcastInDim S16x2048x256 ![0, 1, 2] bcast_S1x1x256_S16x2048x256_0_1_2
            (broadcastInDim S1x1x256 ![2] bcast_S256_S1x1x256_2 (V (main_arg3 : DevRef τ sig)))) := by
  after_results_simp

theorem v23_at (V : Valuation τ sig (Elt Ideal))
    (h0 : ∀ bi n d, V (main_arg0 : DevRef τ sig) (ix3 bi n d) = (h bi n d : EReal))
    (h2 : ∀ k d, V (main_arg2 : DevRef τ sig) (ix2 k d) = (W k d : EReal))
    (h3 : ∀ k, V (main_arg3 : DevRef τ sig) (ix1 k) = (b k : EReal))
    (bi : Fin 16) (n : Fin 2048) (k : Fin 256) :
    after (opsPlain (F := Ideal)) V (main_v23 : DevRef τ sig) (ix3 bi n k) = ((Spec.lin h W b bi n k : ℝ) : EReal) := by
  refine (congrFun (main_v23_eq V) (ix3 bi n k)).trans ?_
  rw [addf_apply, bc_11k_bnk, bc_k_11k, h3, lin_dot_apply]
  simp only [h0, h2]
  rw [Spec.lin, EReal.coe_add, Cert.Lib.InvSqrtDegree.coe_sum]
  simp only [EReal.coe_mul]
  try rfl

/-! ## The propagation -/

/-- The product of the normalised matrices with the features, graph by graph, at an entry. -/
theorem prop_dot_apply (X : FVec Ideal S16x2048x2048 .f32) (Y : FVec Ideal S16x2048x256 .f32) (bi : Fin 16) (n : Fin 2048) (k : Fin 256) :
    Host.dotGeneral dot_S16x2048x2048_S16x2048x256_S16x2048x256_2_1_1_2_0_0 none X Y (ix3 bi n k)
      = ∑ m : Fin 2048, X (ix3 bi n m) * Y (ix3 bi m k) :=
  StackMember.dotGeneral_stack_apply dot_S16x2048x2048_S16x2048x256_S16x2048x256_2_1_1_2_0_0_wf none X Y bi n k

theorem main_v24_eq (V : Valuation τ sig (Elt Ideal)) :
    after (opsPlain (F := Ideal)) V (main_v24 : DevRef τ sig)
      = Host.dotGeneral (F := Ideal) (φ₁ := .f32) (φ₂ := .f32) dot_S16x2048x2048_S16x2048x256_S16x2048x256_2_1_1_2_0_0 none
          (after (opsPlain (F := Ideal)) V (main_v19 : DevRef τ sig)) (after (opsPlain (F := Ideal)) V (main_v23 : DevRef τ sig)) := by
  after_results_simp

open Cert.StatsValue (rowOf graphOf nodeOf graphOf_rowOf nodeOf_rowOf)

/-- The flattened array at row r is the array at (graph of r, node of r). -/
theorem flatten_at (X : FVec Ideal S16x2048x256 .f32) (r : Fin 32768) (k : Fin 256) :
    shapeCast S32768x256 X shapeCasts_S16x2048x256_S32768x256 (ix2 r k) = X (ix3 (graphOf r) (nodeOf r) k) := by
  refine shapeCast_apply X _ (ix2 r k) (ix3 (graphOf r) (nodeOf r) k) ?_
  rw [Shape.rowMajor_val_three, Shape.rowMajor_val_two]
  show (r.val / 2048 * 2048 + r.val % 2048) * 256 + k.val = r.val * 256 + k.val
  omega

/-- The array of rows reshaped back at (bi, n) is the array of rows at row bi * 2048 + n. -/
theorem unflatten_at (Y : FVec Ideal S32768x256 .f32) (bi : Fin 16) (n : Fin 2048) (k : Fin 256) :
    shapeCast S16x2048x256 Y shapeCasts_S32768x256_S16x2048x256 (ix3 bi n k) = Y (ix2 (rowOf bi n) k) := by
  refine shapeCast_apply Y _ (ix3 bi n k) (ix2 (rowOf bi n) k) ?_
  rw [Shape.rowMajor_val_three, Shape.rowMajor_val_two]
  rfl

theorem main_v25_eq (V : Valuation τ sig (Elt Ideal)) :
    after (opsPlain (F := Ideal)) V (main_v25 : DevRef τ sig)
      = fun i => shapeCast (main_v25 : Ref sig .tc).ty.shape (after (opsPlain (F := Ideal)) V (main_v24 : DevRef τ sig)) shapeCasts_S16x2048x256_S32768x256 i := by
  after_results_simp

section Raw
variable (V : Valuation τ sig (Elt Ideal))
  (h0 : ∀ bi n d, V (main_arg0 : DevRef τ sig) (ix3 bi n d) = (h bi n d : EReal))
  (h1 : ∀ bi n m, V (main_arg1 : DevRef τ sig) (ix3 bi n m) = (adj bi n m : EReal)) (hadj : ∀ bi n m, 0 ≤ adj bi n m)
  (h2 : ∀ k d, V (main_arg2 : DevRef τ sig) (ix2 k d) = (W k d : EReal))
  (h3 : ∀ k, V (main_arg3 : DevRef τ sig) (ix1 k) = (b k : EReal))
include h0 h1 hadj h2 h3

theorem v24_at (bi : Fin 16) (n : Fin 2048) (k : Fin 256) :
    after (opsPlain (F := Ideal)) V (main_v24 : DevRef τ sig) (ix3 bi n k) = ((Spec.raw h adj W b bi n k : ℝ) : EReal) := by
  refine (congrFun (main_v24_eq V) (ix3 bi n k)).trans ?_
  rw [prop_dot_apply]
  simp only [v19_at adj V h1 hadj, v23_at h W b V h0 h2 h3]
  rw [Spec.raw, Cert.Lib.InvSqrtDegree.coe_sum]
  simp only [EReal.coe_mul]
  try rfl

/-- The flattened propagation at row r. -/
theorem v25_at (r : Fin 32768) (k : Fin 256) :
    after (opsPlain (F := Ideal)) V (main_v25 : DevRef τ sig) (ix2 r k) = ((Spec.raw h adj W b (graphOf r) (nodeOf r) k : ℝ) : EReal) := by
  refine (congrFun (main_v25_eq V) (ix2 r k)).trans ?_
  exact (flatten_at _ r k).trans (v24_at adj h W b V h0 h1 hadj h2 h3 (graphOf r) (nodeOf r) k)

end Raw

/-! ## The batch statistics -/

set_option maxHeartbeats 1000000 in
theorem main_v28_eq (V : Valuation τ sig (Elt Ideal)) :
    after (opsPlain (F := Ideal)) V (main_v28 : DevRef τ sig)
      = Host.divf (F := Ideal) (s := S256) (φ := .f32)
          (Host.reduceAdd (F := Ideal) (s := S32768x256) (φ := .f32) (after (opsPlain (F := Ideal)) V (main_v25 : DevRef τ sig)) (constant S_ .f32 0x00000000#32)
            reducesTo_S32768x256_S256_d0 h_S_)
          (broadcastInDim S256 ![] bcast_S_S256 (constant S_ .f32 0x47000000#32)) := by
  after_results_simp

set_option maxHeartbeats 2000000 in
/-- The variance function over the flattened propagation: the mean once more, the squared deviations, their sum over the
    count 32768 - 0, kept when that count is positive. -/
theorem main_v29_eq (V : Valuation τ sig (Elt Ideal)) :
    after (opsPlain (F := Ideal)) V (main_v29 : DevRef τ sig)
      = select (s := S256) (α := Ideal .f32)
          (broadcastInDim S256 ![] bcast_S_S256
            (cmpf (F := Ideal) (s := S_) (φ := .f32) .ogt
              (subf (F := Ideal) (s := S_) (φ := .f32) (constant S_ .f32 0x47000000#32) (sitofp .f32 (constantI S_ 32 0#32)))
              (constant S_ .f32 0x00000000#32)))
          (Host.divf (F := Ideal) (s := S256) (φ := .f32)
            (Host.reduceAdd (F := Ideal) (s := S32768x256) (φ := .f32)
              (mulf (F := Ideal) (s := S32768x256) (φ := .f32)
                (subf (F := Ideal) (s := S32768x256) (φ := .f32) (after (opsPlain (F := Ideal)) V (main_v25 : DevRef τ sig))
                (broadcastInDim S32768x256 ![0, 1] bcast_S1x256_S32768x256_0_1
                  (Host.divf (F := Ideal) (s := S1x256) (φ := .f32)
                    (broadcastInDim S1x256 ![1] bcast_S256_S1x256_1
                      (Host.reduceAdd (F := Ideal) (s := S32768x256) (φ := .f32) (after (opsPlain (F := Ideal)) V (main_v25 : DevRef τ sig)) (constant S_ .f32 0x00000000#32)
                        reducesTo_S32768x256_S256_d0 h_S_))
                    (broadcastInDim S1x256 ![] bcast_S_S1x256 (constant S_ .f32 0x47000000#32)))))
                (subf (F := Ideal) (s := S32768x256) (φ := .f32) (after (opsPlain (F := Ideal)) V (main_v25 : DevRef τ sig))
                (broadcastInDim S32768x256 ![0, 1] bcast_S1x256_S32768x256_0_1
                  (Host.divf (F := Ideal) (s := S1x256) (φ := .f32)
                    (broadcastInDim S1x256 ![1] bcast_S256_S1x256_1
                      (Host.reduceAdd (F := Ideal) (s := S32768x256) (φ := .f32) (after (opsPlain (F := Ideal)) V (main_v25 : DevRef τ sig)) (constant S_ .f32 0x00000000#32)
                        reducesTo_S32768x256_S256_d0 h_S_))
                    (broadcastInDim S1x256 ![] bcast_S_S1x256 (constant S_ .f32 0x47000000#32))))))
              (constant S_ .f32 0x00000000#32) reducesTo_S32768x256_S256_d0 h_S_)
            (broadcastInDim S256 ![] bcast_S_S256
              (subf (F := Ideal) (s := S_) (φ := .f32) (constant S_ .f32 0x47000000#32) (sitofp .f32 (constantI S_ 32 0#32)))))
          (broadcastInDim S256 ![] bcast_S_S256 (id (constant (F := Ideal) S_ .f32 0x7FC00000#32))) := by
  after_results_simp

section Stats
variable (V : Valuation τ sig (Elt Ideal))
  (h0 : ∀ bi n d, V (main_arg0 : DevRef τ sig) (ix3 bi n d) = (h bi n d : EReal))
  (h1 : ∀ bi n m, V (main_arg1 : DevRef τ sig) (ix3 bi n m) = (adj bi n m : EReal)) (hadj : ∀ bi n m, 0 ≤ adj bi n m)
  (h2 : ∀ k d, V (main_arg2 : DevRef τ sig) (ix2 k d) = (W k d : EReal))
  (h3 : ∀ k, V (main_arg3 : DevRef τ sig) (ix1 k) = (b k : EReal))
include h0 h1 hadj h2 h3

theorem v28_at (k : Fin 256) :
    after (opsPlain (F := Ideal)) V (main_v28 : DevRef τ sig) (ix1 k) = ((Spec.mean (Spec.raw h adj W b) k : ℝ) : EReal) := by
  refine (congrFun (main_v28_eq V) (ix1 k)).trans ?_
  refine (Cert.StatsValue.mean_apply _ (fun r k => Spec.raw h adj W b (graphOf r) (nodeOf r) k)
    (v25_at adj h W b V h0 h1 hadj h2 h3) _ _ _ k).trans ?_
  rw [Cert.StatsValue.meanR_flat]

theorem v29_at (k : Fin 256) :
    after (opsPlain (F := Ideal)) V (main_v29 : DevRef τ sig) (ix1 k) = ((Spec.var (Spec.raw h adj W b) k : ℝ) : EReal) := by
  refine (congrFun (main_v29_eq V) (ix1 k)).trans ?_
  refine (Cert.StatsValue.var_apply _ (fun r k => Spec.raw h adj W b (graphOf r) (nodeOf r) k)
    (v25_at adj h W b V h0 h1 hadj h2 h3) _ _ _ _ _ _ (constantI S_ 32 0#32) rfl _ k).trans ?_
  rw [Cert.StatsValue.varR_flat]

end Stats

/-! ## The normalisation, the clamp at zero and the residual -/

variable (bnw bnb : Fin 256 → ℝ) (resw eps : ℝ)

set_option maxHeartbeats 4000000 in
theorem main_v44_eq (V : Valuation τ sig (Elt Ideal)) :
    after (opsPlain (F := Ideal)) V (main_v44 : DevRef τ sig)
      = addf (F := Ideal) (s := S32768x256) (φ := .f32)
          (mulf (F := Ideal) (s := S32768x256) (φ := .f32)
            (mulf (F := Ideal) (s := S32768x256) (φ := .f32)
              (subf (F := Ideal) (s := S32768x256) (φ := .f32) (after (opsPlain (F := Ideal)) V (main_v25 : DevRef τ sig))
                (broadcastInDim S32768x256 ![0, 1] bcast_S1x256_S32768x256_0_1
                  (broadcastInDim S1x256 ![1] bcast_S256_S1x256_1 (after (opsPlain (F := Ideal)) V (main_v28 : DevRef τ sig)))))
              (broadcastInDim S32768x256 ![0, 1] bcast_S1x256_S32768x256_0_1
                (broadcastInDim S1x256 ![1] bcast_S256_S1x256_1
                  (Host.rsqrt (F := Ideal) (s := S256) (φ := .f32)
                    (addf (F := Ideal) (s := S256) (φ := .f32) (after (opsPlain (F := Ideal)) V (main_v29 : DevRef τ sig))
                      (broadcastInDim S256 ![] bcast_S_S256 (constant S_ .f32 0x3727C5AC#32)))))))
            (broadcastInDim S32768x256 ![0, 1] bcast_S1x256_S32768x256_0_1
              (broadcastInDim S1x256 ![1] bcast_S256_S1x256_1 (V (main_arg4 : DevRef τ sig)))))
          (broadcastInDim S32768x256 ![0, 1] bcast_S1x256_S32768x256_0_1
            (broadcastInDim S1x256 ![1] bcast_S256_S1x256_1 (V (main_arg5 : DevRef τ sig)))) := by
  after_results_simp

set_option maxHeartbeats 4000000 in
/-- The normalised rows as a stack of graphs again. -/
theorem main_v45_eq (V : Valuation τ sig (Elt Ideal)) :
    after (opsPlain (F := Ideal)) V (main_v45 : DevRef τ sig)
      = fun i => shapeCast (main_v45 : Ref sig .tc).ty.shape (after (opsPlain (F := Ideal)) V (main_v44 : DevRef τ sig)) shapeCasts_S32768x256_S16x2048x256 i := by
  after_results_simp

set_option maxHeartbeats 4000000 in
theorem main_v49_eq (V : Valuation τ sig (Elt Ideal)) :
    after (opsPlain (F := Ideal)) V (main_v49 : DevRef τ sig)
      = addf (F := Ideal) (s := S16x2048x256) (φ := .f32)
          (maximumf (F := Ideal) (s := S16x2048x256) (φ := .f32)
            (after (opsPlain (F := Ideal)) V (main_v45 : DevRef τ sig))
            (broadcastInDim S16x2048x256 ![] bcast_S_S16x2048x256 (constant S_ .f32 0x00000000#32)))
          (mulf (F := Ideal) (s := S16x2048x256) (φ := .f32)
            (broadcastInDim S16x2048x256 ![] bcast_S_S16x2048x256 (V (main_arg6 : DevRef τ sig)))
            (V (main_arg0 : DevRef τ sig))) := by
  after_results_simp

/-- The coercion of a maximum of reals is the maximum of the coercions. -/
theorem coe_max (x y : ℝ) : ((max x y : ℝ) : EReal) = max (x : EReal) (y : EReal) :=
  EReal.coe_strictMono.monotone.map_max

section Out
variable (V : Valuation τ sig (Elt Ideal))
  (h0 : ∀ bi n d, V (main_arg0 : DevRef τ sig) (ix3 bi n d) = (h bi n d : EReal))
  (h1 : ∀ bi n m, V (main_arg1 : DevRef τ sig) (ix3 bi n m) = (adj bi n m : EReal)) (hadj : ∀ bi n m, 0 ≤ adj bi n m)
  (h2 : ∀ k d, V (main_arg2 : DevRef τ sig) (ix2 k d) = (W k d : EReal))
  (h3 : ∀ k, V (main_arg3 : DevRef τ sig) (ix1 k) = (b k : EReal))
  (h4 : ∀ k, V (main_arg4 : DevRef τ sig) (ix1 k) = (bnw k : EReal))
  (h5 : ∀ k, V (main_arg5 : DevRef τ sig) (ix1 k) = (bnb k : EReal))
  (h6 : V (main_arg6 : DevRef τ sig) ix0 = (resw : EReal))
  (heps : Ideal.ofBits .f32 0x3727C5AC#32 = (eps : EReal)) (heps0 : 0 < eps)
include h0 h1 hadj h2 h3 h4 h5 heps heps0

/-- The normalised row r: (raw - mean) (var + eps)^(-1/2) bnw + bnb, the factor a positive real since var + eps > 0. -/
theorem v44_at (r : Fin 32768) (k : Fin 256) :
    after (opsPlain (F := Ideal)) V (main_v44 : DevRef τ sig) (ix2 r k)
      = ((((Spec.raw h adj W b (graphOf r) (nodeOf r) k - Spec.mean (Spec.raw h adj W b) k)
            * (Real.sqrt (Spec.var (Spec.raw h adj W b) k + eps))⁻¹) * bnw k + bnb k : ℝ) : EReal) := by
  refine (congrFun (main_v44_eq V) (ix2 r k)).trans ?_
  rw [addf_apply, mulf_apply, mulf_apply, subf_apply, bc_1k_rk, bc_1k_rk, bc_1k_rk, bc_1k_rk, bc_k_1k, bc_k_1k, bc_k_1k, bc_k_1k,
    hostRsqrt_apply, addf_apply, broadcastInDim_scalar_apply, constant_apply, heps,
    v25_at adj h W b V h0 h1 hadj h2 h3, v28_at adj h W b V h0 h1 hadj h2 h3, v29_at adj h W b V h0 h1 hadj h2 h3, h4, h5,
    ← EReal.coe_add, Cert.Lib.InvSqrtDegree.rsqrt_pos (Spec.var_add_pos _ k heps0),
    EReal.coe_add, EReal.coe_mul, EReal.coe_mul, EReal.coe_sub]
  try rfl

/-- The normalised array at (bi, n). -/
theorem v45_at (bi : Fin 16) (n : Fin 2048) (k : Fin 256) :
    after (opsPlain (F := Ideal)) V (main_v45 : DevRef τ sig) (ix3 bi n k)
      = ((((Spec.raw h adj W b bi n k - Spec.mean (Spec.raw h adj W b) k)
            * (Real.sqrt (Spec.var (Spec.raw h adj W b) k + eps))⁻¹) * bnw k + bnb k : ℝ) : EReal) := by
  refine (congrFun (main_v45_eq V) (ix3 bi n k)).trans ?_
  refine (unflatten_at _ bi n k).trans ?_
  rw [v44_at adj h W b bnw bnb eps V h0 h1 hadj h2 h3 h4 h5 heps heps0, graphOf_rowOf, nodeOf_rowOf]

include h6 in
/-- The reference's result at an entry is the layer's output there. -/
theorem v49_at (bi : Fin 16) (n : Fin 2048) (k : Fin 256) :
    after (opsPlain (F := Ideal)) V (main_v49 : DevRef τ sig) (ix3 bi n k) = ((Spec.out h adj W b bnw bnb resw eps bi n k : ℝ) : EReal) := by
  refine (congrFun (main_v49_eq V) (ix3 bi n k)).trans ?_
  rw [Spec.out, EReal.coe_add, EReal.coe_mul, coe_max, EReal.coe_zero, addf_apply, maximumf_apply, mulf_apply,
    broadcastInDim_scalar_apply, broadcastInDim_scalar_apply, constant_apply, Ideal.ofBits_zero_f32,
    v45_at adj h W b bnw bnb eps V h0 h1 hadj h2 h3 h4 h5 heps heps0, h6, h0]
  try rfl

include h6 in
/-- The reference's result, over its own list of operations. -/
theorem result_eq (bi : Fin 16) (n : Fin 2048) (k : Fin 256) :
    after (ops (F := Ideal)) V (main_v49 : DevRef τ sig) (ix3 bi n k)
      = ((Spec.out h adj W b bnw bnb resw eps bi n k : ℝ) : EReal) := by
  rw [ops_eq]
  exact v49_at adj h W b bnw bnb resw eps V h0 h1 hadj h2 h3 h4 h5 h6 heps heps0 bi n k

end Out

end Cert.ReferenceIdeal.RefValue

end
-- ==== Proof.KiNormalizeValue.lean ====
import proofs.«110154_j39565238731446_1_alg».proof.Proof.KiNormalize
import proofs.«110154_j39565238731446_1_alg».proof.Proof.Spec
import proofs.«110154_j39565238731446_1_alg».proof.Proof.LibInvSqrtDegree
import Idealize.ShloMosaic.Lib.Pipeline.Value
import Idealize.ShloMosaic.Lib.ValueIdx
import Idealize.ShloMosaic.PureOps.Ideal.Laws

/-! # What the normalisation layer writes, as a whole array, on the extended reals

Every grid point writes the block of the output array that its block of the aggregated features sits at, and the
sixty-four blocks tile the array; so the array ends holding, at every index (bi, n, k),
`max((x - mean k) * rsqrt(var k + eps) * scale k + shift k, 0) + resw * h` of the entry arrays there. When those arrays
are real numbers and `var k + eps` is positive this is the real number
`max(((x - mean k) * (sqrt (var k + eps))⁻¹) * scale k + shift k, 0) + resw * h`. -/

set_option maxRecDepth 16384

noncomputable section

namespace Cert.KernelIdeal.NormalizeValue

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

/-! ## The stored value at an index of the block -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- A per-channel vector viewed as one row and repeated down the 512 rows reads, at (row, k), its entry k. -/
theorem rowVec_apply (v : FVec Ideal S256 .f32) (j : S512x256.Idx) :
    broadcastTo S512x256 (shapeCast S1x256 v shapeCasts_S256_S1x256) broadcasts_S1x256_S512x256 j
      = v (ix1 (⟨(j 1).val, (j 1).isLt⟩ : Fin 256)) := by
  rw [broadcastTo_apply _ _ j (ix2 (0 : Fin 1) (⟨(j 1).val, (j 1).isLt⟩ : Fin 256)) (fun a => by
    match a with
    | ⟨0, _⟩ => rfl
    | ⟨1, _⟩ => rfl)]
  rw [shapeCast_addUnit_apply]
  congr 1
  funext a
  match a with
  | ⟨0, _⟩ => rfl

/-- The value stored at index `j` of the block, from the loaded blocks and vectors. -/
theorem k3_pay1_apply (v0 : Vec Ideal S1x512x256 .f32) (v2 v4 v6 v7 : Vec Ideal S256 .f32) (v25 : Vec Ideal S1x1 .f32)
    (v27 : Vec Ideal S1x512x256 .f32) (j : S1x512x256.Idx) :
    k3_pay1 v0 v2 v4 v6 v7 v25 v27 j
      = max (((v0 j - v2 (ix1 (⟨(j 2).val, (j 2).isLt⟩ : Fin 256)))
              * Ideal.rsqrt (v4 (ix1 (⟨(j 2).val, (j 2).isLt⟩ : Fin 256)) + Ideal.ofBits .f32 0x3727C5AC#32))
            * v6 (ix1 (⟨(j 2).val, (j 2).isLt⟩ : Fin 256)) + v7 (ix1 (⟨(j 2).val, (j 2).isLt⟩ : Fin 256)))
          (Ideal.ofBits .f32 0x00000000#32) + v25 (ix2 (0 : Fin 1) (0 : Fin 1)) * v27 j := by
  have hj0 : (j 0).val < 1 := (j 0).isLt
  have hj1 : (j 1).val < 512 := (j 1).isLt
  have hj2 : (j 2).val < 256 := (j 2).isLt
  -- the (row, channel) index under the block index: the leading axis has one entry
  obtain ⟨r, hr0, hr1⟩ : ∃ r : S512x256.Idx, (r 0).val = (j 1).val ∧ (r 1).val = (j 2).val :=
    ⟨ix2 (⟨(j 1).val, hj1⟩ : Fin 512) (⟨(j 2).val, hj2⟩ : Fin 256), rfl, rfl⟩
  have hup : (S512x256.rowMajor r).val = (S1x512x256.rowMajor j).val := by
    rw [Shape.rowMajor_val_two, Shape.rowMajor_val_three]
    show (r 0).val * 256 + (r 1).val = ((j 0).val * 512 + (j 1).val) * 256 + (j 2).val
    omega
  have hc : ix1 (⟨(r 1).val, (r 1).isLt⟩ : Fin 256) = ix1 (⟨(j 2).val, (j 2).isLt⟩ : Fin 256) := by
    funext a
    match a with
    | ⟨0, _⟩ => exact Fin.ext hr1
  have hx : extractAt ![0, 0] v25 inpos_S1x1_p0_0 = v25 (ix2 (0 : Fin 1) (0 : Fin 1)) := by
    unfold extractAt
    congr 1
    funext a
    match a with
    | ⟨0, _⟩ => rfl
    | ⟨1, _⟩ => rfl
  unfold k3_pay1
  rw [shapeCast_apply _ _ j r hup]
  show max (((shapeCast S512x256 v0 shapeCasts_S1x512x256_S512x256 r
          - broadcastTo S512x256 (shapeCast S1x256 (shapeCast S256 v2 shapeCasts_S256_S256) shapeCasts_S256_S1x256) broadcasts_S1x256_S512x256 r)
        * broadcastTo S512x256 (shapeCast S1x256 (rsqrt (addf (shapeCast S256 v4 shapeCasts_S256_S256) (broadcast S256 (Ideal.ofBits .f32 0x3727C5AC#32)))) shapeCasts_S256_S1x256) broadcasts_S1x256_S512x256 r)
        * broadcastTo S512x256 (shapeCast S1x256 v6 shapeCasts_S256_S1x256) broadcasts_S1x256_S512x256 r
        + broadcastTo S512x256 (shapeCast S1x256 v7 shapeCasts_S256_S1x256) broadcasts_S1x256_S512x256 r)
      (Ideal.ofBits .f32 0x00000000#32)
      + extractAt ![0, 0] v25 inpos_S1x1_p0_0 * shapeCast S512x256 v27 shapeCasts_S1x512x256_S512x256 r = _
  rw [shapeCast_self, shapeCast_self, rowVec_apply, rowVec_apply, rowVec_apply, rowVec_apply,
    shapeCast_apply v0 _ r j hup.symm, shapeCast_apply v27 _ r j hup.symm, hc, hx]
  rfl

/-! ## The blocks of the eight windows at a grid point -/

/-- At every grid point the two feature blocks sit where the output block sits, the per-channel vectors and the
    residual weight are read whole, and the output block's indices are (graph, row tile, 0) with 16 graphs and 4 row
    tiles: decided over the 64 points. -/
theorem idx_facts3 : ∀ t : Fin cfg3.N,
    win3_0.index t (0 : Fin 3) = win3_7.index t (0 : Fin 3) ∧ win3_0.index t (1 : Fin 3) = win3_7.index t (1 : Fin 3)
    ∧ win3_0.index t (2 : Fin 3) = win3_7.index t (2 : Fin 3)
    ∧ win3_1.index t (0 : Fin 3) = win3_7.index t (0 : Fin 3) ∧ win3_1.index t (1 : Fin 3) = win3_7.index t (1 : Fin 3)
    ∧ win3_1.index t (2 : Fin 3) = win3_7.index t (2 : Fin 3)
    ∧ win3_2.index t (0 : Fin 1) = 0 ∧ win3_3.index t (0 : Fin 1) = 0 ∧ win3_4.index t (0 : Fin 1) = 0 ∧ win3_5.index t (0 : Fin 1) = 0
    ∧ win3_6.index t (0 : Fin 2) = 0 ∧ win3_6.index t (1 : Fin 2) = 0
    ∧ win3_7.index t (0 : Fin 3) ≤ 15 ∧ win3_7.index t (1 : Fin 3) ≤ 3 ∧ win3_7.index t (2 : Fin 3) = 0 :=
  (by decide +kernel : ∀ t : Fin grid3.N, _)

/-- Every (graph, row tile) is some grid point's output block. -/
theorem idx_onto3 : ∀ (q0 : Fin 16) (q1 : Fin 4), ∃ t : Fin cfg3.N, win3_7.index t = ![q0.val, q1.val, 0] :=
  (by decide +kernel : ∀ (q0 : Fin 16) (q1 : Fin 4), ∃ t : Fin grid3.N, win3_7.index t = ![q0.val, q1.val, 0])

/-! ## The array the layer leaves -/

/-- The layer's result as one function of the seven entry arrays, index by index: the aggregated features `X` centred
    by the channel mean, scaled by the reciprocal square root of the channel variance plus the constant, by the channel
    scale, shifted, rectified, plus the residual weight times the layer input `H`. -/
def normArr (X H : Vec Ideal S16x2048x256 .f32) (M Vr Bw Bb : Vec Ideal S256 .f32) (Rw : Vec Ideal S1x1 .f32) :
    Vec Ideal S16x2048x256 .f32 :=
  fun i => max (((X i - M (ix1 (⟨(i 2).val, (i 2).isLt⟩ : Fin 256)))
              * Ideal.rsqrt (Vr (ix1 (⟨(i 2).val, (i 2).isLt⟩ : Fin 256)) + Ideal.ofBits .f32 0x3727C5AC#32))
            * Bw (ix1 (⟨(i 2).val, (i 2).isLt⟩ : Fin 256)) + Bb (ix1 (⟨(i 2).val, (i 2).isLt⟩ : Fin 256)))
          (Ideal.ofBits .f32 0x00000000#32) + Rw (ix2 (0 : Fin 1) (0 : Fin 1)) * H i

/-- At grid point `t`, the stored value at block index `j`, read off arrays through the input windows' blocks, is
    `normArr` of those arrays at the index of the output array that `j` sits at. -/
theorem blk_eq (X H : Vec Ideal S16x2048x256 .f32) (M Vr Bw Bb : Vec Ideal S256 .f32) (Rw : Vec Ideal S1x1 .f32)
    (t : Fin cfg3.N) (j : S1x512x256.Idx) :
    max (((X (((cfg3.win 0).blk t).view.emb j)
            - M (((cfg3.win 2).blk t).view.emb (ix1 (⟨(j 2).val, (j 2).isLt⟩ : Fin 256))))
          * Ideal.rsqrt (Vr (((cfg3.win 3).blk t).view.emb (ix1 (⟨(j 2).val, (j 2).isLt⟩ : Fin 256))) + Ideal.ofBits .f32 0x3727C5AC#32))
          * Bw (((cfg3.win 4).blk t).view.emb (ix1 (⟨(j 2).val, (j 2).isLt⟩ : Fin 256)))
          + Bb (((cfg3.win 5).blk t).view.emb (ix1 (⟨(j 2).val, (j 2).isLt⟩ : Fin 256))))
        (Ideal.ofBits .f32 0x00000000#32)
      + Rw (((cfg3.win 6).blk t).view.emb (ix2 (0 : Fin 1) (0 : Fin 1))) * H (((cfg3.win 1).blk t).view.emb j)
      = normArr X H M Vr Bw Bb Rw (((cfg3.win 7).blk t).view.emb j) := by
  obtain ⟨e00, e01, e02, e10, e11, e12, e2, e3, e4, e5, e60, e61, b0, b1, e72⟩ := idx_facts3 t
  have hj0 : (j 0).val < 1 := (j 0).isLt
  have hj1 : (j 1).val < 512 := (j 1).isLt
  have hj2 : (j 2).val < 256 := (j 2).isLt
  have h0 : ((cfg3.win 0).blk t).view.emb j = ((cfg3.win 7).blk t).view.emb j := by
    funext a; apply Fin.ext
    match a with
    | ⟨0, _⟩ => show win3_0.index t (0 : Fin 3) * 1 + 1 * (j 0).val = win3_7.index t (0 : Fin 3) * 1 + 1 * (j 0).val; omega
    | ⟨1, _⟩ => show win3_0.index t (1 : Fin 3) * 512 + 1 * (j 1).val = win3_7.index t (1 : Fin 3) * 512 + 1 * (j 1).val; omega
    | ⟨2, _⟩ => show win3_0.index t (2 : Fin 3) * 256 + 1 * (j 2).val = win3_7.index t (2 : Fin 3) * 256 + 1 * (j 2).val; omega
  have h1 : ((cfg3.win 1).blk t).view.emb j = ((cfg3.win 7).blk t).view.emb j := by
    funext a; apply Fin.ext
    match a with
    | ⟨0, _⟩ => show win3_1.index t (0 : Fin 3) * 1 + 1 * (j 0).val = win3_7.index t (0 : Fin 3) * 1 + 1 * (j 0).val; omega
    | ⟨1, _⟩ => show win3_1.index t (1 : Fin 3) * 512 + 1 * (j 1).val = win3_7.index t (1 : Fin 3) * 512 + 1 * (j 1).val; omega
    | ⟨2, _⟩ => show win3_1.index t (2 : Fin 3) * 256 + 1 * (j 2).val = win3_7.index t (2 : Fin 3) * 256 + 1 * (j 2).val; omega
  have hk : ((((cfg3.win 7).blk t).view.emb j) 2).val = (j 2).val := by
    show win3_7.index t (2 : Fin 3) * 256 + 1 * (j 2).val = (j 2).val; omega
  have h2 : ((cfg3.win 2).blk t).view.emb (ix1 (⟨(j 2).val, (j 2).isLt⟩ : Fin 256))
      = ix1 (⟨((((cfg3.win 7).blk t).view.emb j) 2).val, ((((cfg3.win 7).blk t).view.emb j) 2).isLt⟩ : Fin 256) := by
    funext a; apply Fin.ext
    match a with
    | ⟨0, _⟩ => show win3_2.index t (0 : Fin 1) * 256 + 1 * (j 2).val = ((((cfg3.win 7).blk t).view.emb j) 2).val; rw [hk]; omega
  have h3 : ((cfg3.win 3).blk t).view.emb (ix1 (⟨(j 2).val, (j 2).isLt⟩ : Fin 256))
      = ix1 (⟨((((cfg3.win 7).blk t).view.emb j) 2).val, ((((cfg3.win 7).blk t).view.emb j) 2).isLt⟩ : Fin 256) := by
    funext a; apply Fin.ext
    match a with
    | ⟨0, _⟩ => show win3_3.index t (0 : Fin 1) * 256 + 1 * (j 2).val = ((((cfg3.win 7).blk t).view.emb j) 2).val; rw [hk]; omega
  have h4 : ((cfg3.win 4).blk t).view.emb (ix1 (⟨(j 2).val, (j 2).isLt⟩ : Fin 256))
      = ix1 (⟨((((cfg3.win 7).blk t).view.emb j) 2).val, ((((cfg3.win 7).blk t).view.emb j) 2).isLt⟩ : Fin 256) := by
    funext a; apply Fin.ext
    match a with
    | ⟨0, _⟩ => show win3_4.index t (0 : Fin 1) * 256 + 1 * (j 2).val = ((((cfg3.win 7).blk t).view.emb j) 2).val; rw [hk]; omega
  have h5 : ((cfg3.win 5).blk t).view.emb (ix1 (⟨(j 2).val, (j 2).isLt⟩ : Fin 256))
      = ix1 (⟨((((cfg3.win 7).blk t).view.emb j) 2).val, ((((cfg3.win 7).blk t).view.emb j) 2).isLt⟩ : Fin 256) := by
    funext a; apply Fin.ext
    match a with
    | ⟨0, _⟩ => show win3_5.index t (0 : Fin 1) * 256 + 1 * (j 2).val = ((((cfg3.win 7).blk t).view.emb j) 2).val; rw [hk]; omega
  have h6 : ((cfg3.win 6).blk t).view.emb (ix2 (0 : Fin 1) (0 : Fin 1)) = ix2 (0 : Fin 1) (0 : Fin 1) := by
    funext a; apply Fin.ext
    match a with
    | ⟨0, _⟩ => show win3_6.index t (0 : Fin 2) * 1 + 1 * 0 = 0; omega
    | ⟨1, _⟩ => show win3_6.index t (1 : Fin 2) * 1 + 1 * 0 = 0; omega
  unfold normArr
  rw [h0, h1, h2, h3, h4, h5, h6]

variable (V : (c : Dev nD) → (b : Ref sig .tc) → Buf (Elt Ideal) ((c : Thread nD τ).loc b))

/-- What grid point `t` writes back is block `t` of `normArr` of the entry arrays. -/
theorem flushed7_eq (c : Dev nD) (t : Fin cfg3.N) :
    (dat3 V c).flushed 7 t = ((cfg3.win 7).blk t).view.read (Elt Ideal)
      (normArr (V c main_v3) (V c main_arg0) (V c main_v7) (V c main_v8) (V c main_arg4) (V c main_arg5) (V c main_v9)) := by
  show (cfg3.win 7).cut (grid3.coords t) ((dat3 V c).after 7 t) = _
  rw [after3_7]
  unfold out3_7
  rw [View.canon_unit_zero zeros3]
  simp only [View.ld_unit_zero (S := S1x512x256) zeros3, View.ld_unit_zero (S := S256) zeros1, View.ld_unit_zero (S := S1x1) zeros2]
  funext j
  show k3_pay1 (iblk3 V c 0 t) (iblk3 V c 2 t) (iblk3 V c 3 t) (iblk3 V c 4 t) (iblk3 V c 5 t) (iblk3 V c 6 t) (iblk3 V c 1 t) j
    = normArr (V c main_v3) (V c main_arg0) (V c main_v7) (V c main_v8) (V c main_arg4) (V c main_arg5) (V c main_v9)
        (((cfg3.win 7).blk t).view.emb j)
  rw [k3_pay1_apply]
  exact blk_eq (V c main_v3) (V c main_arg0) (V c main_v7) (V c main_v8) (V c main_arg4) (V c main_arg5) (V c main_v9) t j

/-- An index of the output array is in point `t`'s block iff each coordinate is in the block's range on its axis. -/
theorem mem_blk7 (t : Fin cfg3.N) (i : S16x2048x256.Idx) :
    i ∈ ((cfg3.win 7).blk t).view.set ↔ ∀ a : Fin 3, win3_7.index t a * S1x512x256.size a ≤ (i a).val
      ∧ (i a).val < win3_7.index t a * S1x512x256.size a + S1x512x256.size a := by
  show i ∈ ((View.whole main_v10).slice (win3_7.rect t)).set ↔ _
  rw [View.set_slice_whole, Rect.mem_set_unit]
  exact Iff.rfl

/-- The sixty-four output blocks cover the output array. -/
theorem covered7 (i : S16x2048x256.Idx) : ∃ t : Fin cfg3.N, (cfg3.win 7).flush t = true ∧ i ∈ ((cfg3.win 7).blk t).view.set := by
  have hi0 : (i 0).val < 16 := (i 0).isLt
  have hi1 : (i 1).val < 2048 := (i 1).isLt
  have hi2 : (i 2).val < 256 := (i 2).isLt
  obtain ⟨t, ht⟩ := idx_onto3 ⟨(i 0).val, hi0⟩ ⟨(i 1).val / 512, by omega⟩
  have q0 : win3_7.index t (0 : Fin 3) = (i 0).val := congrFun ht 0
  have q1 : win3_7.index t (1 : Fin 3) = (i 1).val / 512 := congrFun ht 1
  have q2 : win3_7.index t (2 : Fin 3) = 0 := congrFun ht 2
  refine ⟨t, flush3_7 t, ?_⟩
  rw [mem_blk7]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 512 ≤ (i 1).val ∧ (i 1).val < win3_7.index t (1 : Fin 3) * 512 + 512; omega
  | ⟨2, _⟩ => show win3_7.index t (2 : Fin 3) * 256 ≤ (i 2).val ∧ (i 2).val < win3_7.index t (2 : Fin 3) * 256 + 256; omega

/-- The output array after the layer is `normArr` of the entry arrays. -/
theorem final7 (c : Dev nD) : (dat3 V c).arrAt 7 cfg3.N
    = normArr (V c main_v3) (V c main_arg0) (V c main_v7) (V c main_v8) (V c main_arg4) (V c main_arg5) (V c main_v9) :=
  (dat3 V c).arrAt_eq_of_cover 7 _ (fun t _ => flushed7_eq V c t) covered7

/-! ## On real arrays -/

/-- The coercion of reals to the extended reals preserves the larger of two. -/
theorem coe_max (a b : ℝ) : ((max a b : ℝ) : EReal) = max (a : EReal) (b : EReal) := EReal.coe_strictMono.monotone.map_max

/-- One entry of the result on real numbers, the variance plus the constant positive. -/
theorem norm_real (x h mean var bnw bnb resw eps : ℝ) (hpos : 0 < var + eps) :
    max ((((x : EReal) - (mean : EReal)) * Ideal.rsqrt ((var : EReal) + (eps : EReal))) * (bnw : EReal) + (bnb : EReal)) (0 : EReal)
        + (resw : EReal) * (h : EReal)
      = ((max (((x - mean) * (Real.sqrt (var + eps))⁻¹) * bnw + bnb) 0 + resw * h : ℝ) : EReal) := by
  rw [← EReal.coe_add var eps, Cert.Lib.InvSqrtDegree.rsqrt_pos hpos, ← EReal.coe_sub, ← EReal.coe_mul, ← EReal.coe_mul, ← EReal.coe_add,
    ← EReal.coe_zero, ← coe_max, ← EReal.coe_mul, ← EReal.coe_add]

/-- `normArr` of real arrays: `x` the aggregated features, `h` the layer input, `mean`, `var`, `bnw`, `bnb` the channel
    vectors, `resw` the residual weight; the constant's word denotes the real `eps` and every `var k + eps` is positive. -/
theorem normArr_real (X H : Vec Ideal S16x2048x256 .f32) (M Vr Bw Bb : Vec Ideal S256 .f32) (Rw : Vec Ideal S1x1 .f32)
    (x h : Fin 16 → Fin 2048 → Fin 256 → ℝ) (mean var bnw bnb : Fin 256 → ℝ) (resw eps : ℝ)
    (hx : ∀ bi n k, X (ix3 bi n k) = ((x bi n k : ℝ) : EReal)) (hh : ∀ bi n k, H (ix3 bi n k) = ((h bi n k : ℝ) : EReal))
    (hmean : ∀ k, M (ix1 k) = ((mean k : ℝ) : EReal)) (hvar : ∀ k, Vr (ix1 k) = ((var k : ℝ) : EReal))
    (hbnw : ∀ k, Bw (ix1 k) = ((bnw k : ℝ) : EReal)) (hbnb : ∀ k, Bb (ix1 k) = ((bnb k : ℝ) : EReal))
    (hresw : Rw (ix2 (0 : Fin 1) (0 : Fin 1)) = ((resw : ℝ) : EReal))
    (heps : Ideal.ofBits .f32 0x3727C5AC#32 = ((eps : ℝ) : EReal)) (hpos : ∀ k, 0 < var k + eps)
    (bi : Fin 16) (n : Fin 2048) (k : Fin 256) :
    normArr X H M Vr Bw Bb Rw (ix3 bi n k)
      = ((max (((x bi n k - mean k) * (Real.sqrt (var k + eps))⁻¹) * bnw k + bnb k) 0 + resw * h bi n k : ℝ) : EReal) := by
  show max (((X (ix3 bi n k) - M (ix1 k)) * Ideal.rsqrt (Vr (ix1 k) + Ideal.ofBits .f32 0x3727C5AC#32)) * Bw (ix1 k) + Bb (ix1 k))
        (Ideal.ofBits .f32 0x00000000#32) + Rw (ix2 (0 : Fin 1) (0 : Fin 1)) * H (ix3 bi n k) = _
  rw [hx, hh, hmean, hvar, hbnw, hbnb, hresw, heps, Ideal.ofBits_zero_f32]
  exact norm_real _ _ _ _ _ _ _ _ (hpos k)

/-- THE VALUE: when the entry arrays are real arrays, the output array ends holding, at (bi, n, k), the real number
    `max(((x - mean k) * (sqrt (var k + eps))⁻¹) * bnw k + bnb k, 0) + resw * h`. -/
theorem value (c : Dev nD) (x h : Fin 16 → Fin 2048 → Fin 256 → ℝ) (mean var bnw bnb : Fin 256 → ℝ) (resw eps : ℝ)
    (hx : ∀ bi n k, (V c main_v3 : Vec Ideal S16x2048x256 .f32) (ix3 bi n k) = ((x bi n k : ℝ) : EReal))
    (hh : ∀ bi n k, (V c main_arg0 : Vec Ideal S16x2048x256 .f32) (ix3 bi n k) = ((h bi n k : ℝ) : EReal))
    (hmean : ∀ k, (V c main_v7 : Vec Ideal S256 .f32) (ix1 k) = ((mean k : ℝ) : EReal))
    (hvar : ∀ k, (V c main_v8 : Vec Ideal S256 .f32) (ix1 k) = ((var k : ℝ) : EReal))
    (hbnw : ∀ k, (V c main_arg4 : Vec Ideal S256 .f32) (ix1 k) = ((bnw k : ℝ) : EReal))
    (hbnb : ∀ k, (V c main_arg5 : Vec Ideal S256 .f32) (ix1 k) = ((bnb k : ℝ) : EReal))
    (hresw : (V c main_v9 : Vec Ideal S1x1 .f32) (ix2 (0 : Fin 1) (0 : Fin 1)) = ((resw : ℝ) : EReal))
    (heps : Ideal.ofBits .f32 0x3727C5AC#32 = ((eps : ℝ) : EReal)) (hpos : ∀ k, 0 < var k + eps)
    (bi : Fin 16) (n : Fin 2048) (k : Fin 256) :
    ((dat3 V c).arrAt 7 cfg3.N : Vec Ideal S16x2048x256 .f32) (ix3 bi n k)
      = ((max (((x bi n k - mean k) * (Real.sqrt (var k + eps))⁻¹) * bnw k + bnb k) 0 + resw * h bi n k : ℝ) : EReal) := by
  rw [final7]
  exact normArr_real (V c main_v3) (V c main_arg0) (V c main_v7) (V c main_v8) (V c main_arg4) (V c main_arg5) (V c main_v9)
    x h mean var bnw bnb resw eps hx hh hmean hvar hbnw hbnb hresw heps hpos bi n k

end Cert.KernelIdeal.NormalizeValue

end
-- ==== Proof.Eps.lean ====
import Mathlib
import Idealize.ShloMosaic.PureOps.Ideal

/-! # The batch-normalisation constant

The constant added to a variance before the reciprocal square root is given as a single-precision word; the word
0x3727C5AC has sign 0, exponent field 110 and fraction field 2606508, so it denotes the positive real
(2^23 + 2606508) * 2^(110 - 127 - 23) = 10995116 * 2^(-40), about 1e-5. -/

noncomputable section

namespace Cert.Spec

open Idealize.ShloMosaic

/-- The real number the single-precision word 0x3727C5AC denotes. -/
def epsR : ℝ := 10995116 * (2 : ℝ) ^ (-40 : ℤ)

/-- It is positive. -/
theorem epsR_pos : 0 < epsR := by unfold epsR; positivity

/-- The word read on the extended reals is that real number. -/
theorem ofBits_eps : Ideal.ofBits .f32 0x3727C5AC#32 = ((epsR : ℝ) : EReal) := by
  have hs : ((0x3727C5AC#32 : BitVec 32).extractLsb' (8 + 23) 1 == 1#1) = false := by decide
  have he : ((0x3727C5AC#32 : BitVec 32).extractLsb' 23 8).toNat = 110 := by decide
  have hf : ((0x3727C5AC#32 : BitVec 32).extractLsb' 0 23).toNat = 2606508 := by decide
  show Ideal.ieee 8 23 (0x3727C5AC#32 : BitVec 32) = _
  unfold Ideal.ieee
  simp only [hs, he, hf]
  norm_num [epsR]

end Cert.Spec

end
-- ==== Proof.KiValue.lean ====
import proofs.«110154_j39565238731446_1_alg».proof.Proof.KiRun
import proofs.«110154_j39565238731446_1_alg».proof.Proof.KiNormalizeValue
import proofs.«110154_j39565238731446_1_alg».proof.Proof.Spec
import proofs.«110154_j39565238731446_1_alg».proof.Proof.Eps
import Idealize.ShloMosaic.Lib.Pipeline.Value
import Idealize.ShloMosaic.Lib.ValueIdx
import proofs.«110154_j39565238731446_1_alg».proof.Proof.StatsValue
import Idealize.ShloMosaic.Lib.StableHlo.Run

/-! # The layer's output array on the extended reals

The buffer contents after the last segment, read at the output array, as a function of the seven argument arrays: each
region's entry contents are arguments or earlier regions' outputs, carried unchanged through the segments in between;
the degrees' transpose, the batch statistics and the residual weight's reshape are the host operations' results. -/

set_option maxRecDepth 16384

noncomputable section

namespace Cert.KernelIdeal.Value

open Cert.KernelIdeal Cert.KernelIdeal.Gen Cert.KernelIdeal.Run Cert.KernelIdeal.NormalizeValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What each segment leaves unchanged

A host stretch keeps every buffer it does not write; a region keeps every buffer that is not its output array (an input
array is left as entered, any other buffer is not touched). -/

theorem W2_main_arg0_eq_W0 (c : Dev nD) : W2 m ρ c (Proc.devRef .tc main_arg0) = W0 m ρ c (Proc.devRef .tc main_arg0) :=
  calc W2 m ρ c (Proc.devRef .tc main_arg0)
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)

theorem W2_main_arg2_eq_W0 (c : Dev nD) : W2 m ρ c (Proc.devRef .tc main_arg2) = W0 m ρ c (Proc.devRef .tc main_arg2) :=
  calc W2 m ρ c (Proc.devRef .tc main_arg2)
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)

theorem W2_main_arg3_eq_W0 (c : Dev nD) : W2 m ρ c (Proc.devRef .tc main_arg3) = W0 m ρ c (Proc.devRef .tc main_arg3) :=
  calc W2 m ρ c (Proc.devRef .tc main_arg3)
    _ = W1 m ρ c (Proc.devRef .tc main_arg3) := StableHlo.after_of_writes_sub hostOps1 _ hostOps1_writes (r := main_arg3) (by decide)
    _ = W0 m ρ c (Proc.devRef .tc main_arg3) := W1_of_ne m ρ c main_arg3 (by decide)

theorem W3_main_arg1_eq_W0 (c : Dev nD) : W3 m ρ c (Proc.devRef .tc main_arg1) = W0 m ρ c (Proc.devRef .tc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (En0 m ρ) c).arrAt_in 0 rfl _).trans (A_eq0 (En0 m ρ) c 0))

theorem W3_main_v0_eq_W1 (c : Dev nD) : W3 m ρ c (Proc.devRef .tc main_v0) = W1 m ρ c (Proc.devRef .tc main_v0) :=
  calc W3 m ρ c (Proc.devRef .tc main_v0)
    _ = W2 m ρ c (Proc.devRef .tc main_v0) := W3_of_ne m ρ c main_v0 (by decide)
    _ = W1 m ρ c (Proc.devRef .tc main_v0) := StableHlo.after_of_writes_sub hostOps1 _ hostOps1_writes (r := main_v0) (by decide)

theorem W3_main_v1_eq_W2 (c : Dev nD) : W3 m ρ c (Proc.devRef .tc main_v1) = W2 m ρ c (Proc.devRef .tc main_v1) :=
  calc W3 m ρ c (Proc.devRef .tc main_v1)
    _ = W2 m ρ c (Proc.devRef .tc main_v1) := W3_of_ne m ρ c main_v1 (by decide)

theorem W7_main_v3_eq_W4 (c : Dev nD) : W7 m ρ c (Proc.devRef .tc main_v3) = W4 m ρ c (Proc.devRef .tc main_v3) :=
  calc W7 m ρ c (Proc.devRef .tc main_v3)
    _ = W6 m ρ c (Proc.devRef .tc main_v3) := StableHlo.after_of_writes_sub hostOps3_2 _ hostOps3_2_writes (r := main_v3) (by decide)
    _ = W5 m ρ c (Proc.devRef .tc main_v3) := StableHlo.after_of_writes_sub hostOps3_1 _ hostOps3_1_writes (r := main_v3) (by decide)
    _ = W4 m ρ c (Proc.devRef .tc main_v3) := StableHlo.after_of_writes_sub hostOps3 _ hostOps3_writes (r := main_v3) (by decide)

theorem W7_main_arg0_eq_W0 (c : Dev nD) : W7 m ρ c (Proc.devRef .tc main_arg0) = W0 m ρ c (Proc.devRef .tc main_arg0) :=
  calc W7 m ρ c (Proc.devRef .tc main_arg0)
    _ = W6 m ρ c (Proc.devRef .tc main_arg0) := StableHlo.after_of_writes_sub hostOps3_2 _ hostOps3_2_writes (r := main_arg0) (by decide)
    _ = W5 m ρ c (Proc.devRef .tc main_arg0) := StableHlo.after_of_writes_sub hostOps3_1 _ hostOps3_1_writes (r := main_arg0) (by decide)
    _ = W4 m ρ c (Proc.devRef .tc main_arg0) := StableHlo.after_of_writes_sub hostOps3 _ hostOps3_writes (r := main_arg0) (by decide)
    _ = W3 m ρ c (Proc.devRef .tc main_arg0) := W4_of_ne m ρ c main_arg0 (by decide)
    _ = W2 m ρ c (Proc.devRef .tc main_arg0) := (W3_arr m ρ c 0).trans (((dat1 (En1 m ρ) c).arrAt_in 0 rfl _).trans (A_eq1 (En1 m ρ) c 0))
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)

theorem W7_main_arg4_eq_W0 (c : Dev nD) : W7 m ρ c (Proc.devRef .tc main_arg4) = W0 m ρ c (Proc.devRef .tc main_arg4) :=
  calc W7 m ρ c (Proc.devRef .tc main_arg4)
    _ = W6 m ρ c (Proc.devRef .tc main_arg4) := StableHlo.after_of_writes_sub hostOps3_2 _ hostOps3_2_writes (r := main_arg4) (by decide)
    _ = W5 m ρ c (Proc.devRef .tc main_arg4) := StableHlo.after_of_writes_sub hostOps3_1 _ hostOps3_1_writes (r := main_arg4) (by decide)
    _ = W4 m ρ c (Proc.devRef .tc main_arg4) := StableHlo.after_of_writes_sub hostOps3 _ hostOps3_writes (r := main_arg4) (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := StableHlo.after_of_writes_sub hostOps1 _ hostOps1_writes (r := main_arg4) (by decide)
    _ = W0 m ρ c (Proc.devRef .tc main_arg4) := W1_of_ne m ρ c main_arg4 (by decide)

theorem W7_main_arg5_eq_W0 (c : Dev nD) : W7 m ρ c (Proc.devRef .tc main_arg5) = W0 m ρ c (Proc.devRef .tc main_arg5) :=
  calc W7 m ρ c (Proc.devRef .tc main_arg5)
    _ = W6 m ρ c (Proc.devRef .tc main_arg5) := StableHlo.after_of_writes_sub hostOps3_2 _ hostOps3_2_writes (r := main_arg5) (by decide)
    _ = W5 m ρ c (Proc.devRef .tc main_arg5) := StableHlo.after_of_writes_sub hostOps3_1 _ hostOps3_1_writes (r := main_arg5) (by decide)
    _ = W4 m ρ c (Proc.devRef .tc main_arg5) := StableHlo.after_of_writes_sub hostOps3 _ hostOps3_writes (r := main_arg5) (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := StableHlo.after_of_writes_sub hostOps1 _ hostOps1_writes (r := main_arg5) (by decide)
    _ = W0 m ρ c (Proc.devRef .tc main_arg5) := W1_of_ne m ρ c main_arg5 (by decide)

theorem W7_main_v7_eq_W5 (c : Dev nD) : W7 m ρ c (Proc.devRef .tc main_v7) = W5 m ρ c (Proc.devRef .tc main_v7) :=
  calc W7 m ρ c (Proc.devRef .tc main_v7)
    _ = W6 m ρ c (Proc.devRef .tc main_v7) := StableHlo.after_of_writes_sub hostOps3_2 _ hostOps3_2_writes (r := main_v7) (by decide)
    _ = W5 m ρ c (Proc.devRef .tc main_v7) := StableHlo.after_of_writes_sub hostOps3_1 _ hostOps3_1_writes (r := main_v7) (by decide)

theorem W7_main_v8_eq_W6 (c : Dev nD) : W7 m ρ c (Proc.devRef .tc main_v8) = W6 m ρ c (Proc.devRef .tc main_v8) :=
  calc W7 m ρ c (Proc.devRef .tc main_v8)
    _ = W6 m ρ c (Proc.devRef .tc main_v8) := StableHlo.after_of_writes_sub hostOps3_2 _ hostOps3_2_writes (r := main_v8) (by decide)

theorem W4_main_arg6_eq_W0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := StableHlo.after_of_writes_sub hostOps1 _ hostOps1_writes (r := main_arg6) (by decide)
    _ = W0 m ρ c (Proc.devRef .tc main_arg6) := W1_of_ne m ρ c main_arg6 (by decide)

/-! ## What the host stretches and the regions write -/

/-- After the last region the output array holds the normalisation of the region's entry arrays. -/
theorem W8_out (c : Dev nD) : W8 m ρ c (Proc.devRef .tc main_v10)
    = normArr (W7 m ρ c (Proc.devRef .tc main_v3)) (W7 m ρ c (Proc.devRef .tc main_arg0)) (W7 m ρ c (Proc.devRef .tc main_v7))
        (W7 m ρ c (Proc.devRef .tc main_v8)) (W7 m ρ c (Proc.devRef .tc main_arg4)) (W7 m ρ c (Proc.devRef .tc main_arg5))
        (W7 m ρ c (Proc.devRef .tc main_v9)) :=
  (W8_arr m ρ c 7).trans (final7 (En3 m ρ) c)

/-- The transposed degrees: entry (bi, 0, n) of the transpose is entry (bi, n, 0) of the degrees' array. -/
theorem W2_main_v1_apply (c : Dev nD) (bi : Fin 16) (n : Fin 2048) :
    (W2 m ρ c (Proc.devRef .tc main_v1) : Vec Ideal S16x1x2048 .f32) (ix3 bi (0 : Fin 1) n)
      = (W1 m ρ c (Proc.devRef .tc main_v0) : Vec Ideal S16x2048x1 .f32) (ix3 bi n (0 : Fin 1)) := by
  have h : W2 m ρ c (Proc.devRef .tc main_v1)
      = transpose S16x1x2048 [0, 2, 1] (W1 m ρ c (Proc.devRef .tc main_v0) : Vec Ideal S16x2048x1 .f32) transposes_S16x2048x1_S16x1x2048_0_2_1 := by
    show StableHlo.after hostOps1 (W1 m ρ c) (Proc.devRef .tc main_v1) = _
    simp only [hostOps1]
    after_results_simp
  rw [h]
  exact transpose_apply _ _ _ (ix3 bi (0 : Fin 1) n) (ix3 bi n (0 : Fin 1)) (fun b => by
    match b with
    | ⟨0, _⟩ => rfl
    | ⟨1, _⟩ => rfl
    | ⟨2, _⟩ => rfl)

/-- The residual weight viewed as a 1x1 array: its one entry is the scalar. -/
theorem W7_main_v9_apply (c : Dev nD) :
    (W7 m ρ c (Proc.devRef .tc main_v9) : Vec Ideal S1x1 .f32) (ix2 (0 : Fin 1) (0 : Fin 1))
      = (W4 m ρ c (Proc.devRef .tc main_arg6) : Vec Ideal S_ .f32) ix0 := by
  have h : W7 m ρ c (Proc.devRef .tc main_v9)
      = shapeCast S1x1 (W4 m ρ c (Proc.devRef .tc main_arg6) : Vec Ideal S_ .f32) shapeCasts_S_S1x1 := by
    show StableHlo.after hostOps3_2 (W6 m ρ c) (Proc.devRef .tc main_v9) = _
    simp only [hostOps3_2]
    after_results_simp
    rfl
  rw [h]
  unfold shapeCast
  exact congrArg _ (funext fun a => a.elim0)

/-! ## The batch statistics -/

/-- The aggregated features flattened to 32768 rows. -/
abbrev flatRaw (c : Dev nD) : FVec Ideal S32768x256 .f32 :=
  shapeCast S32768x256 (W4 m ρ c (Proc.devRef .tc main_v3) : Vec Ideal S16x2048x256 .f32) shapeCasts_S16x2048x256_S32768x256

/-- Row r of the flattened array is node (r mod 2048) of graph (r / 2048). -/
theorem flatRaw_apply (c : Dev nD) (X : Fin 16 → Fin 2048 → Fin 256 → ℝ)
    (hX : ∀ bi n k, (W4 m ρ c (Proc.devRef .tc main_v3) : Vec Ideal S16x2048x256 .f32) (ix3 bi n k) = ((X bi n k : ℝ) : EReal))
    (r : Fin 32768) (k : Fin 256) :
    flatRaw m ρ c (ix2 r k) = ((X (Cert.StatsValue.graphOf r) (Cert.StatsValue.nodeOf r) k : ℝ) : EReal) := by
  rw [← hX]
  refine shapeCast_apply _ _ (ix2 r k) (ix3 (Cert.StatsValue.graphOf r) (Cert.StatsValue.nodeOf r) k) ?_
  rw [Shape.rowMajor_val_three, Shape.rowMajor_val_two]
  show (r.val / 2048 * 2048 + r.val % 2048) * 256 + k.val = r.val * 256 + k.val
  omega

/-- The batch mean as the host operations compute it from the aggregated features. -/
theorem W5_main_v7 (c : Dev nD) : W5 m ρ c (Proc.devRef .tc main_v7)
    = Host.divf (Host.reduceAdd (flatRaw m ρ c) (constant S_ .f32 0x00000000#32) reducesTo_S32768x256_S256_d0 h_S_)
        (broadcastInDim S256 ![] bcast_S_S256 (constant S_ .f32 0x47000000#32)) := by
  show StableHlo.after hostOps3 (W4 m ρ c) (Proc.devRef .tc main_v7) = _
  simp only [hostOps3]
  after_results_simp
  rfl

/-- The batch variance as the host operations compute it from the aggregated features. -/
theorem W6_main_v8 (c : Dev nD) : W6 m ρ c (Proc.devRef .tc main_v8)
    = select (broadcastInDim S256 ![] bcast_S_S256 (cmpf .ogt (subf (constant (F := Ideal) S_ .f32 0x47000000#32) (sitofp (F := Ideal) .f32 (constantI S_ 32 0#32))) (constant S_ .f32 0x00000000#32)))
        (Host.divf (Host.reduceAdd
            (mulf (subf (flatRaw m ρ c) (broadcastInDim S32768x256 ![0, 1] bcast_S1x256_S32768x256_0_1 (Host.divf (broadcastInDim S1x256 ![1] bcast_S256_S1x256_1 (Host.reduceAdd (flatRaw m ρ c) (constant S_ .f32 0x00000000#32) reducesTo_S32768x256_S256_d0 h_S_)) (broadcastInDim S1x256 ![] bcast_S_S1x256 (constant S_ .f32 0x47000000#32)))))
                  (subf (flatRaw m ρ c) (broadcastInDim S32768x256 ![0, 1] bcast_S1x256_S32768x256_0_1 (Host.divf (broadcastInDim S1x256 ![1] bcast_S256_S1x256_1 (Host.reduceAdd (flatRaw m ρ c) (constant S_ .f32 0x00000000#32) reducesTo_S32768x256_S256_d0 h_S_)) (broadcastInDim S1x256 ![] bcast_S_S1x256 (constant S_ .f32 0x47000000#32))))))
            (constant S_ .f32 0x00000000#32) reducesTo_S32768x256_S256_d0 h_S_)
          (broadcastInDim S256 ![] bcast_S_S256 (subf (constant (F := Ideal) S_ .f32 0x47000000#32) (sitofp (F := Ideal) .f32 (constantI S_ 32 0#32)))))
        (broadcastInDim S256 ![] bcast_S_S256 (id (constant S_ .f32 0x7FC00000#32))) := by
  show StableHlo.after hostOps3_1 (StableHlo.after hostOps3 (W4 m ρ c)) (Proc.devRef .tc main_v8) = _
  simp only [hostOps3_1, hostOps3]
  after_results_simp
  rfl

/-- Read at a channel: the mean of the real array the aggregated features are. -/
theorem W7_main_v7_apply (c : Dev nD) (X : Fin 16 → Fin 2048 → Fin 256 → ℝ)
    (hX : ∀ bi n k, (W4 m ρ c (Proc.devRef .tc main_v3) : Vec Ideal S16x2048x256 .f32) (ix3 bi n k) = ((X bi n k : ℝ) : EReal))
    (k : Fin 256) :
    (W7 m ρ c (Proc.devRef .tc main_v7) : Vec Ideal S256 .f32) (ix1 k) = ((Cert.Spec.mean X k : ℝ) : EReal) := by
  rw [W7_main_v7_eq_W5, W5_main_v7, ← Cert.StatsValue.meanR_flat]
  exact Cert.StatsValue.mean_apply _ (fun r k => X (Cert.StatsValue.graphOf r) (Cert.StatsValue.nodeOf r) k)
    (flatRaw_apply m ρ c X hX) _ _ _ k

/-- Read at a channel: the biased variance of that real array. -/
theorem W7_main_v8_apply (c : Dev nD) (X : Fin 16 → Fin 2048 → Fin 256 → ℝ)
    (hX : ∀ bi n k, (W4 m ρ c (Proc.devRef .tc main_v3) : Vec Ideal S16x2048x256 .f32) (ix3 bi n k) = ((X bi n k : ℝ) : EReal))
    (k : Fin 256) :
    (W7 m ρ c (Proc.devRef .tc main_v8) : Vec Ideal S256 .f32) (ix1 k) = ((Cert.Spec.var X k : ℝ) : EReal) := by
  rw [W7_main_v8_eq_W6, W6_main_v8, ← Cert.StatsValue.varR_flat]
  exact Cert.StatsValue.var_apply _ (fun r k => X (Cert.StatsValue.graphOf r) (Cert.StatsValue.nodeOf r) k)
    (flatRaw_apply m ρ c X hX) _ _ _ _ _ _ (constantI S_ 32 0#32) rfl _ k

/-! ## The composition -/

/-- The output array after the run, entry by entry, as the layer's function of the seven argument arrays — GIVEN what the
    first three regions write on real arrays: the degrees' region the reciprocal square roots of the degrees (`hdeg`),
    the linear region the linear layer (`hlin`), the product region the normalised propagation of whatever scales and
    features it is entered with (`hprod`). -/
theorem kernel_value_of (c : Dev nD) (h : Fin 16 → Fin 2048 → Fin 256 → ℝ) (adj : Fin 16 → Fin 2048 → Fin 2048 → ℝ)
    (W : Fin 256 → Fin 256 → ℝ) (b bnw bnb : Fin 256 → ℝ) (resw : ℝ)
    (hm0 : ∀ bi n k, (m ((c : Thread nD τ).loc main_arg0) : Vec Ideal S16x2048x256 .f32) (ix3 bi n k) = ((h bi n k : ℝ) : EReal))
    (hm4 : ∀ k, (m ((c : Thread nD τ).loc main_arg4) : Vec Ideal S256 .f32) (ix1 k) = ((bnw k : ℝ) : EReal))
    (hm5 : ∀ k, (m ((c : Thread nD τ).loc main_arg5) : Vec Ideal S256 .f32) (ix1 k) = ((bnb k : ℝ) : EReal))
    (hm6 : (m ((c : Thread nD τ).loc main_arg6) : Vec Ideal S_ .f32) ix0 = ((resw : ℝ) : EReal))
    (hm1 : ∀ bi n m', (m ((c : Thread nD τ).loc main_arg1) : Vec Ideal S16x2048x2048 .f32) (ix3 bi n m') = ((adj bi n m' : ℝ) : EReal))
    (hdeg : ∀ bi n, ((dat0 (En0 m ρ) c).arrAt 1 cfg0.N : Vec Ideal S16x2048x1 .f32) (ix3 bi n (0 : Fin 1))
      = ((Cert.Spec.dis adj bi n : ℝ) : EReal))
    (hlin : ∀ bi n k, ((dat1 (En1 m ρ) c).arrAt 3 cfg1.N : Vec Ideal S16x2048x256 .bf16) (ix3 bi n k)
      = ((Cert.Spec.lin h W b bi n k : ℝ) : EReal))
    (hprod : ∀ (dis : Fin 16 → Fin 2048 → ℝ) (lin : Fin 16 → Fin 2048 → Fin 256 → ℝ),
      (∀ bi n m', (En2 m ρ c main_arg1 : Vec Ideal S16x2048x2048 .f32) (ix3 bi n m') = ((adj bi n m' : ℝ) : EReal)) →
      (∀ bi n, (En2 m ρ c main_v0 : Vec Ideal S16x2048x1 .f32) (ix3 bi n (0 : Fin 1)) = ((dis bi n : ℝ) : EReal)) →
      (∀ bi n, (En2 m ρ c main_v1 : Vec Ideal S16x1x2048 .f32) (ix3 bi (0 : Fin 1) n) = ((dis bi n : ℝ) : EReal)) →
      (∀ bi n k, (En2 m ρ c main_v2 : Vec Ideal S16x2048x256 .bf16) (ix3 bi n k) = ((lin bi n k : ℝ) : EReal)) →
      ∀ bi n k, ((dat2 (En2 m ρ) c).arrAt 4 cfg2.N : Vec Ideal S16x2048x256 .f32) (ix3 bi n k)
        = ((∑ m', (dis bi n * (adj bi n m' + if n = m' then 1 else 0)) * dis bi m' * lin bi m' k : ℝ) : EReal)) :
    ∀ bi n k, (W8 m ρ c (Proc.devRef .tc main_v10) : Vec Ideal S16x2048x256 .f32) (ix3 bi n k)
      = ((Cert.Spec.out h adj W b bnw bnb resw Cert.Spec.epsR bi n k : ℝ) : EReal) := by
  -- the degrees as the first region leaves them
  have hdis : ∀ bi n, (W1 m ρ c (Proc.devRef .tc main_v0) : Vec Ideal S16x2048x1 .f32) (ix3 bi n (0 : Fin 1))
      = ((Cert.Spec.dis adj bi n : ℝ) : EReal) := fun bi n =>
    (congrFun (W1_arr m ρ c 1) (ix3 bi n (0 : Fin 1))).trans (hdeg bi n)
  -- the aggregated features as the third region leaves them
  have hraw : ∀ bi n k, (W4 m ρ c (Proc.devRef .tc main_v3) : Vec Ideal S16x2048x256 .f32) (ix3 bi n k)
      = ((Cert.Spec.raw h adj W b bi n k : ℝ) : EReal) := fun bi n k =>
    (congrFun (W4_arr m ρ c 4) (ix3 bi n k)).trans
      (hprod (Cert.Spec.dis adj) (Cert.Spec.lin h W b)
        (fun bi n m' => (congrFun (W3_main_arg1_eq_W0 m ρ c) (ix3 bi n m')).trans (hm1 bi n m'))
        (fun bi n => (congrFun (W3_main_v0_eq_W1 m ρ c) (ix3 bi n (0 : Fin 1))).trans (hdis bi n))
        (fun bi n => (congrFun (W3_main_v1_eq_W2 m ρ c) (ix3 bi (0 : Fin 1) n)).trans ((W2_main_v1_apply m ρ c bi n).trans (hdis bi n)))
        (fun bi n k => (congrFun (W3_arr m ρ c 3) (ix3 bi n k)).trans (hlin bi n k))
        bi n k)
  intro bi n k
  rw [W8_out]
  exact normArr_real _ _ _ _ _ _ _ (Cert.Spec.raw h adj W b) h (Cert.Spec.mean (Cert.Spec.raw h adj W b)) (Cert.Spec.var (Cert.Spec.raw h adj W b))
    bnw bnb resw Cert.Spec.epsR
    (fun bi n k => (congrFun (W7_main_v3_eq_W4 m ρ c) (ix3 bi n k)).trans (hraw bi n k))
    (fun bi n k => (congrFun (W7_main_arg0_eq_W0 m ρ c) (ix3 bi n k)).trans (hm0 bi n k))
    (fun k => W7_main_v7_apply m ρ c _ hraw k)
    (fun k => W7_main_v8_apply m ρ c _ hraw k)
    (fun k => (congrFun (W7_main_arg4_eq_W0 m ρ c) (ix1 k)).trans (hm4 k))
    (fun k => (congrFun (W7_main_arg5_eq_W0 m ρ c) (ix1 k)).trans (hm5 k))
    ((W7_main_v9_apply m ρ c).trans ((congrFun (W4_main_arg6_eq_W0 m ρ c) ix0).trans hm6))
    Cert.Spec.ofBits_eps (fun k => Cert.Spec.var_add_pos _ k Cert.Spec.epsR_pos) bi n k

/-! ## The run, read at the output array -/

/-- Every weakly fair execution terminates; in every final state each core's output array is `v0 c`, for any `v0`
    that the last contents of the fold agree with entry by entry, and the seven argument arrays are as launched. -/
theorem kernel_run (v0 : (c : Dev nD) → Buf (Elt Ideal) ((c.tc : Thread nD τ).loc main_v10))
    (hv : ∀ c, ∀ bi n k, (W8 m ρ c (Proc.devRef .tc main_v10) : Vec Ideal S16x2048x256 .f32) (ix3 bi n k)
      = (v0 c : Vec Ideal S16x2048x256 .f32) (ix3 bi n k)) :
    θ_run defs (onTc (τ := τ) (main (F := Ideal))) ⟨m, fun _ => 0, ρ⟩ (fun r => ∀ c : Dev nD,
      r.2.mem ((c.tc : Thread nD τ).loc main_v10) = v0 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v10 (by decide))).trans
        (show (W8 m ρ c (Proc.devRef .tc main_v10) : Vec Ideal S16x2048x256 .f32) = (v0 c : Vec Ideal S16x2048x256 .f32) from
          funext fun i => by
            have e := eq_ix3 i
            rw [e]
            exact hv c (i 0) (i 1) (i 2)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩) (run m ρ)

end Cert.KernelIdeal.Value

end
-- ==== Proof.KiDegValue.lean ====
import proofs.«110154_j39565238731446_1_alg».proof.Proof.KiDeg
import Idealize.ShloMosaic.Lib.Pipeline.Value

/-! # What the degree region writes, as one array

The degree region's output array after its 128 points, as one function of the adjacency array the region is entered
with. Point `t` = 8 g + q of the grid writes back rows 256 q … 256 q + 255 of graph g; what it writes is the body's
payload of the same rows of the adjacency array. The 128 output blocks cover the output array, so the array ends at
`disOf` of the adjacency array: at (g, n, 0), the payload of the row block holding row n of graph g, read at n's place
in the block. -/

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Three zero offsets, however spelt. -/
theorem zero3 : (![0, 0, 0] : Fin 3 → Nat) = fun _ => 0 := funext fun a => by fin_cases a <;> rfl

/-! ## What a point writes back -/

/-- What point `t` writes back to the output array: the body's payload of the adjacency block at `t`. -/
theorem flushed0_1 (c : Dev nD) (t : Fin cfg0.N) : (dat0 V c).flushed 1 t = k0_pay1 (iblk0 V c 0 t) := by
  show (cfg0.win 1).cut (grid0.coords t) ((dat0 V c).after 1 t) = _
  rw [after0_1]
  unfold out0_1
  rw [View.canon_unit_zero zero3, View.ld_unit_zero (S := S1x256x2048) zero3]
  rfl

/-! ## The grid's geometry -/

/-- The two windows move together: at point `t` = 8 g + q both are at block (g, q, 0). -/
theorem index_facts0 : ∀ t : Fin cfg0.N,
    win0_0.index t (0 : Fin 3) = win0_1.index t (0 : Fin 3) ∧ win0_0.index t (1 : Fin 3) = win0_1.index t (1 : Fin 3)
    ∧ win0_0.index t (2 : Fin 3) = 0 ∧ win0_1.index t (2 : Fin 3) = 0
    ∧ win0_1.index t (0 : Fin 3) * 8 + win0_1.index t (1 : Fin 3) = t.val
    ∧ win0_1.index t (0 : Fin 3) < 16 ∧ win0_1.index t (1 : Fin 3) < 8 :=
  (by decide +kernel : ∀ t : Fin grid0.N, _)

/-- The point whose output block holds node `i 1` of graph `i 0`. -/
def pointOf0 (i : S16x2048x1.Idx) : Fin cfg0.N :=
  ⟨(i 0).val * 8 + (i 1).val / 256, by
    have h0 : (i 0).val < 16 := (i 0).isLt
    have h1 : (i 1).val < 2048 := (i 1).isLt
    show _ < grid0.N
    rw [N_0]; omega⟩

/-- Its place within that block. -/
def placeOf0 (i : S16x2048x1.Idx) : S1x256x1.Idx := fun a => match a with
  | ⟨0, _⟩ => ⟨0, Nat.one_pos⟩
  | ⟨1, _⟩ => ⟨(i 1).val % 256, Nat.mod_lt _ (by decide)⟩
  | ⟨2, _⟩ => ⟨0, Nat.one_pos⟩

/-- An index of the output array is in point `t`'s block iff each coordinate is in the block's range on its axis. -/
theorem mem_blk0_1 (t : Fin cfg0.N) (i : S16x2048x1.Idx) :
    i ∈ ((cfg0.win 1).blk t).view.set ↔ ∀ a : Fin 3, win0_1.index t a * S1x256x1.size a ≤ (i a).val ∧ (i a).val < win0_1.index t a * S1x256x1.size a + S1x256x1.size a := by
  show i ∈ ((View.whole main_v0).slice (win0_1.rect t)).set ↔ _
  rw [View.set_slice_whole, Rect.mem_set_unit]
  exact Iff.rfl

/-- Every index of the output array is in the block of its point. -/
theorem covered0_1 (i : S16x2048x1.Idx) :
    ∃ t : Fin cfg0.N, (cfg0.win 1).flush t = true ∧ i ∈ ((cfg0.win 1).blk t).view.set := by
  refine ⟨pointOf0 i, flush0_1 _, ?_⟩
  rw [mem_blk0_1]
  have h0 : (i 0).val < 16 := (i 0).isLt
  have h1 : (i 1).val < 2048 := (i 1).isLt
  have h2 : (i 2).val < 1 := (i 2).isLt
  obtain ⟨-, -, -, e3, e4, e5, e6⟩ := index_facts0 (pointOf0 i)
  have e4' : win0_1.index (pointOf0 i) (0 : Fin 3) * 8 + win0_1.index (pointOf0 i) (1 : Fin 3) = (i 0).val * 8 + (i 1).val / 256 := e4
  intro a
  match a with
  | ⟨0, _⟩ => show win0_1.index (pointOf0 i) (0 : Fin 3) * 1 ≤ (i 0).val ∧ (i 0).val < win0_1.index (pointOf0 i) (0 : Fin 3) * 1 + 1; omega
  | ⟨1, _⟩ => show win0_1.index (pointOf0 i) (1 : Fin 3) * 256 ≤ (i 1).val ∧ (i 1).val < win0_1.index (pointOf0 i) (1 : Fin 3) * 256 + 256; omega
  | ⟨2, _⟩ => show win0_1.index (pointOf0 i) (2 : Fin 3) * 1 ≤ (i 2).val ∧ (i 2).val < win0_1.index (pointOf0 i) (2 : Fin 3) * 1 + 1; omega

/-! ## The array the region leaves -/

/-- The scales as one function of the adjacency array: at node n of graph g, the body's payload of the block of 256
    rows of graph g that holds row n, read at n's place in the block. -/
def disOf (adj : Vec F S16x2048x2048 .f32) : Vec F S16x2048x1 .f32 := fun i =>
  k0_pay1 (((cfg0.win 0).blk (pointOf0 i)).view.read (Elt F) adj) (placeOf0 i)

/-- An element of point `t`'s output block has `t` as its point and its block coordinates as its place. -/
theorem point_place_emb0 (t : Fin cfg0.N) (y : ((cfg0.win 1).xblock (cfg0.grid.coords t)).Idx) :
    pointOf0 (((cfg0.win 1).blk t).view.emb y) = t ∧ placeOf0 (((cfg0.win 1).blk t).view.emb y) = y := by
  have y0 : (y 0).val < 1 := (y 0).isLt
  have y1 : (y 1).val < 256 := (y 1).isLt
  have y2 : (y 2).val < 1 := (y 2).isLt
  obtain ⟨-, -, -, e3, e4, e5, e6⟩ := index_facts0 t
  have c0 : ((((cfg0.win 1).blk t).view.emb y) 0).val = win0_1.index t (0 : Fin 3) * 1 + 1 * (y 0).val := rfl
  have c1 : ((((cfg0.win 1).blk t).view.emb y) 1).val = win0_1.index t (1 : Fin 3) * 256 + 1 * (y 1).val := rfl
  constructor
  · apply Fin.ext
    show ((((cfg0.win 1).blk t).view.emb y) 0).val * 8 + ((((cfg0.win 1).blk t).view.emb y) 1).val / 256 = t.val
    rw [c0, c1]; omega
  · funext a
    apply Fin.ext
    match a with
    | ⟨0, _⟩ => show 0 = (y 0).val; omega
    | ⟨1, _⟩ => show ((((cfg0.win 1).blk t).view.emb y) 1).val % 256 = (y 1).val; rw [c1]; omega
    | ⟨2, _⟩ => show 0 = (y 2).val; omega

/-- What point `t` writes back is block `t` of `disOf` of the adjacency array as the region finds it. -/
theorem flushed0_1_eq (c : Dev nD) (t : Fin cfg0.N) :
    (dat0 V c).flushed 1 t = ((cfg0.win 1).blk t).view.read (Elt F) (disOf (V c main_arg1)) := by
  rw [flushed0_1]
  funext y
  rw [View.read_apply]
  obtain ⟨hp, hl⟩ := point_place_emb0 t y
  show k0_pay1 (iblk0 V c 0 t) y = disOf (V c main_arg1) (((cfg0.win 1).blk t).view.emb y)
  unfold disOf
  have key : ∀ (p : Fin cfg0.N) (l : S1x256x1.Idx), p = t → l = y →
      k0_pay1 (iblk0 V c 0 t) y = k0_pay1 (((cfg0.win 0).blk p).view.read (Elt F) (V c main_arg1)) l := by
    rintro _ _ rfl rfl; rfl
  exact key _ _ hp hl

/-- The output array after the region: `disOf` of the adjacency array the region is entered with. -/
theorem final0_1 (c : Dev nD) : (dat0 V c).arrAt 1 cfg0.N = disOf (V c main_arg1) :=
  (dat0 V c).arrAt_eq_of_cover 1 (disOf (V c main_arg1)) (fun t _ => flushed0_1_eq V c t) covered0_1

end Cert.KernelIdeal.Run

end
-- ==== Proof.KiDegIdeal.lean ====
import proofs.«110154_j39565238731446_1_alg».proof.Proof.KiDegValue
import proofs.«110154_j39565238731446_1_alg».proof.Proof.Spec
import proofs.«110154_j39565238731446_1_alg».proof.Proof.LibInvSqrtDegree
import Idealize.ShloMosaic.PureOps.Ideal.Laws
import Idealize.ShloMosaic.Lib.ValueIdx

/-! # The degree region at the ideal values: the scales of the layer

At the ideal values the degree region's payload, read at row r of its block, is the reciprocal square root of the row's
sum plus one. With the adjacency array the coercion of non-negative reals, the sum plus one is a degree, a real number
at least one, and its reciprocal square root is the real scale `dis` of the layer: the region leaves the scales. -/

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

/-- The word 0x3F800000 is the number one. -/
theorem ofBits_one_f32 : Ideal.ofBits .f32 0x3F800000#32 = 1 := by
  simp [Ideal.ofBits, Ideal.ieee, -EReal.coe_mul]; norm_num

/-- The payload at row `r` of a block: the reciprocal square root of (the sum of the row's 2048 entries, plus one).
    The reduction starts from its neutral element, so the sum is the bare sum. -/
theorem k0_pay1_apply (x : Vec Ideal S1x256x2048 .f32) (r : Fin 256) :
    k0_pay1 x (ix3 (0 : Fin 1) r (0 : Fin 1)) = Ideal.rsqrt ((∑ m : Fin 2048, x (ix3 (0 : Fin 1) r m)) + 1) := by
  unfold k0_pay1
  dsimp only
  rw [shapeCast_addUnit_apply]
  show Ideal.rsqrt (shapeCast S256x1 _ _ _ + Ideal.ofBits .f32 0x3F800000#32) = _
  rw [ofBits_one_f32]
  refine congrArg Ideal.rsqrt (congrArg (· + 1) ?_)
  refine (shapeCast_apply _ _ _ (ix1 r) ?_).trans ?_
  · refine (Shape.rowMajor_val_one _).trans (Eq.trans ?_ (Shape.rowMajor_val_two _).symm)
    show r.val = r.val * 1 + 0
    omega
  refine (Ideal.multiReduction_add_single _ _ _ _ _ _).trans ?_
  refine Finset.sum_congr rfl fun m _ => ?_
  refine (shapeCast_dropUnit_apply _ _ _ _).trans (congrArg x ?_)
  funext a
  apply Fin.ext
  match a with
  | ⟨0, _⟩ => rfl
  | ⟨1, _⟩ => rfl
  | ⟨2, _⟩ => rfl

/-- Node n's place in its block of 256 rows is row n mod 256. -/
theorem placeOf0_ix3 (bi : Fin 16) (n : Fin 2048) :
    placeOf0 (ix3 bi n (0 : Fin 1)) = ix3 (0 : Fin 1) (⟨n.val % 256, Nat.mod_lt _ (by decide)⟩ : Fin 256) (0 : Fin 1) := by
  funext a
  match a with
  | ⟨0, _⟩ => rfl
  | ⟨1, _⟩ => rfl
  | ⟨2, _⟩ => rfl

variable (V : (c : Dev nD) → (b : Ref sig .tc) → Buf (Elt Ideal) ((c : Thread nD τ).loc b))

/-- Row n mod 256 of the adjacency block at node n's point is row n of graph `bi` of the adjacency array. -/
theorem adj_block_row (c : Dev nD) (bi : Fin 16) (n m : Fin 2048) :
    ((cfg0.win 0).blk (pointOf0 (ix3 bi n (0 : Fin 1)))).view.read (Elt Ideal) (V c main_arg1)
        (ix3 (0 : Fin 1) (⟨n.val % 256, Nat.mod_lt _ (by decide)⟩ : Fin 256) m)
      = V c main_arg1 (ix3 bi n m) := by
  rw [View.read_apply]
  show V c main_arg1 (((cfg0.win 0).blk (pointOf0 (ix3 bi n (0 : Fin 1)))).view.emb
    (ix3 (0 : Fin 1) (⟨n.val % 256, Nat.mod_lt _ (by decide)⟩ : Fin 256) m)) = _
  refine congrArg (V c main_arg1) ?_
  have hb : bi.val < 16 := bi.isLt
  have hn : n.val < 2048 := n.isLt
  obtain ⟨e0, e1, e2, e3, e4, e5, e6⟩ := index_facts0 (pointOf0 (ix3 bi n (0 : Fin 1)))
  have e4' : win0_1.index (pointOf0 (ix3 bi n (0 : Fin 1))) (0 : Fin 3) * 8 + win0_1.index (pointOf0 (ix3 bi n (0 : Fin 1))) (1 : Fin 3)
      = bi.val * 8 + n.val / 256 := e4
  funext a
  apply Fin.ext
  match a with
  | ⟨0, _⟩ => show win0_0.index (pointOf0 (ix3 bi n (0 : Fin 1))) (0 : Fin 3) * 1 + 1 * 0 = bi.val; omega
  | ⟨1, _⟩ => show win0_0.index (pointOf0 (ix3 bi n (0 : Fin 1))) (1 : Fin 3) * 256 + 1 * (n.val % 256) = n.val; omega
  | ⟨2, _⟩ => show win0_0.index (pointOf0 (ix3 bi n (0 : Fin 1))) (2 : Fin 3) * 2048 + 1 * m.val = m.val; omega

/-- THE SCALES. Entered with the adjacency array at the coercions of non-negative reals `adj`, the degree region leaves
    at node n of graph `bi` the coercion of the layer's scale `dis adj bi n`, the reciprocal square root of the degree. -/
theorem dis_final (c : Dev nD) (adj : Fin 16 → Fin 2048 → Fin 2048 → ℝ) (hadj : ∀ bi n m, 0 ≤ adj bi n m)
    (hV : ∀ bi n m, V c main_arg1 (ix3 bi n m) = ((adj bi n m : ℝ) : EReal)) (bi : Fin 16) (n : Fin 2048) :
    (dat0 V c).arrAt 1 cfg0.N (ix3 bi n (0 : Fin 1)) = ((Cert.Spec.dis adj bi n : ℝ) : EReal) := by
  rw [final0_1]
  unfold disOf
  rw [placeOf0_ix3, k0_pay1_apply]
  have hsum : ∀ f g : Fin 2048 → EReal, (∀ m, f m = g m) → Ideal.rsqrt ((∑ m, f m) + 1) = Ideal.rsqrt ((∑ m, g m) + 1) :=
    fun f g h => by rw [show f = g from funext h]
  refine (hsum _ (fun m => ((adj bi n m : ℝ) : EReal)) fun m => (adj_block_row V c bi n m).trans (hV bi n m)).trans ?_
  rw [← Cert.Lib.InvSqrtDegree.coe_sum, ← EReal.coe_one, ← EReal.coe_add]
  show Ideal.rsqrt ((Cert.Spec.deg adj bi n : ℝ) : EReal) = _
  rw [Cert.Lib.InvSqrtDegree.rsqrt_pos (Cert.Spec.deg_pos hadj bi n)]
  rfl

end Cert.KernelIdeal.Run

end
-- ==== Proof.KiLinearValue.lean ====
import proofs.«110154_j39565238731446_1_alg».proof.Proof.KiLinear
import Idealize.ShloMosaic.Lib.Pipeline.Value

/-! # What the linear region writes, as one array

The linear region's output array after its 128 points, as one function of the three arrays the region is entered
with. Point `t` = 8 g + q of the grid writes back rows 256 q … 256 q + 255 of graph g; what it writes is the body's
payload of the same rows of the feature array, of the whole weight matrix and of all the biases (their windows hold
the whole array at every point). The 128 output blocks cover the output array, so the array ends at `hlinOf` of the
three arrays: at (g, n, k), the payload of the row block holding row n of graph g, read at (n's place, k). -/

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- Zero offsets on three, two and one axes, however spelt. -/
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-! ## What a point writes back -/

/-- What point `t` writes back to the output array: the body's payload of the three input blocks at `t`. -/
theorem flushed1_3 (c : Dev nD) (t : Fin cfg1.N) :
    (dat1 V c).flushed 3 t = k1_pay1 (iblk1 V c 0 t) (iblk1 V c 1 t) (iblk1 V c 2 t) := by
  show (cfg1.win 3).cut (grid1.coords t) ((dat1 V c).after 3 t) = _
  rw [after1_3]
  unfold out1_3
  rw [View.canon_unit_zero zeros3, View.ld_unit_zero (S := S1x256x256) zeros3, View.ld_unit_zero (S := S256x256) zeros2,
    View.ld_unit_zero (S := S256) zeros1]
  rfl

/-- The weight window's block is the whole weight matrix at every point: its block index is zero on both axes. -/
theorem iblk1_weight (c : Dev nD) (t : Fin cfg1.N) : iblk1 V c 1 t = V c main_arg2 := by
  have hz : (fun a => win1_1.index t a * main_arg2.ty.shape.size a) = fun _ => 0 := funext fun a => by fin_cases a <;> rfl
  exact Memref.read_access_unit_zero (Elt F) main_arg2 hz (fun a => by rw [congrFun hz a]; simp) (V c main_arg2)

/-- The bias window's block is all the biases at every point. -/
theorem iblk1_bias (c : Dev nD) (t : Fin cfg1.N) : iblk1 V c 2 t = V c main_arg3 := by
  have hz : (fun a => win1_2.index t a * main_arg3.ty.shape.size a) = fun _ => 0 := funext fun a => by fin_cases a <;> rfl
  exact Memref.read_access_unit_zero (Elt F) main_arg3 hz (fun a => by rw [congrFun hz a]; simp) (V c main_arg3)

/-! ## The grid's geometry -/

/-- The feature window and the output window move together: at point `t` = 8 g + q both are at block (g, q, 0). -/
theorem index_facts1 : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_3.index t (0 : Fin 3) * 8 + win1_3.index t (1 : Fin 3) = t.val
    ∧ win1_3.index t (0 : Fin 3) < 16 ∧ win1_3.index t (1 : Fin 3) < 8 :=
  (by decide +kernel : ∀ t : Fin grid1.N, _)

/-- The point whose output block holds node `i 1` of graph `i 0`. -/
def pointOf1 (i : S16x2048x256.Idx) : Fin cfg1.N :=
  ⟨(i 0).val * 8 + (i 1).val / 256, by
    have h0 : (i 0).val < 16 := (i 0).isLt
    have h1 : (i 1).val < 2048 := (i 1).isLt
    show _ < grid1.N
    rw [N_1]; omega⟩

/-- Its place within that block. -/
def placeOf1 (i : S16x2048x256.Idx) : S1x256x256.Idx := fun a => match a with
  | ⟨0, _⟩ => ⟨0, Nat.one_pos⟩
  | ⟨1, _⟩ => ⟨(i 1).val % 256, Nat.mod_lt _ (by decide)⟩
  | ⟨2, _⟩ => ⟨(i 2).val, (i 2).isLt⟩

/-- An index of the output array is in point `t`'s block iff each coordinate is in the block's range on its axis. -/
theorem mem_blk1_3 (t : Fin cfg1.N) (i : S16x2048x256.Idx) :
    i ∈ ((cfg1.win 3).blk t).view.set ↔ ∀ a : Fin 3, win1_3.index t a * S1x256x256.size a ≤ (i a).val ∧ (i a).val < win1_3.index t a * S1x256x256.size a + S1x256x256.size a := by
  show i ∈ ((View.whole main_v2).slice (win1_3.rect t)).set ↔ _
  rw [View.set_slice_whole, Rect.mem_set_unit]
  exact Iff.rfl

/-- Every index of the output array is in the block of its point. -/
theorem covered1_3 (i : S16x2048x256.Idx) :
    ∃ t : Fin cfg1.N, (cfg1.win 3).flush t = true ∧ i ∈ ((cfg1.win 3).blk t).view.set := by
  refine ⟨pointOf1 i, flush1_3 _, ?_⟩
  rw [mem_blk1_3]
  have h0 : (i 0).val < 16 := (i 0).isLt
  have h1 : (i 1).val < 2048 := (i 1).isLt
  have h2 : (i 2).val < 256 := (i 2).isLt
  obtain ⟨-, -, -, e3, e4, e5, e6⟩ := index_facts1 (pointOf1 i)
  have e4' : win1_3.index (pointOf1 i) (0 : Fin 3) * 8 + win1_3.index (pointOf1 i) (1 : Fin 3) = (i 0).val * 8 + (i 1).val / 256 := e4
  intro a
  match a with
  | ⟨0, _⟩ => show win1_3.index (pointOf1 i) (0 : Fin 3) * 1 ≤ (i 0).val ∧ (i 0).val < win1_3.index (pointOf1 i) (0 : Fin 3) * 1 + 1; omega
  | ⟨1, _⟩ => show win1_3.index (pointOf1 i) (1 : Fin 3) * 256 ≤ (i 1).val ∧ (i 1).val < win1_3.index (pointOf1 i) (1 : Fin 3) * 256 + 256; omega
  | ⟨2, _⟩ => show win1_3.index (pointOf1 i) (2 : Fin 3) * 256 ≤ (i 2).val ∧ (i 2).val < win1_3.index (pointOf1 i) (2 : Fin 3) * 256 + 256; omega

/-! ## The array the region leaves -/

/-- The rounded linear layer as one function of the feature array `h`, the weight `W` and the bias `b`: at (g, n, k),
    the body's payload of the block of 256 rows of graph g that holds row n, of `W` and of `b`, read at n's place in
    the block and column k. -/
def hlinOf (h : Vec F S16x2048x256 .f32) (W : Vec F S256x256 .f32) (b : Vec F S256 .f32) : Vec F S16x2048x256 .bf16 := fun i =>
  k1_pay1 (((cfg1.win 0).blk (pointOf1 i)).view.read (Elt F) h) W b (placeOf1 i)

/-- An element of point `t`'s output block has `t` as its point and its block coordinates as its place. -/
theorem point_place_emb1 (t : Fin cfg1.N) (y : ((cfg1.win 3).xblock (cfg1.grid.coords t)).Idx) :
    pointOf1 (((cfg1.win 3).blk t).view.emb y) = t ∧ placeOf1 (((cfg1.win 3).blk t).view.emb y) = y := by
  have y0 : (y 0).val < 1 := (y 0).isLt
  have y1 : (y 1).val < 256 := (y 1).isLt
  have y2 : (y 2).val < 256 := (y 2).isLt
  obtain ⟨-, -, -, e3, e4, e5, e6⟩ := index_facts1 t
  have c0 : ((((cfg1.win 3).blk t).view.emb y) 0).val = win1_3.index t (0 : Fin 3) * 1 + 1 * (y 0).val := rfl
  have c1 : ((((cfg1.win 3).blk t).view.emb y) 1).val = win1_3.index t (1 : Fin 3) * 256 + 1 * (y 1).val := rfl
  have c2 : ((((cfg1.win 3).blk t).view.emb y) 2).val = win1_3.index t (2 : Fin 3) * 256 + 1 * (y 2).val := rfl
  constructor
  · apply Fin.ext
    show ((((cfg1.win 3).blk t).view.emb y) 0).val * 8 + ((((cfg1.win 3).blk t).view.emb y) 1).val / 256 = t.val
    rw [c0, c1]; omega
  · funext a
    apply Fin.ext
    match a with
    | ⟨0, _⟩ => show 0 = (y 0).val; omega
    | ⟨1, _⟩ => show ((((cfg1.win 3).blk t).view.emb y) 1).val % 256 = (y 1).val; rw [c1]; omega
    | ⟨2, _⟩ => show ((((cfg1.win 3).blk t).view.emb y) 2).val = (y 2).val; rw [c2]; omega

/-- What point `t` writes back is block `t` of `hlinOf` of the three arrays as the region finds them. -/
theorem flushed1_3_eq (c : Dev nD) (t : Fin cfg1.N) :
    (dat1 V c).flushed 3 t = ((cfg1.win 3).blk t).view.read (Elt F) (hlinOf (V c main_arg0) (V c main_arg2) (V c main_arg3)) := by
  rw [flushed1_3, iblk1_weight, iblk1_bias]
  funext y
  rw [View.read_apply]
  obtain ⟨hp, hl⟩ := point_place_emb1 t y
  show k1_pay1 (iblk1 V c 0 t) (V c main_arg2) (V c main_arg3) y
    = hlinOf (V c main_arg0) (V c main_arg2) (V c main_arg3) (((cfg1.win 3).blk t).view.emb y)
  unfold hlinOf
  have key : ∀ (p : Fin cfg1.N) (l : S1x256x256.Idx), p = t → l = y →
      k1_pay1 (iblk1 V c 0 t) (V c main_arg2) (V c main_arg3) y
        = k1_pay1 (((cfg1.win 0).blk p).view.read (Elt F) (V c main_arg0)) (V c main_arg2) (V c main_arg3) l := by
    rintro _ _ rfl rfl; rfl
  exact key _ _ hp hl

/-- The output array after the region: `hlinOf` of the three arrays the region is entered with. -/
theorem final1_3 (c : Dev nD) : (dat1 V c).arrAt 3 cfg1.N = hlinOf (V c main_arg0) (V c main_arg2) (V c main_arg3) :=
  (dat1 V c).arrAt_eq_of_cover 3 (hlinOf (V c main_arg0) (V c main_arg2) (V c main_arg3)) (fun t _ => flushed1_3_eq V c t) covered1_3

end Cert.KernelIdeal.Run

end
-- ==== Proof.KiLinearIdeal.lean ====
import proofs.«110154_j39565238731446_1_alg».proof.Proof.KiLinearValue
import proofs.«110154_j39565238731446_1_alg».proof.Proof.Spec
import proofs.«110154_j39565238731446_1_alg».proof.Proof.LibInvSqrtDegree
import Idealize.ShloMosaic.PureOps.Ideal.Laws
import Idealize.ShloMosaic.Lib.ValueIdx

/-! # The linear region at the ideal values: the linear layer

At the ideal values a change of float format is the identity, the matrix product into a zero accumulator is the sum
over the contracted coordinate of the products, and the kernel contracts the feature block's columns against the
TRANSPOSED weight: the payload at row r of the block and column k is sum_d x(r, d) W(k, d) + b(k). With the three
arrays the coercions of reals this is the coercion of the layer's `lin`: the region leaves the linear layer. -/

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

/-- The payload at row `r` of a feature block and column `k`: the row against row `k` of the weight matrix (the
    kernel multiplies by the transpose), plus bias `k`. The format changes are the identity, the product starts from
    a zero accumulator, and the bias is broadcast along the rows. -/
theorem k1_pay1_apply (x : Vec Ideal S1x256x256 .f32) (W : Vec Ideal S256x256 .f32) (b : Vec Ideal S256 .f32) (r k : Fin 256) :
    k1_pay1 x W b (ix3 (0 : Fin 1) r k) = (∑ d : Fin 256, x (ix3 (0 : Fin 1) r d) * W (ix2 k d)) + b (ix1 k) := by
  unfold k1_pay1
  dsimp only
  rw [shapeCast_addUnit_apply]
  show (_ : EReal) + _ = _
  refine congrArg₂ (· + ·) ?_ ?_
  · refine (Ideal.matmul_constant_zero_apply _ none _ _ _).trans ?_
    refine (Equiv.sum_comp (contrEquiv1 dot_S256x256_S256x256_S256x256_1_0_0_1_n_n 256 rfl rfl).symm _).symm.trans ?_
    refine Finset.sum_congr rfl fun d _ => ?_
    have cd := contrEquiv1_symm_val dot_S256x256_S256x256_S256x256_1_0_0_1_n_n 256 rfl rfl d
    refine congrArg₂ (· * ·) ?_ ?_
    · refine (shapeCast_dropUnit_apply _ _ _ _).trans (congrArg x ?_)
      funext ax
      apply Fin.ext
      match ax with
      | ⟨0, _⟩ => rfl
      | ⟨1, _⟩ =>
        show (dot_S256x256_S256x256_S256x256_1_0_0_1_n_n.lhsIdx (fun a => ix3 (0 : Fin 1) r k a.succ) ((contrEquiv1 dot_S256x256_S256x256_S256x256_1_0_0_1_n_n 256 rfl rfl).symm d) ⟨0, by decide⟩).val = r.val
        simp [DotDims.lhsIdx, dot_S256x256_S256x256_S256x256_1_0_0_1_n_n]; rfl
      | ⟨2, _⟩ =>
        show (dot_S256x256_S256x256_S256x256_1_0_0_1_n_n.lhsIdx (fun a => ix3 (0 : Fin 1) r k a.succ) ((contrEquiv1 dot_S256x256_S256x256_S256x256_1_0_0_1_n_n 256 rfl rfl).symm d) ⟨1, by decide⟩).val = d.val
        simp [DotDims.lhsIdx, dot_S256x256_S256x256_S256x256_1_0_0_1_n_n]; exact cd
    · refine (transpose_apply _ _ _ _ (ix2 k d) ?_).trans rfl
      intro bb
      match bb with
      | ⟨0, _⟩ =>
        show d.val = _
        simp [DotDims.rhsIdx, dot_S256x256_S256x256_S256x256_1_0_0_1_n_n]; exact cd.symm
      | ⟨1, _⟩ =>
        show k.val = _
        simp [DotDims.rhsIdx, dot_S256x256_S256x256_S256x256_1_0_0_1_n_n]; rfl
  · refine (broadcastTo_apply _ _ _ (ix2 (0 : Fin 1) k) ?_).trans ?_
    · intro a
      match a with
      | ⟨0, _⟩ => rfl
      | ⟨1, _⟩ => rfl
    · refine (shapeCast_addUnit_apply _ _ _ _).trans (congrArg b ?_)
      funext a
      match a with
      | ⟨0, _⟩ => rfl

/-- Node n's place in its block of 256 rows is row n mod 256, same column. -/
theorem placeOf1_ix3 (bi : Fin 16) (n : Fin 2048) (k : Fin 256) :
    placeOf1 (ix3 bi n k) = ix3 (0 : Fin 1) (⟨n.val % 256, Nat.mod_lt _ (by decide)⟩ : Fin 256) k := by
  funext a
  match a with
  | ⟨0, _⟩ => rfl
  | ⟨1, _⟩ => rfl
  | ⟨2, _⟩ => rfl

variable (V : (c : Dev nD) → (b : Ref sig .tc) → Buf (Elt Ideal) ((c : Thread nD τ).loc b))

/-- Row n mod 256 of the feature block at node n's point is row n of graph `bi` of the feature array. -/
theorem feat_block_row (c : Dev nD) (bi : Fin 16) (n : Fin 2048) (k d : Fin 256) :
    ((cfg1.win 0).blk (pointOf1 (ix3 bi n k))).view.read (Elt Ideal) (V c main_arg0)
        (ix3 (0 : Fin 1) (⟨n.val % 256, Nat.mod_lt _ (by decide)⟩ : Fin 256) d)
      = V c main_arg0 (ix3 bi n d) := by
  rw [View.read_apply]
  show V c main_arg0 (((cfg1.win 0).blk (pointOf1 (ix3 bi n k))).view.emb
    (ix3 (0 : Fin 1) (⟨n.val % 256, Nat.mod_lt _ (by decide)⟩ : Fin 256) d)) = _
  refine congrArg (V c main_arg0) ?_
  have hb : bi.val < 16 := bi.isLt
  have hn : n.val < 2048 := n.isLt
  obtain ⟨e0, e1, e2, e3, e4, e5, e6⟩ := index_facts1 (pointOf1 (ix3 bi n k))
  have e4' : win1_3.index (pointOf1 (ix3 bi n k)) (0 : Fin 3) * 8 + win1_3.index (pointOf1 (ix3 bi n k)) (1 : Fin 3)
      = bi.val * 8 + n.val / 256 := e4
  funext a
  apply Fin.ext
  match a with
  | ⟨0, _⟩ => show win1_0.index (pointOf1 (ix3 bi n k)) (0 : Fin 3) * 1 + 1 * 0 = bi.val; omega
  | ⟨1, _⟩ => show win1_0.index (pointOf1 (ix3 bi n k)) (1 : Fin 3) * 256 + 1 * (n.val % 256) = n.val; omega
  | ⟨2, _⟩ => show win1_0.index (pointOf1 (ix3 bi n k)) (2 : Fin 3) * 256 + 1 * d.val = d.val; omega

/-- THE LINEAR LAYER. Entered with the feature array, the weight and the bias at the coercions of reals `h`, `W`, `b`,
    the linear region leaves at node n of graph `bi` and feature k the coercion of `lin h W b bi n k`. -/
theorem lin_final (c : Dev nD) (h : Fin 16 → Fin 2048 → Fin 256 → ℝ) (W : Fin 256 → Fin 256 → ℝ) (b : Fin 256 → ℝ)
    (hh : ∀ bi n d, V c main_arg0 (ix3 bi n d) = ((h bi n d : ℝ) : EReal))
    (hW : ∀ k d, V c main_arg2 (ix2 k d) = ((W k d : ℝ) : EReal))
    (hb : ∀ k, V c main_arg3 (ix1 k) = ((b k : ℝ) : EReal)) (bi : Fin 16) (n : Fin 2048) (k : Fin 256) :
    (dat1 V c).arrAt 3 cfg1.N (ix3 bi n k) = ((Cert.Spec.lin h W b bi n k : ℝ) : EReal) := by
  rw [final1_3]
  unfold hlinOf
  rw [placeOf1_ix3, k1_pay1_apply]
  have hsum : ∀ f g : Fin 256 → EReal, (∀ d, f d = g d) → ∀ z z' : EReal, z = z' → (∑ d, f d) + z = (∑ d, g d) + z' :=
    fun f g hfg z z' hz => by rw [show f = g from funext hfg, hz]
  refine (hsum _ (fun d => ((h bi n d * W k d : ℝ) : EReal))
    (fun d => by rw [feat_block_row V c bi n k d, hh, hW, ← EReal.coe_mul]) _ _ (hb k)).trans ?_
  rw [← Cert.Lib.InvSqrtDegree.coe_sum, ← EReal.coe_add]
  rfl

end Cert.KernelIdeal.Run

end
-- ==== Proof.KiProductValue.lean ====
/-
  What the third launch's cases compute.  One step of the accumulation: from the point's adj tile x0, its 512 row scales
  x1, its 512 column scales x2, the resident h_lin block x3 (of which the step reads rows ni*512 … ni*512+511) and the
  accumulator s, the step is  s + (x1 * (x0 + [mi = ni] I) * x2) h_lin-tile.  Case A runs the step on a cleared
  accumulator, cases B and C on what the point before left; case C also copies the result to the output block.
-/
import proofs.«110154_j39565238731446_1_alg».proof.Proof.KiProduct
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of the resident h_lin block the step at grid point i reads: 512 rows from ni * 512. -/
abbrev tileRect (i : grid2.Coords) : Rect S1x2048x256 :=
  Rect.unit (s := S1x2048x256) (k2_off1 i) S1x512x256.size (Gen.k2_off1_inb i)

/-- One step of the accumulation at grid point i, over the accumulator s. -/
def step2 (i : grid2.Coords) (x0 : Vec F S1x512x512 .f32) (x1 : Vec F S1x512x1 .f32) (x2 : Vec F S1x1x512 .f32) (x3 : Vec F S1x2048x256 .bf16) (s : Vec F S512x256 .f32) : Vec F S512x256 .f32 :=
  k2_pay3 i x0 x1 x2 (View.ld x3 (tileRect i)) s

/-- Cases B and C leave in the accumulator the step over what the point before left. -/
theorem sout2_B_eq (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : ¬cond2_1 i) (x0 : Vec F S1x512x512 .f32) (x1 : Vec F S1x512x1 .f32) (x2 : Vec F S1x1x512 .f32) (x3 : Vec F S1x2048x256 .bf16) (xs0 : Vec F S512x256 .f32) :
    sout2_B c i arg3 harg3 arg4 harg4 arg5 harg5 arg6 harg6 arg7 harg7 arg8 harg8 hc0 hc1 x0 x1 x2 x3 xs0 = step2 i x0 x1 x2 x3 xs0 := by
  unfold sout2_B
  rw [View.read_writes_eq_canon _ _ _ (scover2_B c i arg3 harg3 arg4 harg4 arg5 harg5 arg6 harg6 arg7 harg7 arg8 harg8 hc0 hc1 x0 x1 x2 x3 xs0)]
  unfold kernelRun2_B
  dsimp only
  rw [View.canon_unit_zero hz2]
  simp only [View.readAt_eq_ld, harg3.read_unread, harg4.read_unread, harg5.read_unread, harg6.read_unread, harg8.read_unread, View.ld_unit_zero (S := S1x512x512) hz3, View.ld_unit_zero (S := S1x512x1) hz3, View.ld_unit_zero (S := S1x1x512) hz3, View.ld_unit_zero (S := S512x256) hz2]
  rfl

theorem sout2_C_eq (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) :
    sout2_C c i arg3 harg3 arg4 harg4 arg5 harg5 arg6 harg6 arg7 harg7 arg8 harg8 hc0 hc1 x0 x1 x2 x3 xs0 = step2 i x0 x1 x2 x3 xs0 := by
  unfold sout2_C
  rw [View.read_writes_eq_canon _ _ _ (scover2_C c i arg3 harg3 arg4 harg4 arg5 harg5 arg6 harg6 arg7 harg7 arg8 harg8 hc0 hc1 x0 x1 x2 x3 xs0)]
  unfold kernelRun2_C
  dsimp only
  sl_unfold_words
  rw [View.canon_unit_zero hz2]
  simp only [View.readAt_eq_ld, harg3.read_unread, harg4.read_unread, harg5.read_unread, harg6.read_unread, harg8.read_unread, View.ld_unit_zero (S := S1x512x512) hz3, View.ld_unit_zero (S := S1x512x1) hz3, View.ld_unit_zero (S := S1x1x512) hz3, View.ld_unit_zero (S := S512x256) hz2]
  rfl

/-- Case C leaves in the output block the accumulator it has just updated (re-laid with a leading unit axis). -/
theorem out2_C_eq (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : ¬cond2_0 i) (hc1 : cond2_1 i) (x0 : Vec F S1x512x512 .f32) (x1 : Vec F S1x512x1 .f32) (x2 : Vec F S1x1x512 .f32) (x3 : Vec F S1x2048x256 .bf16) (xs0 : Vec F S512x256 .f32) :
    out2_C c i arg3 harg3 arg4 harg4 arg5 harg5 arg6 harg6 arg7 harg7 arg8 harg8 hc0 hc1 x0 x1 x2 x3 xs0 = k2_pay1 (step2 i x0 x1 x2 x3 xs0) := by
  unfold out2_C
  rw [View.read_writes_eq_canon _ _ _ (cover2_C c i arg3 harg3 arg4 harg4 arg5 harg5 arg6 harg6 arg7 harg7 arg8 harg8 hc0 hc1 x0 x1 x2 x3 xs0)]
  unfold kernelRun2_C
  dsimp only
  sl_unfold_words
  rw [View.canon_unit_zero hz3, View.readCov_unit_zero (S := S512x256) _ hz2]
  simp only [View.readAt_eq_ld, harg3.read_unread, harg4.read_unread, harg5.read_unread, harg6.read_unread, harg8.read_unread, View.ld_unit_zero (S := S1x512x512) hz3, View.ld_unit_zero (S := S1x512x1) hz3, View.ld_unit_zero (S := S1x1x512) hz3, View.ld_unit_zero (S := S512x256) hz2]
  rfl

/-- Case A leaves in the accumulator the step over the cleared accumulator. -/
theorem sout2_A_eq (c : Dev nD) (i : grid2.Coords) (arg3 : Memref sig .tc .vmem S1x512x512 .f32) (harg3 : arg3.IsWhole) (arg4 : Memref sig .tc .vmem S1x512x1 .f32) (harg4 : arg4.IsWhole) (arg5 : Memref sig .tc .vmem S1x1x512 .f32) (harg5 : arg5.IsWhole) (arg6 : Memref sig .tc .vmem S1x2048x256 .bf16) (harg6 : arg6.IsWhole) (arg7 : Memref sig .tc .vmem S1x512x256 .f32) (harg7 : arg7.IsWhole) (arg8 : Memref sig .tc .vmem S512x256 .f32) (harg8 : arg8.IsWhole) (hc0 : cond2_0 i) (hc1 : ¬cond2_1 i) (x0 : Vec F S1x512x512 .f32) (x1 : Vec F S1x512x1 .f32) (x2 : Vec F S1x1x512 .f32) (x3 : Vec F S1x2048x256 .bf16) :
    sout2_A c i arg3 harg3 arg4 harg4 arg5 harg5 arg6 harg6 arg7 harg7 arg8 harg8 hc0 hc1 x0 x1 x2 x3 = step2 i x0 x1 x2 x3 (k2_pay2 (F := F)) := by
  unfold sout2_A
  rw [View.read_writes_eq_canon _ _ _ (scover2_A c i arg3 harg3 arg4 harg4 arg5 harg5 arg6 harg6 arg7 harg7 arg8 harg8 hc0 hc1 x0 x1 x2 x3)]
  unfold kernelRun2_A
  dsimp only
  sl_unfold_words
  rw [View.canon_cons_unit_zero (S := S512x256) hz2, View.readCov_unit_zero (S := S512x256) _ hz2]
  simp only [View.readAt_eq_ld, harg3.read_unread, harg4.read_unread, harg5.read_unread, harg6.read_unread, harg8.read_unread, View.ld_unit_zero (S := S1x512x512) hz3, View.ld_unit_zero (S := S1x512x1) hz3, View.ld_unit_zero (S := S1x1x512) hz3, View.ld_unit_zero (S := S512x256) hz2]
  rfl

/-! ## The accumulation, point by point -/

section Accumulation

variable (V : (c : Dev nD) → (b : Ref sig .tc) → Buf (Elt F) ((c : Thread nD τ).loc b))

/-- The accumulator after position n. -/
def acc2 (c : Dev nD) (n : ℕ) (hn : n < cfg2.N) : Vec F S512x256 .f32 := (outsAt2 V c n hn).2

/-- At a point whose last coordinate is 0 the accumulator is the step over the cleared accumulator. -/
theorem acc2_reset (c : Dev nD) (t : Fin cfg2.N) (h0 : t.val % 4 = 0) :
    acc2 V c t.val t.isLt = step2 (grid2.coords t) (iblk2 V c 0 t) (iblk2 V c 1 t) (iblk2 V c 2 t) (iblk2 V c 3 t) (k2_pay2 (F := F)) := by
  have h1 : ¬t.val % 4 = 3 := by omega
  unfold acc2
  rw [outsAt2_A V c t h0 h1]
  unfold atA
  dsimp only
  exact sout2_A_eq (F := F) c _ _ _ _ _ _ _ _ _ _ _ _ _ _ _ _ _ _ _

/-- At every other point it is the step over what the point before left. -/
theorem acc2_step (c : Dev nD) (t : Fin cfg2.N) (h0 : ¬t.val % 4 = 0) :
    acc2 V c t.val t.isLt
      = step2 (grid2.coords t) (iblk2 V c 0 t) (iblk2 V c 1 t) (iblk2 V c 2 t) (iblk2 V c 3 t) (acc2 V c (t.val - 1) (Nat.lt_of_le_of_lt (Nat.sub_le _ _) t.isLt)) := by
  unfold acc2
  by_cases h1 : t.val % 4 = 3
  · rw [outsAt2_C V c t h0 h1]
    unfold atC
    dsimp only
    exact sout2_C_eq (F := F) c _ _ _ _ _ _ _ _ _ _ _ _ _ _ _ _ _ _ _ _
  · rw [outsAt2_B V c t h0 h1]
    unfold atB
    dsimp only
    exact sout2_B_eq (F := F) c _ _ _ _ _ _ _ _ _ _ _ _ _ _ _ _ _ _ _ _

/-- At a point whose last coordinate is 3 the output block's buffer holds the accumulator, re-laid. -/
theorem out2_last (c : Dev nD) (t : Fin cfg2.N) (h1 : t.val % 4 = 3) :
    (outsAt2 V c t.val t.isLt).1 = k2_pay1 (acc2 V c t.val t.isLt) := by
  have h0 : ¬t.val % 4 = 0 := by omega
  unfold acc2
  rw [outsAt2_C V c t h0 h1]
  unfold atC
  dsimp only
  rw [out2_C_eq, sout2_C_eq]

end Accumulation

end Cert.KernelIdeal.Run

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibChunks.lean ====
/-
  A running value updated chunk by chunk ends at the value over the whole range.

  A range of T·C places is visited in T chunks of C places. Three running values are considered, each started at a
  value b and updated once per chunk: a sum that adds the chunk's sum, a minimum that takes the minimum with the chunk's
  minimum, a maximum that takes the maximum with the chunk's maximum. After the last chunk the sum is the sum over all
  places (in any commutative additive monoid, so on the extended reals with no finiteness asked), and the minimum
  (maximum) is the minimum (maximum) from b over all places (in any linear order; the chunk's own minimum may be taken
  from any start value not below b, the chunk's own maximum from any start value not above b, since b is folded in
  anyway). Over Mathlib only.
-/
import Mathlib.Algebra.BigOperators.Fin
import Mathlib.Logic.Equiv.Fin.Basic
import Mathlib.Data.Finset.Fold
import Mathlib.Order.Lattice

namespace LibChunks

open Finset

/-- The place C·t + c lies below T·C when t < T and c < C. -/
theorem place_lt {T C : ℕ} {t : ℕ} (ht : t < T) (c : Fin C) : C * t + c.val < T * C := by
  calc C * t + c.val < C * t + C := Nat.add_lt_add_left c.isLt _
    _ = C * (t + 1) := (Nat.mul_succ _ _).symm
    _ ≤ C * T := Nat.mul_le_mul_left _ ht
    _ = T * C := Nat.mul_comm _ _

/-- Every place below T·C is C·t + c for its chunk t and its position c in the chunk. -/
theorem place_split {T C : ℕ} (k : Fin (T * C)) :
    ∃ (t : ℕ) (ht : t < T) (c : Fin C), (⟨C * t + c.val, place_lt ht c⟩ : Fin (T * C)) = k := by
  have hlt : k.val < T * C := k.isLt
  have hC : 0 < C := by
    rcases Nat.eq_zero_or_pos C with h | h
    · exfalso
      have h2 : T * C = 0 := by rw [h, Nat.mul_zero]
      omega
    · exact h
  have hk : k.val < C * T := by
    have h3 := Nat.mul_comm C T
    omega
  refine ⟨k.val / C, Nat.div_lt_of_lt_mul hk, ⟨k.val % C, Nat.mod_lt _ hC⟩, Fin.ext ?_⟩
  exact Nat.div_add_mod k.val C

section Sum

variable {M : Type*} [AddCommMonoid M]

/-- A sum started at zero that adds one chunk's sum per step holds, after n steps, the sum of the first n chunks. -/
theorem chain_sum_prefix (T : ℕ) (S : (t : ℕ) → t < T → M) (acc : ℕ → M) (h0 : acc 0 = 0)
    (hs : ∀ n (h : n < T), acc (n + 1) = acc n + S n h) :
    ∀ n (hn : n ≤ T), acc n = ∑ t : Fin n, S t.val (Nat.lt_of_lt_of_le t.isLt hn)
  | 0, _ => by rw [h0]; exact (Finset.sum_empty).symm
  | n + 1, hn => by
    rw [hs n hn, chain_sum_prefix T S acc h0 hs n (Nat.le_of_lt hn), Fin.sum_univ_castSucc]
    rfl

/-- … and after the last step the sum over all T·C places. -/
theorem chain_sum_blocks (T C : ℕ) (g : Fin (T * C) → M) (acc : ℕ → M) (h0 : acc 0 = 0)
    (hs : ∀ n (h : n < T), acc (n + 1) = acc n + ∑ c : Fin C, g ⟨C * n + c.val, place_lt h c⟩) :
    acc T = ∑ k : Fin (T * C), g k := by
  rw [chain_sum_prefix T (fun n h => ∑ c : Fin C, g ⟨C * n + c.val, place_lt h c⟩) acc h0 hs T (Nat.le_refl _),
    ← Equiv.sum_comp (finProdFinEquiv (m := T) (n := C)) g, Fintype.sum_prod_type]
  refine Finset.sum_congr rfl fun t _ => Finset.sum_congr rfl fun c _ => ?_
  congr 1
  apply Fin.ext
  simp [finProdFinEquiv, Nat.add_comm]

end Sum

section Order

variable {β : Type*} [LinearOrder β]

/-- A minimum started at b that takes, per step, the minimum with the chunk's minimum (from any b' ≥ b) is, after the
    last step, the minimum from b over all T·C places. -/
theorem chain_min_blocks (T C : ℕ) (b b' : β) (hb : b ≤ b') (g : Fin (T * C) → β) (acc : ℕ → β) (h0 : acc 0 = b)
    (hs : ∀ n (h : n < T), acc (n + 1)
      = min (acc n) ((Finset.univ : Finset (Fin C)).fold min b' fun c => g ⟨C * n + c.val, place_lt h c⟩)) :
    acc T = (Finset.univ : Finset (Fin (T * C))).fold min b g := by
  have key : ∀ n (hn : n ≤ T) (z : β),
      z ≤ acc n ↔ z ≤ b ∧ ∀ t (ht : t < n) (c : Fin C), z ≤ g ⟨C * t + c.val, place_lt (Nat.lt_of_lt_of_le ht hn) c⟩ := by
    intro n
    induction n with
    | zero => intro _ z; rw [h0]; exact ⟨fun h => ⟨h, fun t ht => absurd ht (Nat.not_lt_zero t)⟩, fun h => h.1⟩
    | succ n ih =>
      intro hn z
      rw [hs n hn, le_min_iff, ih (Nat.le_of_lt hn), Finset.le_fold_min]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans h1 hb, fun c _ => h2 n (Nat.lt_succ_self n) c⟩
  refine le_antisymm ?_ ?_
  · refine (Finset.le_fold_min _).2 ⟨((key T (Nat.le_refl _) _).1 le_rfl).1, fun k _ => ?_⟩
    obtain ⟨t, ht, c, rfl⟩ := place_split k
    exact ((key T (Nat.le_refl _) _).1 le_rfl).2 t ht c
  · refine (key T (Nat.le_refl _) _).2 ⟨(Finset.le_fold_min _).1 le_rfl |>.1, fun t ht c => ?_⟩
    exact ((Finset.le_fold_min _).1 le_rfl).2 _ (Finset.mem_univ _)

/-- A maximum started at b that takes, per step, the maximum with the chunk's maximum (from any b' ≤ b) is, after the
    last step, the maximum from b over all T·C places. -/
theorem chain_max_blocks (T C : ℕ) (b b' : β) (hb : b' ≤ b) (g : Fin (T * C) → β) (acc : ℕ → β) (h0 : acc 0 = b)
    (hs : ∀ n (h : n < T), acc (n + 1)
      = max (acc n) ((Finset.univ : Finset (Fin C)).fold max b' fun c => g ⟨C * n + c.val, place_lt h c⟩)) :
    acc T = (Finset.univ : Finset (Fin (T * C))).fold max b g := by
  have key : ∀ n (hn : n ≤ T) (z : β),
      acc n ≤ z ↔ b ≤ z ∧ ∀ t (ht : t < n) (c : Fin C), g ⟨C * t + c.val, place_lt (Nat.lt_of_lt_of_le ht hn) c⟩ ≤ z := by
    intro n
    induction n with
    | zero => intro _ z; rw [h0]; exact ⟨fun h => ⟨h, fun t ht => absurd ht (Nat.not_lt_zero t)⟩, fun h => h.1⟩
    | succ n ih =>
      intro hn z
      rw [hs n hn, max_le_iff, ih (Nat.le_of_lt hn), Finset.fold_max_le]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans hb h1, fun c _ => h2 n (Nat.lt_succ_self n) c⟩
  refine le_antisymm ?_ ?_
  · refine (key T (Nat.le_refl _) _).2 ⟨(Finset.fold_max_le _).1 le_rfl |>.1, fun t ht c => ?_⟩
    exact ((Finset.fold_max_le _).1 le_rfl).2 _ (Finset.mem_univ _)
  · refine (Finset.fold_max_le _).2 ⟨((key T (Nat.le_refl _) _).1 le_rfl).1, fun k _ => ?_⟩
    obtain ⟨t, ht, c, rfl⟩ := place_split k
    exact ((key T (Nat.le_refl _) _).1 le_rfl).2 t ht c

end Order

end LibChunks
-- ==== Proof.LibDiagTiles.lean ====
/-
  The identity matrix cut into square tiles.

  Write a row position as p * T + r and a column position as q * T + c with r, c < T: tile (p, q), entry (r, c).  The two
  positions are equal exactly when p = q and r = c (division with remainder by T is unique).  So tile (p, q) of the
  identity is the T x T identity when p = q and the zero tile otherwise — what a kernel that walks a matrix tile by tile
  adds on its diagonal tiles is what adding the whole identity adds.
-/
import Mathlib

namespace Cert.Lib.DiagTiles

/-- p * T + r = q * T + c with r, c < T exactly when p = q and r = c. -/
theorem tile_pos_eq_iff {T p q r c : ℕ} (hr : r < T) (hc : c < T) : p * T + r = q * T + c ↔ p = q ∧ r = c := by
  constructor
  · intro h
    have hT : 0 < T := lt_of_le_of_lt (Nat.zero_le r) hr
    have hp : (p * T + r) / T = p := by
      rw [Nat.add_comm, Nat.add_mul_div_right _ _ hT, Nat.div_eq_of_lt hr, Nat.zero_add]
    have hq : (q * T + c) / T = q := by
      rw [Nat.add_comm, Nat.add_mul_div_right _ _ hT, Nat.div_eq_of_lt hc, Nat.zero_add]
    have hpq : p = q := by rw [← hp, ← hq, h]
    subst hpq
    exact ⟨rfl, Nat.add_left_cancel h⟩
  · rintro ⟨rfl, rfl⟩
    rfl

/-- Entry (r, c) of tile (p, q) of the identity: the identity's entry on a diagonal tile, zero on the others. -/
theorem ident_tile {M : Type*} [Zero M] [One M] {T p q r c : ℕ} (hr : r < T) (hc : c < T) :
    (if p * T + r = q * T + c then (1 : M) else 0) = if p = q then (if r = c then (1 : M) else 0) else 0 := by
  by_cases hpq : p = q
  · by_cases hrc : r = c
    · rw [if_pos ((tile_pos_eq_iff hr hc).mpr ⟨hpq, hrc⟩), if_pos hpq, if_pos hrc]
    · rw [if_neg (fun h => hrc ((tile_pos_eq_iff hr hc).mp h).2), if_pos hpq, if_neg hrc]
  · rw [if_neg (fun h => hpq ((tile_pos_eq_iff hr hc).mp h).1), if_neg hpq]

end Cert.Lib.DiagTiles
-- ==== Proof.KiProductIdeal.lean ====
/-
  The third launch over the extended reals.  One step of the accumulation at grid point (b, mi, ni), read at entry (r, k):
      s(r, k) + sum over the tile's 512 columns j of  (x1(r) * (x0(r, j) + e(r, j)) * x2(j)) * hlin(ni*512 + j, k),
  where e(r, j) is 1 when mi = ni and r = j and 0 otherwise — the identity matrix cut into 512 x 512 tiles.  (The casts to
  bf16 are the identity here and the matrix product into a zero accumulator is the plain sum of products.)
-/
import proofs.«110154_j39565238731446_1_alg».proof.Proof.KiProductValue
import proofs.«110154_j39565238731446_1_alg».proof.Proof.LibMatProd
import proofs.«110154_j39565238731446_1_alg».proof.Proof.LibBroadcastTo
import proofs.«110154_j39565238731446_1_alg».proof.Proof.LibChunks
import proofs.«110154_j39565238731446_1_alg».proof.Proof.LibDiagTiles
import proofs.«110154_j39565238731446_1_alg».proof.Proof.LibInvSqrtDegree
import Idealize.ShloMosaic.Lib.ValueIdx
import Idealize.ShloMosaic.Lib.ValueLayout
import Idealize.ShloMosaic.Lib.Affine
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem dot2_eq : dot_S512x512_S512x256_S512x256_1_0_0_1_n_n = DotDims.plain 512 512 256 := rfl

/-- The diagonal term at entry (r, j) of the tile at grid point i, as the body computes it. -/
def eyeAt (i : grid2.Coords) (r j : Fin 512) : EReal :=
  (Scalar.select (Scalar.cmpi CmpIPredicate.eq (BitVec.ofNat 32 (i 1).val) (BitVec.ofNat 32 (i 2).val))
    (sitofp (F := Ideal) FTy.f32 (extui 32 (cmpi CmpIPredicate.eq (iota Kind.tc S512x512 32 [0] iota_S512x512_d0_w32) (iota Kind.tc S512x512 32 [1] iota_S512x512_d1_w32)) natLt_1_32))
    (broadcast S512x512 (FloatOps.ofBits (F := Ideal) FTy.f32 0#32))) (ix2 r j)

theorem step2_apply (i : grid2.Coords) (x0 : Vec Ideal S1x512x512 .f32) (x1 : Vec Ideal S1x512x1 .f32) (x2 : Vec Ideal S1x1x512 .f32) (x3 : Vec Ideal S1x2048x256 .bf16)
    (s : Vec Ideal S512x256 .f32) (r : Fin 512) (k : Fin 256) :
    step2 (F := Ideal) i x0 x1 x2 x3 s (ix2 r k) =
      s (ix2 r k) + ∑ j : Fin 512, ((x1 (ix3 0 r 0) * (x0 (ix3 0 r j) + eyeAt i r j)) * x2 (ix3 0 0 j)) * View.ld x3 (tileRect i) (ix3 0 j k) := by
  unfold step2 k2_pay3
  simp only [shapeCast_self]
  rw [addf_apply]
  refine congrArg (s (ix2 r k) + ·) ?_
  rw [dot2_eq]
  refine (Cert.MatProd.matmul_plain_zero_apply (M := 512) (K := 512) (N := 256) none _ _ r k).trans ?_
  refine Finset.sum_congr rfl fun j _ => ?_
  rw [truncf_apply, mulf_apply, mulf_apply, addf_apply]
  rw [Cert.BroadcastTo.col_apply, Cert.BroadcastTo.row_apply]
  rw [shapeCast_dropUnit_apply, shapeCast_dropUnit_apply, shapeCast_dropUnit_apply, shapeCast_dropUnit_apply]
  have e1 : x1 (Fin.cons ⟨0, Nat.one_pos⟩ (ix2 r (0 : Fin 1))) = x1 (ix3 (0 : Fin 1) r (0 : Fin 1)) := congrArg x1 (funext fun d => by match d with | ⟨0, _⟩ => rfl | ⟨1, _⟩ => rfl | ⟨2, _⟩ => rfl)
  have e0 : x0 (Fin.cons ⟨0, Nat.one_pos⟩ (ix2 r j)) = x0 (ix3 (0 : Fin 1) r j) := congrArg x0 (funext fun d => by match d with | ⟨0, _⟩ => rfl | ⟨1, _⟩ => rfl | ⟨2, _⟩ => rfl)
  have e2 : x2 (Fin.cons ⟨0, Nat.one_pos⟩ (ix2 (0 : Fin 1) j)) = x2 (ix3 (0 : Fin 1) (0 : Fin 1) j) := congrArg x2 (funext fun d => by match d with | ⟨0, _⟩ => rfl | ⟨1, _⟩ => rfl | ⟨2, _⟩ => rfl)
  have e3 : View.ld x3 (tileRect i) (Fin.cons ⟨0, Nat.one_pos⟩ (ix2 j k)) = View.ld x3 (tileRect i) (ix3 (0 : Fin 1) j k) :=
    congrArg (View.ld x3 (tileRect i)) (funext fun d => by match d with | ⟨0, _⟩ => rfl | ⟨1, _⟩ => rfl | ⟨2, _⟩ => rfl)
  rw [e1, e0, e2, e3]
  rfl

/-- The diagonal term is the indicator of "this is a diagonal tile and the entry is on its diagonal". -/
theorem eyeAt_eq (i : grid2.Coords) (r j : Fin 512) :
    eyeAt i r j = if (i 1).val = (i 2).val ∧ r = j then (1 : EReal) else 0 := by
  have hinj : ∀ a b : ℕ, a < 4294967296 → b < 4294967296 → (BitVec.ofNat 32 a = BitVec.ofNat 32 b ↔ a = b) := by
    intro a b ha hb
    constructor
    · intro h
      have h' := congrArg BitVec.toNat h
      simpa [BitVec.toNat_ofNat, Nat.mod_eq_of_lt ha, Nat.mod_eq_of_lt hb] using h'
    · rintro rfl; rfl
  have hbit : ∀ x : BitVec 1, x ≠ 1#1 → x = 0#1 := by decide
  have hA : (sitofp (F := Ideal) FTy.f32 (extui 32 (cmpi CmpIPredicate.eq (iota Kind.tc S512x512 32 [0] iota_S512x512_d0_w32) (iota Kind.tc S512x512 32 [1] iota_S512x512_d1_w32)) natLt_1_32)) (ix2 r j)
      = if r = j then (1 : EReal) else 0 := by
    rw [sitofp_apply, extui_apply]
    show (((((IntOp.cmpi CmpIPredicate.eq (iota Kind.tc S512x512 32 [0] iota_S512x512_d0_w32 (ix2 r j)) (iota Kind.tc S512x512 32 [1] iota_S512x512_d1_w32 (ix2 r j))).setWidth 32).toInt : ℝ) : EReal)) = _
    rw [iota_single_apply, iota_single_apply]
    by_cases h : r = j
    · subst h
      rw [if_pos rfl, (IntOp.cmpi_eq).mpr rfl]
      norm_num
    · have hne : IntOp.cmpi CmpIPredicate.eq (BitVec.ofNat 32 ((ix2 r j : S512x512.Idx) 0).val) (BitVec.ofNat 32 ((ix2 r j : S512x512.Idx) 1).val) = 0#1 :=
        hbit _ (fun hc => h (Fin.ext ((hinj _ _ (by have := r.isLt; show r.val < _; omega) (by have := j.isLt; show j.val < _; omega)).mp ((IntOp.cmpi_eq).mp hc))))
      rw [if_neg h, hne]
      norm_num
  unfold eyeAt Scalar.select
  by_cases hmn : (i 1).val = (i 2).val
  · have hc : Scalar.cmpi CmpIPredicate.eq (BitVec.ofNat 32 (i 1).val) (BitVec.ofNat 32 (i 2).val) = 1 := by
      rw [hmn]; exact (IntOp.cmpi_eq).mpr rfl
    rw [if_pos hc, hA]
    by_cases h : r = j
    · rw [if_pos h, if_pos ⟨hmn, h⟩]
    · rw [if_neg h, if_neg (fun hh => h hh.2)]
  · have hc : ¬ Scalar.cmpi CmpIPredicate.eq (BitVec.ofNat 32 (i 1).val) (BitVec.ofNat 32 (i 2).val) = 1 := by
      intro hc
      have h1 := (i 1).isLt
      have h2 := (i 2).isLt
      exact hmn ((hinj _ _ (by have : (i 1).val < 4 := h1; omega) (by have : (i 2).val < 4 := h2; omega)).mp ((IntOp.cmpi_eq).mp hc))
    rw [if_neg hc, if_neg (fun hh => hmn hh.1)]
    show FloatOps.ofBits (F := Ideal) FTy.f32 0#32 = 0
    exact Ideal.ofBits_zero_f32

end Cert.KernelIdeal.Run

end
-- ==== Proof.KiProductArray.lean ====
/-
  The array the third launch leaves.  Output entry (g, n, k) lies in the block of rows mi = n / 512 of graph g, which is
  written back once, at the point (g, mi, 3) — position 16 g + 4 mi + 3 —, from the buffer the body filled there.  So the
  output array is, entry by entry, what that point leaves at place (0, n mod 512, k); the blocks written back tile it.
  Also here: where each window's block sits at a point, decided over the 256 points.
-/
import proofs.«110154_j39565238731446_1_alg».proof.Proof.KiProductValue

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point writes back when it writes back: the output block's buffer after the body. -/
theorem flushed2_4 (c : Dev nD) (t : Fin cfg2.N) : (dat2 V c).flushed 4 t = (outsAt2 V c t.val t.isLt).1 := by
  show (cfg2.win 4).cut (grid2.coords t) ((dat2 V c).after 4 t) = _
  rw [after2_4]
  rfl

/-- Where the five windows' blocks sit at point t = 16 g + 4 mi + ni, the grid coordinates the body reads, and the first
    row of h_lin the step reads. -/
theorem index_facts2 : ∀ t : Fin cfg2.N,
    win2_4.index t (0 : Fin 3) * 16 + win2_4.index t (1 : Fin 3) * 4 + t.val % 4 = t.val
    ∧ win2_4.index t (2 : Fin 3) = 0 ∧ win2_4.index t (0 : Fin 3) < 16 ∧ win2_4.index t (1 : Fin 3) < 4
    ∧ win2_0.index t (0 : Fin 3) = win2_4.index t (0 : Fin 3) ∧ win2_0.index t (1 : Fin 3) = win2_4.index t (1 : Fin 3) ∧ win2_0.index t (2 : Fin 3) = t.val % 4
    ∧ win2_1.index t (0 : Fin 3) = win2_4.index t (0 : Fin 3) ∧ win2_1.index t (1 : Fin 3) = win2_4.index t (1 : Fin 3) ∧ win2_1.index t (2 : Fin 3) = 0
    ∧ win2_2.index t (0 : Fin 3) = win2_4.index t (0 : Fin 3) ∧ win2_2.index t (1 : Fin 3) = 0 ∧ win2_2.index t (2 : Fin 3) = t.val % 4
    ∧ win2_3.index t (0 : Fin 3) = win2_4.index t (0 : Fin 3) ∧ win2_3.index t (1 : Fin 3) = 0 ∧ win2_3.index t (2 : Fin 3) = 0
    ∧ (grid2.coords t 1).val = win2_4.index t (1 : Fin 3) ∧ (grid2.coords t 2).val = t.val % 4
    ∧ k2_off1 (grid2.coords t) 0 = 0 ∧ k2_off1 (grid2.coords t) 1 = t.val % 4 * 512 ∧ k2_off1 (grid2.coords t) 2 = 0 :=
  (by decide +kernel : ∀ t : Fin grid2.N, _)

/-- The point that writes back the block holding row i 1 of graph i 0. -/
def pointOf2 (i : S16x2048x256.Idx) : Fin cfg2.N :=
  ⟨(i 0).val * 16 + (i 1).val / 512 * 4 + 3, by
    have h0 : (i 0).val < 16 := (i 0).isLt
    have h1 : (i 1).val < 2048 := (i 1).isLt
    show _ < grid2.N
    rw [N_2]; omega⟩

/-- The entry's place within that block. -/
def placeOf2 (i : S16x2048x256.Idx) : S1x512x256.Idx := fun a => match a with
  | ⟨0, _⟩ => ⟨0, Nat.one_pos⟩
  | ⟨1, _⟩ => ⟨(i 1).val % 512, Nat.mod_lt _ (by decide)⟩
  | ⟨2, _⟩ => ⟨(i 2).val, (i 2).isLt⟩

theorem mem_blk2_4 (t : Fin cfg2.N) (i : S16x2048x256.Idx) :
    i ∈ ((cfg2.win 4).blk t).view.set ↔ ∀ a : Fin 3, win2_4.index t a * S1x512x256.size a ≤ (i a).val ∧ (i a).val < win2_4.index t a * S1x512x256.size a + S1x512x256.size a := by
  show i ∈ ((View.whole main_v3).slice (win2_4.rect t)).set ↔ _
  rw [View.set_slice_whole, Rect.mem_set_unit]
  exact Iff.rfl

/-- Every entry of the output array is in the block its point writes back. -/
theorem covered2_4 (i : S16x2048x256.Idx) :
    ∃ t : Fin cfg2.N, (cfg2.win 4).flush t = true ∧ i ∈ ((cfg2.win 4).blk t).view.set := by
  have h0 : (i 0).val < 16 := (i 0).isLt
  have h1 : (i 1).val < 2048 := (i 1).isLt
  have h2 : (i 2).val < 256 := (i 2).isLt
  have hp : (pointOf2 i).val = (i 0).val * 16 + (i 1).val / 512 * 4 + 3 := rfl
  refine ⟨pointOf2 i, (flush2_4 _).mpr (by rw [hp]; omega), ?_⟩
  rw [mem_blk2_4]
  obtain ⟨e0, e1, e2, e3, -⟩ := index_facts2 (pointOf2 i)
  rw [hp] at e0
  intro a
  match a with
  | ⟨0, _⟩ => show win2_4.index (pointOf2 i) (0 : Fin 3) * 1 ≤ (i 0).val ∧ (i 0).val < win2_4.index (pointOf2 i) (0 : Fin 3) * 1 + 1; omega
  | ⟨1, _⟩ => show win2_4.index (pointOf2 i) (1 : Fin 3) * 512 ≤ (i 1).val ∧ (i 1).val < win2_4.index (pointOf2 i) (1 : Fin 3) * 512 + 512; omega
  | ⟨2, _⟩ => show win2_4.index (pointOf2 i) (2 : Fin 3) * 256 ≤ (i 2).val ∧ (i 2).val < win2_4.index (pointOf2 i) (2 : Fin 3) * 256 + 256; omega

/-- An element of a written-back block has that point as its point and its block coordinates as its place. -/
theorem point_place_emb2 (t : Fin cfg2.N) (hf : t.val % 4 = 3) (y : ((cfg2.win 4).xblock (cfg2.grid.coords t)).Idx) :
    pointOf2 (((cfg2.win 4).blk t).view.emb y) = t ∧ placeOf2 (((cfg2.win 4).blk t).view.emb y) = y := by
  have y0 : (y 0).val < 1 := (y 0).isLt
  have y1 : (y 1).val < 512 := (y 1).isLt
  have y2 : (y 2).val < 256 := (y 2).isLt
  obtain ⟨e0, e1, e2, e3, -⟩ := index_facts2 t
  have c0 : ((((cfg2.win 4).blk t).view.emb y) 0).val = win2_4.index t (0 : Fin 3) * 1 + 1 * (y 0).val := rfl
  have c1 : ((((cfg2.win 4).blk t).view.emb y) 1).val = win2_4.index t (1 : Fin 3) * 512 + 1 * (y 1).val := rfl
  have c2 : ((((cfg2.win 4).blk t).view.emb y) 2).val = win2_4.index t (2 : Fin 3) * 256 + 1 * (y 2).val := rfl
  constructor
  · apply Fin.ext
    show ((((cfg2.win 4).blk t).view.emb y) 0).val * 16 + ((((cfg2.win 4).blk t).view.emb y) 1).val / 512 * 4 + 3 = t.val
    rw [c0, c1]; omega
  · funext a
    apply Fin.ext
    match a with
    | ⟨0, _⟩ => show 0 = (y 0).val; omega
    | ⟨1, _⟩ => show ((((cfg2.win 4).blk t).view.emb y) 1).val % 512 = (y 1).val; rw [c1]; omega
    | ⟨2, _⟩ => show ((((cfg2.win 4).blk t).view.emb y) 2).val = (y 2).val; rw [c2]; omega

/-- The output array: at each entry, what the entry's point leaves in the output block's buffer at the entry's place. -/
def rawOf (c : Dev nD) : Vec F S16x2048x256 .f32 := fun i =>
  (outsAt2 V c (pointOf2 i).val (pointOf2 i).isLt).1 (placeOf2 i)

theorem flushed2_4_eq (c : Dev nD) (t : Fin cfg2.N) (hf : (cfg2.win 4).flush t = true) :
    (dat2 V c).flushed 4 t = ((cfg2.win 4).blk t).view.read (Elt F) (rawOf V c) := by
  rw [flushed2_4]
  funext y
  rw [View.read_apply]
  obtain ⟨hp, hl⟩ := point_place_emb2 t ((flush2_4 t).mp hf) y
  show (outsAt2 V c t.val t.isLt).1 y = rawOf V c (((cfg2.win 4).blk t).view.emb y)
  unfold rawOf
  have key : ∀ (p : Fin cfg2.N) (l : S1x512x256.Idx), p = t → l = y →
      (outsAt2 V c t.val t.isLt).1 y = (outsAt2 V c p.val p.isLt).1 l := by
    rintro _ _ rfl rfl; rfl
  exact key _ _ hp hl

/-- The output array after the region. -/
theorem final2_4 (c : Dev nD) : (dat2 V c).arrAt 4 cfg2.N = rawOf V c :=
  (dat2 V c).arrAt_eq_of_cover 4 (rawOf V c) (fun t hf => flushed2_4_eq V c t hf) covered2_4

end Cert.KernelIdeal.Run

end
-- ==== Proof.LibTiles.lean ====
/-
  Sums over a table whose two index ranges are cut into equal blocks.

  An index `r < A * B` is written `B * i + p` with a block number `i < A` and an offset `p < B`; this is a
  bijection of `Fin A × Fin B` onto `Fin (A * B)`. So a sum over `Fin (A * B)` is the sum over the blocks of the
  sums over the offsets, and a double sum over a square `(A * B) × (A * B)` table is the sum, over the `A × A`
  arrangement of `B × B` tiles, of the tiles' own sums. Everything holds in any commutative additive monoid: only
  the reordering of finite sums is used.
-/
import Mathlib.Logic.Equiv.Fin.Basic
import Mathlib.Algebra.BigOperators.Fin

namespace Cert.LibTiles

open Finset

/-- The index `B * i + p` of offset `p` in block `i` lies below `A * B`. -/
theorem blk_lt {A B : ℕ} (i : Fin A) (p : Fin B) : B * i.val + p.val < A * B := by
  have hi := i.isLt
  have hp := p.isLt
  calc B * i.val + p.val < B * i.val + B := by omega
    _ = B * (i.val + 1) := (Nat.mul_succ _ _).symm
    _ ≤ B * A := Nat.mul_le_mul_left _ hi
    _ = A * B := Nat.mul_comm _ _

/-- Offset `p` of block `i`, as an index of the whole range. -/
def blk {A B : ℕ} (i : Fin A) (p : Fin B) : Fin (A * B) := ⟨B * i.val + p.val, blk_lt i p⟩

@[simp] theorem blk_val {A B : ℕ} (i : Fin A) (p : Fin B) : (blk i p).val = B * i.val + p.val := rfl

/-- A sum over `Fin (A * B)` is the sum over the `A` blocks of the sums over the `B` offsets. -/
theorem sum_blocks {M : Type*} [AddCommMonoid M] (A B : ℕ) (f : Fin (A * B) → M) :
    ∑ r, f r = ∑ i : Fin A, ∑ p : Fin B, f (blk i p) := by
  rw [← (finProdFinEquiv (m := A) (n := B)).sum_comp, Fintype.sum_prod_type]
  refine Finset.sum_congr rfl fun i _ => Finset.sum_congr rfl fun p _ => ?_
  congr 1
  ext
  simp [finProdFinEquiv, Nat.add_comm]

/-- A double sum over the square table is the sum over the `A × A` tiles (tile row `i`, tile column `j`) of
    each tile's sum over its `B × B` entries. -/
theorem sum_tiles {M : Type*} [AddCommMonoid M] (A B : ℕ) (f : Fin (A * B) → Fin (A * B) → M) :
    ∑ r, ∑ s, f r s = ∑ i : Fin A, ∑ j : Fin A, ∑ p : Fin B, ∑ q : Fin B, f (blk i p) (blk j q) := by
  rw [sum_blocks A B (fun r => ∑ s, f r s)]
  refine Finset.sum_congr rfl fun i _ => ?_
  calc ∑ p : Fin B, ∑ s, f (blk i p) s
      = ∑ p : Fin B, ∑ j : Fin A, ∑ q : Fin B, f (blk i p) (blk j q) :=
        Finset.sum_congr rfl fun p _ => sum_blocks A B _
    _ = ∑ j : Fin A, ∑ p : Fin B, ∑ q : Fin B, f (blk i p) (blk j q) := Finset.sum_comm

end Cert.LibTiles
-- ==== Proof.KiProductBlocks.lean ====
import proofs.«110154_j39565238731446_1_alg».proof.Proof.KiProductArray
import Idealize.ShloMosaic.Lib.ValueIdx

/-! # The product region's input blocks, read back to the arrays

At point t = 16 g + 4 mi + ni of the product region's grid the four input windows hold: tile (mi, ni) of graph g of the
adjacency array (512 x 512), the row scales of rows mi * 512 … of graph g, the column scales of columns ni * 512 … of
graph g, and all 2048 rows of graph g of the rounded linear layer, of which the step reads the 512 rows from ni * 512.
Each entry of each block is one entry of the array the region is entered with; which one is coordinate arithmetic over
where the blocks sit. -/

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The graph of point `t`. -/
theorem graph_lt2 (t : Fin cfg2.N) : win2_4.index t (0 : Fin 3) < 16 := (index_facts2 t).2.2.1
/-- Row r of row block mi is a row of the graph. -/
theorem row_lt2 (t : Fin cfg2.N) (r : Fin 512) : win2_4.index t (1 : Fin 3) * 512 + r.val < 2048 := by
  have := (index_facts2 t).2.2.2.1; have := r.isLt; omega
/-- Column j of column block ni is a column of the graph. -/
theorem col_lt2 (t : Fin cfg2.N) (j : Fin 512) : t.val % 4 * 512 + j.val < 2048 := by
  have := j.isLt; omega

/-- Entry (r, j) of the adjacency tile at point `t` is entry (mi * 512 + r, ni * 512 + j) of graph g. -/
theorem blk2_adj (c : Dev nD) (t : Fin cfg2.N) (r j : Fin 512) :
    iblk2 V c 0 t (ix3 (0 : Fin 1) r j)
      = V c main_arg1 (ix3 (⟨win2_4.index t (0 : Fin 3), graph_lt2 t⟩ : Fin 16)
          (⟨win2_4.index t (1 : Fin 3) * 512 + r.val, row_lt2 t r⟩ : Fin 2048) (⟨t.val % 4 * 512 + j.val, col_lt2 t j⟩ : Fin 2048)) := by
  unfold iblk2
  rw [View.read_apply]
  show V c main_arg1 (((cfg2.win 0).blk t).view.emb (ix3 (0 : Fin 1) r j)) = _
  refine congrArg (V c main_arg1) ?_
  obtain ⟨-, -, -, -, a0, a1, a2, -⟩ := index_facts2 t
  funext a
  apply Fin.ext
  match a with
  | ⟨0, _⟩ => show win2_0.index t (0 : Fin 3) * 1 + 1 * 0 = win2_4.index t (0 : Fin 3); omega
  | ⟨1, _⟩ => show win2_0.index t (1 : Fin 3) * 512 + 1 * r.val = win2_4.index t (1 : Fin 3) * 512 + r.val; omega
  | ⟨2, _⟩ => show win2_0.index t (2 : Fin 3) * 512 + 1 * j.val = t.val % 4 * 512 + j.val; omega

/-- Entry r of the row-scale block at point `t` is the scale of row mi * 512 + r of graph g. -/
theorem blk2_row (c : Dev nD) (t : Fin cfg2.N) (r : Fin 512) :
    iblk2 V c 1 t (ix3 (0 : Fin 1) r (0 : Fin 1))
      = V c main_v0 (ix3 (⟨win2_4.index t (0 : Fin 3), graph_lt2 t⟩ : Fin 16)
          (⟨win2_4.index t (1 : Fin 3) * 512 + r.val, row_lt2 t r⟩ : Fin 2048) (0 : Fin 1)) := by
  unfold iblk2
  rw [View.read_apply]
  show V c main_v0 (((cfg2.win 1).blk t).view.emb (ix3 (0 : Fin 1) r (0 : Fin 1))) = _
  refine congrArg (V c main_v0) ?_
  obtain ⟨-, -, -, -, -, -, -, b0, b1, b2, -⟩ := index_facts2 t
  funext a
  apply Fin.ext
  match a with
  | ⟨0, _⟩ => show win2_1.index t (0 : Fin 3) * 1 + 1 * 0 = win2_4.index t (0 : Fin 3); omega
  | ⟨1, _⟩ => show win2_1.index t (1 : Fin 3) * 512 + 1 * r.val = win2_4.index t (1 : Fin 3) * 512 + r.val; omega
  | ⟨2, _⟩ => show win2_1.index t (2 : Fin 3) * 1 + 1 * 0 = 0; omega

/-- Entry j of the column-scale block at point `t` is the scale of column ni * 512 + j of graph g. -/
theorem blk2_col (c : Dev nD) (t : Fin cfg2.N) (j : Fin 512) :
    iblk2 V c 2 t (ix3 (0 : Fin 1) (0 : Fin 1) j)
      = V c main_v1 (ix3 (⟨win2_4.index t (0 : Fin 3), graph_lt2 t⟩ : Fin 16) (0 : Fin 1)
          (⟨t.val % 4 * 512 + j.val, col_lt2 t j⟩ : Fin 2048)) := by
  unfold iblk2
  rw [View.read_apply]
  show V c main_v1 (((cfg2.win 2).blk t).view.emb (ix3 (0 : Fin 1) (0 : Fin 1) j)) = _
  refine congrArg (V c main_v1) ?_
  obtain ⟨-, -, -, -, -, -, -, -, -, -, c0, c1, c2, -⟩ := index_facts2 t
  funext a
  apply Fin.ext
  match a with
  | ⟨0, _⟩ => show win2_2.index t (0 : Fin 3) * 1 + 1 * 0 = win2_4.index t (0 : Fin 3); omega
  | ⟨1, _⟩ => show win2_2.index t (1 : Fin 3) * 1 + 1 * 0 = 0; omega
  | ⟨2, _⟩ => show win2_2.index t (2 : Fin 3) * 512 + 1 * j.val = t.val % 4 * 512 + j.val; omega

/-- Entry (j, k) of the 512 rows of the rounded linear layer the step at point `t` reads is entry (ni * 512 + j, k) of
    graph g. -/
theorem blk2_lin (c : Dev nD) (t : Fin cfg2.N) (j : Fin 512) (k : Fin 256) :
    View.ld (iblk2 V c 3 t) (tileRect (grid2.coords t)) (ix3 (0 : Fin 1) j k)
      = V c main_v2 (ix3 (⟨win2_4.index t (0 : Fin 3), graph_lt2 t⟩ : Fin 16)
          (⟨t.val % 4 * 512 + j.val, col_lt2 t j⟩ : Fin 2048) k) := by
  show iblk2 V c 3 t ((tileRect (grid2.coords t)).emb (ix3 (0 : Fin 1) j k)) = _
  unfold iblk2
  rw [View.read_apply]
  show V c main_v2 (((cfg2.win 3).blk t).view.emb ((tileRect (grid2.coords t)).emb (ix3 (0 : Fin 1) j k))) = _
  refine congrArg (V c main_v2) ?_
  obtain ⟨-, -, -, -, -, -, -, -, -, -, -, -, -, d0, d1, d2, -, -, o0, o1, o2⟩ := index_facts2 t
  funext a
  apply Fin.ext
  match a with
  | ⟨0, _⟩ => show win2_3.index t (0 : Fin 3) * 1 + 1 * (k2_off1 (grid2.coords t) 0 + 1 * 0) = win2_4.index t (0 : Fin 3); omega
  | ⟨1, _⟩ => show win2_3.index t (1 : Fin 3) * 2048 + 1 * (k2_off1 (grid2.coords t) 1 + 1 * j.val) = t.val % 4 * 512 + j.val; omega
  | ⟨2, _⟩ => show win2_3.index t (2 : Fin 3) * 256 + 1 * (k2_off1 (grid2.coords t) 2 + 1 * k.val) = k.val; omega

end Cert.KernelIdeal.Run

end
-- ==== Proof.KiProductTile.lean ====
import proofs.«110154_j39565238731446_1_alg».proof.Proof.KiProductBlocks
import proofs.«110154_j39565238731446_1_alg».proof.Proof.KiProductIdeal
import proofs.«110154_j39565238731446_1_alg».proof.Proof.LibDiagTiles
import proofs.«110154_j39565238731446_1_alg».proof.Proof.LibInvSqrtDegree

/-! # One point's tile of the product, as a real sum

At point t = 16 g + 4 mi + ni of the product region the step adds, at entry (r, k) of the accumulator, the sum over the
tile's 512 columns j of (row scale * (adjacency entry + diagonal term) * column scale) * linear-layer entry. With the four
arrays the coercions of reals, each factor is the coercion of a real: the scales of rows N = mi * 512 + r and
M j = ni * 512 + j of graph g, the adjacency entry (N, M j), the linear layer's entry (M j, k); and the diagonal term, one
on the diagonal of a diagonal tile and zero elsewhere, is the identity matrix's entry (N, M j), because mi * 512 + r =
ni * 512 + j exactly when mi = ni and r = j. So the tile's sum is the coercion of the real sum over the tile's columns
of the layer's normalised propagation term. -/

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

/-- The graph, the row and the column of the layer that entry (r, j) of the tile at point `t` stands for. -/
abbrev graphOf2 (t : Fin cfg2.N) : Fin 16 := ⟨win2_4.index t (0 : Fin 3), graph_lt2 t⟩
abbrev rowOf2 (t : Fin cfg2.N) (r : Fin 512) : Fin 2048 := ⟨win2_4.index t (1 : Fin 3) * 512 + r.val, row_lt2 t r⟩
abbrev colOf2 (t : Fin cfg2.N) (j : Fin 512) : Fin 2048 := ⟨t.val % 4 * 512 + j.val, col_lt2 t j⟩

/-- The diagonal term at entry (r, j) of the tile at point `t` is the identity matrix's entry (row, column): the tile
    is diagonal and the entry on its diagonal exactly when the row is the column. -/
theorem eyeAt_real (t : Fin cfg2.N) (r j : Fin 512) :
    eyeAt (grid2.coords t) r j = (((if rowOf2 t r = colOf2 t j then (1 : ℝ) else 0) : ℝ) : EReal) := by
  rw [eyeAt_eq]
  obtain ⟨-, -, -, -, -, -, -, -, -, -, -, -, -, -, -, -, g1, g2, -⟩ := index_facts2 t
  have hiff : ((grid2.coords t 1).val = (grid2.coords t 2).val ∧ r = j) ↔ rowOf2 t r = colOf2 t j := by
    rw [g1, g2, Fin.ext_iff, Fin.ext_iff]
    exact (Cert.Lib.DiagTiles.tile_pos_eq_iff r.isLt j.isLt).symm
  by_cases h : rowOf2 t r = colOf2 t j
  · rw [if_pos (hiff.mpr h), if_pos h, EReal.coe_one]
  · rw [if_neg (fun hh => h (hiff.mp hh)), if_neg h, EReal.coe_zero]

/-- A tile's sum whose every factor is the coercion of a real is the coercion of the real sum. -/
theorem tile_sum_coe (i : grid2.Coords) (x0 : Vec Ideal S1x512x512 .f32) (x1 : Vec Ideal S1x512x1 .f32) (x2 : Vec Ideal S1x1x512 .f32)
    (x3 : Vec Ideal S1x2048x256 .bf16) (r : Fin 512) (k : Fin 256) (dN : ℝ) (A E D L : Fin 512 → ℝ)
    (e1 : x1 (ix3 (0 : Fin 1) r (0 : Fin 1)) = ((dN : ℝ) : EReal)) (e0 : ∀ j, x0 (ix3 (0 : Fin 1) r j) = ((A j : ℝ) : EReal))
    (ee : ∀ j, eyeAt i r j = ((E j : ℝ) : EReal)) (e2 : ∀ j, x2 (ix3 (0 : Fin 1) (0 : Fin 1) j) = ((D j : ℝ) : EReal))
    (e3 : ∀ j, View.ld x3 (tileRect i) (ix3 (0 : Fin 1) j k) = ((L j : ℝ) : EReal)) :
    (∑ j : Fin 512, ((x1 (ix3 (0 : Fin 1) r (0 : Fin 1)) * (x0 (ix3 (0 : Fin 1) r j) + eyeAt i r j)) * x2 (ix3 (0 : Fin 1) (0 : Fin 1) j))
        * View.ld x3 (tileRect i) (ix3 (0 : Fin 1) j k))
      = ((∑ j : Fin 512, (dN * (A j + E j)) * D j * L j : ℝ) : EReal) := by
  rw [Cert.Lib.InvSqrtDegree.coe_sum]
  refine Finset.sum_congr rfl fun j _ => ?_
  rw [e1, e0 j, ee j, e2 j, e3 j, ← EReal.coe_add, ← EReal.coe_mul, ← EReal.coe_mul, ← EReal.coe_mul]

variable (V : (c : Dev nD) → (b : Ref sig .tc) → Buf (Elt Ideal) ((c : Thread nD τ).loc b))

/-- One point's tile, over any four vectors that are the input blocks at `t`: entered with the adjacency array, the two
    arrays of scales and the rounded linear layer at the coercions of reals `adj`, `dis`, `dis`, `lin`, the sum the step at
    point `t` adds at entry (r, k) is the coercion of the real sum over the tile's columns. -/
theorem tile_real_of (c : Dev nD) (t : Fin cfg2.N) (adj : Fin 16 → Fin 2048 → Fin 2048 → ℝ) (dis : Fin 16 → Fin 2048 → ℝ)
    (lin : Fin 16 → Fin 2048 → Fin 256 → ℝ)
    (h0 : ∀ bi n m, V c main_arg1 (ix3 bi n m) = ((adj bi n m : ℝ) : EReal))
    (h1 : ∀ bi n, V c main_v0 (ix3 bi n (0 : Fin 1)) = ((dis bi n : ℝ) : EReal))
    (h2 : ∀ bi n, V c main_v1 (ix3 bi (0 : Fin 1) n) = ((dis bi n : ℝ) : EReal))
    (h3 : ∀ bi n k, V c main_v2 (ix3 bi n k) = ((lin bi n k : ℝ) : EReal))
    (r : Fin 512) (k : Fin 256)
    {x0 : Vec Ideal S1x512x512 .f32} {x1 : Vec Ideal S1x512x1 .f32} {x2 : Vec Ideal S1x1x512 .f32} {x3 : Vec Ideal S1x2048x256 .bf16}
    (hx0 : x0 = iblk2 V c 0 t) (hx1 : x1 = iblk2 V c 1 t) (hx2 : x2 = iblk2 V c 2 t) (hx3 : x3 = iblk2 V c 3 t) :
    (∑ j : Fin 512, ((x1 (ix3 (0 : Fin 1) r (0 : Fin 1)) * (x0 (ix3 (0 : Fin 1) r j) + eyeAt (grid2.coords t) r j)) * x2 (ix3 (0 : Fin 1) (0 : Fin 1) j))
        * View.ld x3 (tileRect (grid2.coords t)) (ix3 (0 : Fin 1) j k))
      = ((∑ j : Fin 512, (dis (graphOf2 t) (rowOf2 t r) * (adj (graphOf2 t) (rowOf2 t r) (colOf2 t j) + if rowOf2 t r = colOf2 t j then 1 else 0))
          * dis (graphOf2 t) (colOf2 t j) * lin (graphOf2 t) (colOf2 t j) k : ℝ) : EReal) := by
  subst hx0 hx1 hx2 hx3
  exact tile_sum_coe (grid2.coords t) _ _ _ _ r k (dis (graphOf2 t) (rowOf2 t r))
    (fun j => adj (graphOf2 t) (rowOf2 t r) (colOf2 t j)) (fun j => if rowOf2 t r = colOf2 t j then 1 else 0)
    (fun j => dis (graphOf2 t) (colOf2 t j)) (fun j => lin (graphOf2 t) (colOf2 t j) k)
    ((blk2_row V c t r).trans (h1 _ _)) (fun j => (blk2_adj V c t r j).trans (h0 _ _ _)) (fun j => eyeAt_real t r j)
    (fun j => (blk2_col V c t j).trans (h2 _ _)) (fun j => (blk2_lin V c t j k).trans (h3 _ _ _))

/-- The four input blocks at point `t`, as vectors of their literal shapes. -/
abbrev adjTile2 (c : Dev nD) (t : Fin cfg2.N) : Vec Ideal S1x512x512 .f32 := iblk2 V c 0 t
abbrev rowScale2 (c : Dev nD) (t : Fin cfg2.N) : Vec Ideal S1x512x1 .f32 := iblk2 V c 1 t
abbrev colScale2 (c : Dev nD) (t : Fin cfg2.N) : Vec Ideal S1x1x512 .f32 := iblk2 V c 2 t
abbrev linRows2 (c : Dev nD) (t : Fin cfg2.N) : Vec Ideal S1x2048x256 .bf16 := iblk2 V c 3 t

/-- ONE POINT'S TILE, over the four input blocks at `t` themselves. -/
theorem tile_real (c : Dev nD) (t : Fin cfg2.N) (adj : Fin 16 → Fin 2048 → Fin 2048 → ℝ) (dis : Fin 16 → Fin 2048 → ℝ)
    (lin : Fin 16 → Fin 2048 → Fin 256 → ℝ)
    (h0 : ∀ bi n m, V c main_arg1 (ix3 bi n m) = ((adj bi n m : ℝ) : EReal))
    (h1 : ∀ bi n, V c main_v0 (ix3 bi n (0 : Fin 1)) = ((dis bi n : ℝ) : EReal))
    (h2 : ∀ bi n, V c main_v1 (ix3 bi (0 : Fin 1) n) = ((dis bi n : ℝ) : EReal))
    (h3 : ∀ bi n k, V c main_v2 (ix3 bi n k) = ((lin bi n k : ℝ) : EReal))
    (r : Fin 512) (k : Fin 256) :
    (∑ j : Fin 512, ((rowScale2 V c t (ix3 (0 : Fin 1) r (0 : Fin 1))
          * (adjTile2 V c t (ix3 (0 : Fin 1) r j) + eyeAt (grid2.coords t) r j))
          * colScale2 V c t (ix3 (0 : Fin 1) (0 : Fin 1) j))
        * View.ld (linRows2 V c t) (tileRect (grid2.coords t)) (ix3 (0 : Fin 1) j k))
      = ((∑ j : Fin 512, (dis (graphOf2 t) (rowOf2 t r) * (adj (graphOf2 t) (rowOf2 t r) (colOf2 t j) + if rowOf2 t r = colOf2 t j then 1 else 0))
          * dis (graphOf2 t) (colOf2 t j) * lin (graphOf2 t) (colOf2 t j) k : ℝ) : EReal) :=
  tile_real_of V c t adj dis lin h0 h1 h2 h3 r k rfl rfl rfl rfl

/-- The same sum as one step of the accumulation states it (the step over the four blocks read at entry (r, k)). -/
theorem step2_tile_real (c : Dev nD) (t : Fin cfg2.N) (adj : Fin 16 → Fin 2048 → Fin 2048 → ℝ) (dis : Fin 16 → Fin 2048 → ℝ)
    (lin : Fin 16 → Fin 2048 → Fin 256 → ℝ)
    (h0 : ∀ bi n m, V c main_arg1 (ix3 bi n m) = ((adj bi n m : ℝ) : EReal))
    (h1 : ∀ bi n, V c main_v0 (ix3 bi n (0 : Fin 1)) = ((dis bi n : ℝ) : EReal))
    (h2 : ∀ bi n, V c main_v1 (ix3 bi (0 : Fin 1) n) = ((dis bi n : ℝ) : EReal))
    (h3 : ∀ bi n k, V c main_v2 (ix3 bi n k) = ((lin bi n k : ℝ) : EReal))
    (s : Vec Ideal S512x256 .f32) (r : Fin 512) (k : Fin 256) :
    step2 (F := Ideal) (grid2.coords t) (iblk2 V c 0 t) (iblk2 V c 1 t) (iblk2 V c 2 t) (iblk2 V c 3 t) s (ix2 r k)
      = s (ix2 r k) + ((∑ j : Fin 512, (dis (graphOf2 t) (rowOf2 t r) * (adj (graphOf2 t) (rowOf2 t r) (colOf2 t j) + if rowOf2 t r = colOf2 t j then 1 else 0))
          * dis (graphOf2 t) (colOf2 t j) * lin (graphOf2 t) (colOf2 t j) k : ℝ) : EReal) :=
  (step2_apply (grid2.coords t) _ _ _ _ s r k).trans
    (congrArg (s (ix2 r k) + ·) (tile_real_of V c t adj dis lin h0 h1 h2 h3 r k rfl rfl rfl rfl))

end Cert.KernelIdeal.Run

end
-- ==== Proof.KiProductFinal.lean ====
/-
  The third launch's output over the extended reals.  Entry (r, k) of the accumulator after a point is the entry after the
  point before — zero at a point whose last coordinate is 0 — plus that point's tile sum
      sum over the tile's 512 columns j of  (rowscale(r) * (adj(r, j) + e(r, j)) * colscale(j)) * hlin(j, k).
-/
import proofs.«110154_j39565238731446_1_alg».proof.Proof.KiProductIdeal
import proofs.«110154_j39565238731446_1_alg».proof.Proof.KiProductArray
import proofs.«110154_j39565238731446_1_alg».proof.Proof.LibTiles
import proofs.«110154_j39565238731446_1_alg».proof.Proof.KiProductTile

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The four input blocks at a point, at their vector types: the adj tile, the row scales, the column scales, h_lin. -/
def inAdj (c : Dev nD) (t : Fin cfg2.N) : Vec Ideal S1x512x512 .f32 := iblk2 V c 0 t
def inRow (c : Dev nD) (t : Fin cfg2.N) : Vec Ideal S1x512x1 .f32 := iblk2 V c 1 t
def inCol (c : Dev nD) (t : Fin cfg2.N) : Vec Ideal S1x1x512 .f32 := iblk2 V c 2 t
def inLin (c : Dev nD) (t : Fin cfg2.N) : Vec Ideal S1x2048x256 .bf16 := iblk2 V c 3 t

/-- One point's contribution to entry (r, k) of the accumulator. -/
def tileSum (c : Dev nD) (t : Fin cfg2.N) (r : Fin 512) (k : Fin 256) : EReal :=
  ∑ j : Fin 512, ((inRow V c t (ix3 (0 : Fin 1) r (0 : Fin 1)) * (inAdj V c t (ix3 (0 : Fin 1) r j) + eyeAt (grid2.coords t) r j)) * inCol V c t (ix3 (0 : Fin 1) (0 : Fin 1) j)) * View.ld (inLin V c t) (tileRect (grid2.coords t)) (ix3 (0 : Fin 1) j k)

/-- The cleared accumulator is zero everywhere. -/
theorem k2_pay2_apply (i : S512x256.Idx) : k2_pay2 (F := Ideal) i = 0 := by
  unfold k2_pay2
  simp only [shapeCast_self]
  rw [broadcast_apply]
  exact Ideal.ofBits_zero_f32

theorem acc2_entry_reset (c : Dev nD) (t : Fin cfg2.N) (h0 : t.val % 4 = 0) (r : Fin 512) (k : Fin 256) :
    acc2 V c t.val t.isLt (ix2 r k) = 0 + tileSum V c t r k := by
  rw [acc2_reset V c t h0, step2_apply, k2_pay2_apply]
  rfl

theorem acc2_entry_step (c : Dev nD) (t : Fin cfg2.N) (h0 : ¬t.val % 4 = 0) (r : Fin 512) (k : Fin 256) :
    acc2 V c t.val t.isLt (ix2 r k)
      = acc2 V c (t.val - 1) (Nat.lt_of_le_of_lt (Nat.sub_le _ _) t.isLt) (ix2 r k) + tileSum V c t r k := by
  rw [acc2_step V c t h0, step2_apply]
  rfl

/-- The accumulator after position n depends on n alone. -/
theorem acc2_congr (c : Dev nD) {n n' : ℕ} (h : n = n') (hn : n < cfg2.N) (hn' : n' < cfg2.N) :
    acc2 V c n hn = acc2 V c n' hn' := by
  subst h; rfl

/-- The output block's buffer re-lays the accumulator with a leading unit axis. -/
theorem k2_pay1_apply (s : Vec Ideal S512x256 .f32) (r : Fin 512) (k : Fin 256) :
    k2_pay1 s (ix3 (0 : Fin 1) r k) = s (ix2 r k) := by
  unfold k2_pay1
  rw [shapeCast_addUnit_apply]
  exact congrArg s (funext fun d => by match d with | ⟨0, _⟩ => rfl | ⟨1, _⟩ => rfl)

/-! ## The four points of a row block -/

/-- Point (g, mi, q) of the grid: position 16 g + 4 mi + q. -/
def pt (g : Fin 16) (mi : Fin 4) (q : ℕ) (hq : q < 4) : Fin cfg2.N :=
  ⟨g.val * 16 + mi.val * 4 + q, by
    have hg := g.isLt
    have hm := mi.isLt
    show _ < grid2.N
    rw [N_2]; omega⟩

/-- After the last of a row block's four points the accumulator's entry is the four tile sums added from zero. -/
theorem acc_four (c : Dev nD) (g : Fin 16) (mi : Fin 4) (r : Fin 512) (k : Fin 256) :
    acc2 V c (pt g mi 3 (by decide)).val (pt g mi 3 (by decide)).isLt (ix2 r k)
      = (((0 + tileSum V c (pt g mi 0 (by decide)) r k) + tileSum V c (pt g mi 1 (by decide)) r k)
          + tileSum V c (pt g mi 2 (by decide)) r k) + tileSum V c (pt g mi 3 (by decide)) r k := by
  have hg := g.isLt
  have hm := mi.isLt
  have v3 : (pt g mi 3 (by decide)).val = g.val * 16 + mi.val * 4 + 3 := rfl
  have v2 : (pt g mi 2 (by decide)).val = g.val * 16 + mi.val * 4 + 2 := rfl
  have v1 : (pt g mi 1 (by decide)).val = g.val * 16 + mi.val * 4 + 1 := rfl
  have v0 : (pt g mi 0 (by decide)).val = g.val * 16 + mi.val * 4 + 0 := rfl
  rw [acc2_entry_step V c (pt g mi 3 (by decide)) (by rw [v3]; omega),
    acc2_congr V c (show (pt g mi 3 (by decide)).val - 1 = (pt g mi 2 (by decide)).val by rw [v3, v2]; omega) _ (pt g mi 2 (by decide)).isLt,
    acc2_entry_step V c (pt g mi 2 (by decide)) (by rw [v2]; omega),
    acc2_congr V c (show (pt g mi 2 (by decide)).val - 1 = (pt g mi 1 (by decide)).val by rw [v2, v1]; omega) _ (pt g mi 1 (by decide)).isLt,
    acc2_entry_step V c (pt g mi 1 (by decide)) (by rw [v1]; omega),
    acc2_congr V c (show (pt g mi 1 (by decide)).val - 1 = (pt g mi 0 (by decide)).val by rw [v1, v0]; omega) _ (pt g mi 0 (by decide)).isLt,
    acc2_entry_reset V c (pt g mi 0 (by decide)) (by rw [v0]; omega)]

/-- Where the output block of point (g, mi, q) sits: block (g, mi). -/
theorem pt_index (g : Fin 16) (mi : Fin 4) (q : ℕ) (hq : q < 4) :
    win2_4.index (pt g mi q hq) (0 : Fin 3) = g.val ∧ win2_4.index (pt g mi q hq) (1 : Fin 3) = mi.val ∧ (pt g mi q hq).val % 4 = q := by
  have hg := g.isLt
  have hm := mi.isLt
  obtain ⟨e0, -, e2, e3, -⟩ := index_facts2 (pt g mi q hq)
  have hv : (pt g mi q hq).val = g.val * 16 + mi.val * 4 + q := rfl
  rw [hv] at e0
  have hmod : (g.val * 16 + mi.val * 4 + q) % 4 = q := by omega
  rw [hv]
  rw [hmod] at e0
  refine ⟨by omega, by omega, hmod⟩

/-- One point's tile sum, for entry arrays that are coercions of real arrays: the part of the row's contraction that
    runs over the point's 512 columns. -/
theorem tile_at (c : Dev nD) (g : Fin 16) (mi : Fin 4) (q : ℕ) (hq : q < 4)
    (adj : Fin 16 → Fin 2048 → Fin 2048 → ℝ) (dis : Fin 16 → Fin 2048 → ℝ) (lin : Fin 16 → Fin 2048 → Fin 256 → ℝ)
    (h0 : ∀ bi n m, V c main_arg1 (ix3 bi n m) = ((adj bi n m : ℝ) : EReal)) (h1 : ∀ bi n, V c main_v0 (ix3 bi n (0 : Fin 1)) = ((dis bi n : ℝ) : EReal))
    (h2 : ∀ bi n, V c main_v1 (ix3 bi (0 : Fin 1) n) = ((dis bi n : ℝ) : EReal)) (h3 : ∀ bi n k, V c main_v2 (ix3 bi n k) = ((lin bi n k : ℝ) : EReal))
    (r : Fin 512) (k : Fin 256) (n : Fin 2048) (hn : n.val = mi.val * 512 + r.val) :
    tileSum V c (pt g mi q hq) r k
      = ((∑ j : Fin 512, (dis g n * (adj g n (Cert.LibTiles.blk (A := 4) (B := 512) ⟨q, hq⟩ j) + if n = Cert.LibTiles.blk (A := 4) (B := 512) ⟨q, hq⟩ j then 1 else 0))
            * dis g (Cert.LibTiles.blk (A := 4) (B := 512) ⟨q, hq⟩ j) * lin g (Cert.LibTiles.blk (A := 4) (B := 512) ⟨q, hq⟩ j) k : ℝ) : EReal) := by
  obtain ⟨i0, i1, i2⟩ := pt_index g mi q hq
  unfold tileSum inAdj inRow inCol inLin
  refine (tile_real V c (pt g mi q hq) adj dis lin h0 h1 h2 h3 r k).trans ?_
  have hG : graphOf2 (pt g mi q hq) = g := Fin.ext i0
  have hN : rowOf2 (pt g mi q hq) r = n :=
    Fin.ext (by show win2_4.index (pt g mi q hq) (1 : Fin 3) * 512 + r.val = n.val; rw [i1, hn])
  have hM : ∀ j : Fin 512, colOf2 (pt g mi q hq) j = Cert.LibTiles.blk (A := 4) (B := 512) ⟨q, hq⟩ j :=
    fun j => Fin.ext (by show (pt g mi q hq).val % 4 * 512 + j.val = 512 * q + j.val; rw [i2]; omega)
  simp only [hG, hN, hM]

/-! ## The output array -/

/-- THE PRODUCT.  Entered with adj, the row and column scales and h_lin at the coercions of real arrays, the third launch
    leaves at entry (g, n, k) the coercion of  sum over all 2048 columns m of  (dis(n) (adj(n, m) + [n = m]) dis(m)) lin(m, k). -/
theorem product_value (c : Dev nD) (adj : Fin 16 → Fin 2048 → Fin 2048 → ℝ) (dis : Fin 16 → Fin 2048 → ℝ) (lin : Fin 16 → Fin 2048 → Fin 256 → ℝ)
    (h0 : ∀ bi n m, V c main_arg1 (ix3 bi n m) = ((adj bi n m : ℝ) : EReal)) (h1 : ∀ bi n, V c main_v0 (ix3 bi n (0 : Fin 1)) = ((dis bi n : ℝ) : EReal))
    (h2 : ∀ bi n, V c main_v1 (ix3 bi (0 : Fin 1) n) = ((dis bi n : ℝ) : EReal)) (h3 : ∀ bi n k, V c main_v2 (ix3 bi n k) = ((lin bi n k : ℝ) : EReal))
    (bi : Fin 16) (n : Fin 2048) (k : Fin 256) :
    (dat2 V c).arrAt 4 cfg2.N (ix3 bi n k)
      = ((∑ m, (dis bi n * (adj bi n m + if n = m then 1 else 0)) * dis bi m * lin bi m k : ℝ) : EReal) := by
  have hnlt : n.val < 2048 := n.isLt
  let mi : Fin 4 := ⟨n.val / 512, by omega⟩
  let r : Fin 512 := ⟨n.val % 512, Nat.mod_lt _ (by decide)⟩
  have hn : n.val = mi.val * 512 + r.val := by show n.val = n.val / 512 * 512 + n.val % 512; omega
  rw [final2_4]
  unfold rawOf
  have hp : pointOf2 (ix3 bi n k) = pt bi mi 3 (by decide) := Fin.ext rfl
  have hl : placeOf2 (ix3 bi n k) = ix3 (0 : Fin 1) r k := by
    funext a; match a with | ⟨0, _⟩ => rfl | ⟨1, _⟩ => rfl | ⟨2, _⟩ => rfl
  have key : ∀ (p : Fin cfg2.N) (l : S1x512x256.Idx), p = pt bi mi 3 (by decide) → l = ix3 (0 : Fin 1) r k →
      (outsAt2 V c p.val p.isLt).1 l = (outsAt2 V c (pt bi mi 3 (by decide)).val (pt bi mi 3 (by decide)).isLt).1 (ix3 (0 : Fin 1) r k) := by
    rintro _ _ rfl rfl; rfl
  rw [key _ _ hp hl]
  rw [out2_last V c (pt bi mi 3 (by decide)) (pt_index bi mi 3 (by decide)).2.2, k2_pay1_apply, acc_four]
  rw [tile_at V c bi mi 0 (by decide) adj dis lin h0 h1 h2 h3 r k n hn, tile_at V c bi mi 1 (by decide) adj dis lin h0 h1 h2 h3 r k n hn,
    tile_at V c bi mi 2 (by decide) adj dis lin h0 h1 h2 h3 r k n hn, tile_at V c bi mi 3 (by decide) adj dis lin h0 h1 h2 h3 r k n hn]
  rw [← EReal.coe_zero, ← EReal.coe_add, ← EReal.coe_add, ← EReal.coe_add, ← EReal.coe_add]
  refine congrArg (fun x : ℝ => (x : EReal)) ?_
  have hs := Cert.LibTiles.sum_blocks 4 512 (fun m : Fin (4 * 512) => (dis bi n * (adj bi n m + if n = m then 1 else 0)) * dis bi m * lin bi m k)
  rw [Fin.sum_univ_four] at hs
  rw [zero_add]
  exact hs.symm

end Cert.KernelIdeal.Run

end
-- ==== Proof.KiKernelValue.lean ====
import proofs.«110154_j39565238731446_1_alg».proof.Proof.KiValue
import proofs.«110154_j39565238731446_1_alg».proof.Proof.KiDegIdeal
import proofs.«110154_j39565238731446_1_alg».proof.Proof.KiLinearIdeal
import proofs.«110154_j39565238731446_1_alg».proof.Proof.KiProductFinal

/-! # The layer's output array as the layer's function of its arguments

With the seven argument arrays real and the edge weights non-negative, the output array after the run holds, entry by
entry, the layer's output on those arrays: the four regions' values and the host statistics composed. -/

set_option maxRecDepth 16384

noncomputable section

namespace Cert.KernelIdeal.Value

open Cert.KernelIdeal Cert.KernelIdeal.Gen Cert.KernelIdeal.Run Cert.KernelIdeal.NormalizeValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- THE KERNEL'S VALUE: the launch memory holding real arrays `h`, `adj`, `W`, `b`, `bnw`, `bnb` and a real `resw` at the
    seven arguments, the edge weights non-negative, the output array ends at the layer's output on them. -/
theorem kernel_value (c : Dev nD) (h : Fin 16 → Fin 2048 → Fin 256 → ℝ) (adj : Fin 16 → Fin 2048 → Fin 2048 → ℝ)
    (W : Fin 256 → Fin 256 → ℝ) (b bnw bnb : Fin 256 → ℝ) (resw : ℝ)
    (hm0 : ∀ bi n k, (m ((c : Thread nD τ).loc main_arg0) : Vec Ideal S16x2048x256 .f32) (ix3 bi n k) = ((h bi n k : ℝ) : EReal))
    (hm1 : ∀ bi n m', (m ((c : Thread nD τ).loc main_arg1) : Vec Ideal S16x2048x2048 .f32) (ix3 bi n m') = ((adj bi n m' : ℝ) : EReal))
    (hm2 : ∀ k d, (m ((c : Thread nD τ).loc main_arg2) : Vec Ideal S256x256 .f32) (ix2 k d) = ((W k d : ℝ) : EReal))
    (hm3 : ∀ k, (m ((c : Thread nD τ).loc main_arg3) : Vec Ideal S256 .f32) (ix1 k) = ((b k : ℝ) : EReal))
    (hm4 : ∀ k, (m ((c : Thread nD τ).loc main_arg4) : Vec Ideal S256 .f32) (ix1 k) = ((bnw k : ℝ) : EReal))
    (hm5 : ∀ k, (m ((c : Thread nD τ).loc main_arg5) : Vec Ideal S256 .f32) (ix1 k) = ((bnb k : ℝ) : EReal))
    (hm6 : (m ((c : Thread nD τ).loc main_arg6) : Vec Ideal S_ .f32) ix0 = ((resw : ℝ) : EReal))
    (hadj : ∀ bi n m', 0 ≤ adj bi n m') :
    ∀ bi n k, (W8 m ρ c (Proc.devRef .tc main_v10) : Vec Ideal S16x2048x256 .f32) (ix3 bi n k)
      = ((Cert.Spec.out h adj W b bnw bnb resw Cert.Spec.epsR bi n k : ℝ) : EReal) :=
  kernel_value_of m ρ c h adj W b bnw bnb resw hm0 hm4 hm5 hm6 hm1
    (fun bi n => dis_final (En0 m ρ) c adj hadj hm1 bi n)
    (fun bi n k => lin_final (En1 m ρ) c h W b
      (fun bi n d => (congrFun (W2_main_arg0_eq_W0 m ρ c) (ix3 bi n d)).trans (hm0 bi n d))
      (fun k d => (congrFun (W2_main_arg2_eq_W0 m ρ c) (ix2 k d)).trans (hm2 k d))
      (fun k => (congrFun (W2_main_arg3_eq_W0 m ρ c) (ix1 k)).trans (hm3 k)) bi n k)
    (fun dis lin => product_value (En2 m ρ) c adj dis lin)

end Cert.KernelIdeal.Value

end
-- ==== Proof.Algebraic.lean ====
/-
  The two idealised programs end with equal results.

  Under the precondition every entry of the seven argument arrays is a real number and adj >= 0, so on each device the
  arrays are coercions of real arrays h, adj, W, b, bn_weight, bn_bias and a real res_weight.  The kernel program's result
  buffer ends, entry by entry, at the coercion of the layer's value out(h, adj, W, b, bn_weight, bn_bias, res_weight) — the
  four launches' outputs read as whole arrays and chained through the host steps between them —, and so does the
  reference's, its 86 host operations read one at a time.  The one place the sign of adj is used is the scale: every
  degree is at least 1, where the power deg^(-1/2) the reference writes is the reciprocal square root the kernel takes and
  the reference's replacement of an infinite scale never happens.
-/
import proofs.«110154_j39565238731446_1_alg».proof.Defs
import proofs.«110154_j39565238731446_1_alg».proof.Proof.Gen.KernelIdeal
import proofs.«110154_j39565238731446_1_alg».proof.Proof.Gen.ReferenceIdeal
import proofs.«110154_j39565238731446_1_alg».proof.Proof.Gen.Pre_finite_inputs
import proofs.«110154_j39565238731446_1_alg».proof.Proof.InputFacts
import proofs.«110154_j39565238731446_1_alg».proof.Proof.RefValue
import proofs.«110154_j39565238731446_1_alg».proof.Proof.KiKernelValue
import proofs.«110154_j39565238731446_1_alg».proof.Proof.Eps

noncomputable section

namespace Cert.Proof

open Idealize.ShloMosaic Idealize.ShloMosaic.TcCoe Idealize.SL.Sem Idealize.ShloMosaic.ValueIdx

theorem algebraic : Cert.algebraic_KernelIdeal_ReferenceIdeal := by
  intro m ρ m' ρ' hpre hagree
  have hf := fun c => Cert.InputFacts.of_pre _ _ _ _ _ _ _ (hpre c)
  choose hR hhR using fun c i => (hf c).h_real i
  choose aR haR using fun c i => (hf c).adj_real i
  choose wR hwR using fun c i => (hf c).W_real i
  choose bR hbR using fun c i => (hf c).b_real i
  choose gR hgR using fun c i => (hf c).bnw_real i
  choose oR hoR using fun c i => (hf c).bnb_real i
  choose sR hsR using fun c i => (hf c).resw_real i
  have hnn : ∀ c i, 0 ≤ aR c i := fun c i => by
    have h := (hf c).adj_nonneg i
    rw [haR c i] at h
    exact_mod_cast h
  refine ⟨fun c i => ((Cert.Spec.out (fun bi n d => hR c (ix3 bi n d)) (fun bi n m => aR c (ix3 bi n m)) (fun k d => wR c (ix2 k d))
      (fun k => bR c (ix1 k)) (fun k => gR c (ix1 k)) (fun k => oR c (ix1 k)) (sR c ix0) Cert.Spec.epsR
      ⟨(i 0).val, (i 0).isLt⟩ ⟨(i 1).val, (i 1).isLt⟩ ⟨(i 2).val, (i 2).isLt⟩ : ℝ) : EReal), ?_, ?_⟩
  · exact Cert.KernelIdeal.Value.kernel_run m ρ _ (fun c bi n k =>
      Cert.KernelIdeal.Value.kernel_value m ρ c _ _ _ _ _ _ _
        (fun bi n d => hhR c (ix3 bi n d)) (fun bi n m => haR c (ix3 bi n m)) (fun k d => hwR c (ix2 k d))
        (fun k => hbR c (ix1 k)) (fun k => hgR c (ix1 k)) (fun k => hoR c (ix1 k)) (hsR c ix0)
        (fun bi n m => hnn c (ix3 bi n m)) bi n k)
  · refine (θ_run Cert.ReferenceIdeal.defs _ _).mono (fun r h c => ⟨?_, (h c).2⟩)
      (Cert.ReferenceIdeal.RefRun.run (F := Ideal) m' ρ')
    rw [(h c).1]
    obtain ⟨e0, e1, e2, e3, e4, e5, e6⟩ := hagree c
    funext i
    rw [eq_ix3 i]
    exact Cert.ReferenceIdeal.RefValue.result_eq _ _ _ _ _ _ _ Cert.Spec.epsR _
      (fun bi n d => (congrFun e0 (ix3 bi n d)).trans (hhR c (ix3 bi n d)))
      (fun bi n m => (congrFun e1 (ix3 bi n m)).trans (haR c (ix3 bi n m))) (fun bi n m => hnn c (ix3 bi n m))
      (fun k d => (congrFun e2 (ix2 k d)).trans (hwR c (ix2 k d)))
      (fun k => (congrFun e3 (ix1 k)).trans (hbR c (ix1 k))) (fun k => (congrFun e4 (ix1 k)).trans (hgR c (ix1 k)))
      (fun k => (congrFun e5 (ix1 k)).trans (hoR c (ix1 k))) ((congrFun e6 ix0).trans (hsR c ix0))
      Cert.Spec.ofBits_eps Cert.Spec.epsR_pos (i 0) (i 1) (i 2)

end Cert.Proof

end
-- ==== Proof.lean ====
/-
  A graph-convolution layer: out = relu(BN(A_hat (h W^T + b))) + res_weight * h, with A_hat = D^(-1/2) (adj + I) D^(-1/2),
  D the diagonal of the row sums of adj + I, and BN the normalisation of each of the 256 channels by its mean and
  (biased) variance over all 16 * 2048 rows.

  The kernel computes it in four launches — the scales deg^(-1/2) by a reciprocal square root of (row sum of adj) + 1;
  the linear layer; the product A_hat h_lin accumulated over four column tiles of 512, the identity added on the diagonal
  tiles; the normalisation, clamp and residual — with the batch statistics taken on the host in between.  The reference is
  one straight line of host operations that writes the scale as the power deg ^ (-1/2) and replaces an infinite scale by zero.

  The two agree where every degree is positive.  For finite inputs alone they do NOT: a row of adj summing to -1 has
  degree 0, where the reference's scale is 0 and the kernel's is +infinity, and the results differ.  The precondition
  therefore also asks adj >= 0 entrywise (a weighted adjacency matrix), under which every degree is a real number >= 1,
  x ^ (-1/2) = (sqrt x)^(-1) there, the replacement never happens, and every intermediate is a real number.

  What is proved below: the three programs run and keep their arguments (the reference as one list of 86 host operations,
  none writing an argument; the kernel programs as host stretches and four regions, the third keeping its accumulator in
  its invariant), the idealisation changed no operation, and both idealised programs end, entry by entry, at the coercion of
  one real-valued function of the arguments: the kernel's four outputs read as whole arrays and chained through the host
  steps, the reference's operations read one at a time (Algebraic.lean).
-/
import proofs.«110154_j39565238731446_1_alg».proof.Defs
import proofs.«110154_j39565238731446_1_alg».proof.Proof.Gen.Kernel
import proofs.«110154_j39565238731446_1_alg».proof.Proof.Gen.Kernel.Skeleton
import proofs.«110154_j39565238731446_1_alg».proof.Proof.Gen.Kernel.Launch
import proofs.«110154_j39565238731446_1_alg».proof.Proof.Gen.Kernel.Regions
import proofs.«110154_j39565238731446_1_alg».proof.Proof.Gen.Kernel.Points
import proofs.«110154_j39565238731446_1_alg».proof.Proof.Gen.KernelIdeal
import proofs.«110154_j39565238731446_1_alg».proof.Proof.Gen.KernelIdeal.Skeleton
import proofs.«110154_j39565238731446_1_alg».proof.Proof.Gen.KernelIdeal.Launch
import proofs.«110154_j39565238731446_1_alg».proof.Proof.Gen.KernelIdeal.Regions
import proofs.«110154_j39565238731446_1_alg».proof.Proof.Gen.KernelIdeal.Points
import proofs.«110154_j39565238731446_1_alg».proof.Proof.Gen.ReferenceIdeal
import proofs.«110154_j39565238731446_1_alg».proof.Proof.Gen.Pre_finite_inputs
import Idealize.ShloMosaic.Adequacy
import Idealize.ShloMosaic.Init
import proofs.«110154_j39565238731446_1_alg».proof.Proof.RefRun
import proofs.«110154_j39565238731446_1_alg».proof.Proof.KiRun
import proofs.«110154_j39565238731446_1_alg».proof.Proof.KwRun
import proofs.«110154_j39565238731446_1_alg».proof.Proof.Algebraic
import proofs.«110154_j39565238731446_1_alg».proof.Proof.InputFacts
import proofs.«110154_j39565238731446_1_alg».proof.Proof.LibInvSqrtDegree

noncomputable section

namespace Cert.Proof

open Idealize.ShloMosaic Idealize.SL.Sem

/-- The reference terminates, faults nowhere and leaves its seven arguments unchanged: the run of its operation list with
    the result dropped.  The precondition is not needed: host operations are total. -/
theorem frame_ri : Cert.frame_ReferenceIdeal := fun m ρ _ => Cert.ReferenceIdeal.RefRun.frame (F := Ideal) m ρ

/-- The idealisation rewrote no operation: there is nothing to preserve. -/
theorem preserves : Cert.preserves_Kernel_KernelIdeal := trivial

/-- The word-level kernel program's four launches run to the end, fault nowhere and keep the seven arguments: @main as
    host stretches and four regions, each region entered from what the segment before left, the third keeping its
    accumulator in its invariant; no host operation and no region writes an argument.  The precondition is not needed. -/
theorem frame_k : Cert.frame_Kernel := fun m ρ _ => Cert.Kernel.Run.frame (F := Bits) m ρ

/-- The same text read at the extended reals. -/
theorem frame_ki : Cert.frame_KernelIdeal := fun m ρ _ => Cert.KernelIdeal.Run.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
